-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg2 : FVec F S65536x256 .f32) (main_arg3 : FVec F S65536x256 .f32) (main_v63 : IVec S_ 1) (main_v67 : IVec S_ 1) : IVec S_ 1 :=
  let main_v68 : IVec S_ 1 := andi main_v63 main_v67
  let main_v69 : FVec F S65536x256 .f32 := mulf main_arg2 main_arg2
  let main_cst_26 : FVec F S_ .f32 := constant S_ .f32 0x00000000#32
  let main_v70 : FVec F S_ .f32 := (fun x v => Host.reduceAdd x v reducesTo_S65536x256_S_d0_1 h_S_) main_v69 main_cst_26
  let main_cst_27 : FVec F S_ .f32 := constant S_ .f32 0x00000000#32
  let main_v71 : IVec S_ 1 := cmpf .ogt main_v70 main_cst_27
  let main_v72 : IVec S_ 1 := andi main_v68 main_v71
  let main_v73 : FVec F S65536x256 .f32 := mulf main_arg3 main_arg3
  let main_cst_28 : FVec F S_ .f32 := constant S_ .f32 0x00000000#32
  let main_v74 : FVec F S_ .f32 := (fun x v => Host.reduceAdd x v reducesTo_S65536x256_S_d0_1 h_S_) main_v73 main_cst_28
  let main_cst_29 : FVec F S_ .f32 := constant S_ .f32 0x00000000#32
  let main_v75 : IVec S_ 1 := cmpf .ogt main_v74 main_cst_29
  let main_v76 : IVec S_ 1 := andi main_v72 main_v75
  main_v76

def fn_part3 {F : FTy → Type} [FloatOps F] (main_arg2 : FVec F S65536x256 .f32) (main_arg3 : FVec F S65536x256 .f32) (main_arg11 : FVec F S128 .f32) (main_arg12 : FVec F S256x256 .f32) (main_arg13 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg3 main_v63 main_v67

def fn_part2 {F : FTy → Type} [FloatOps F] (main_arg2 : FVec F S65536x256 .f32) (main_arg3 : FVec F S65536x256 .f32) (main_arg7 : FVec F S256 .f32) (main_arg8 : FVec F S256x256 .f32) (main_arg9 : FVec F S256 .f32) (main_arg10 : FVec F S128x256 .f32) (main_arg11 : FVec F S128 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg2 main_arg3 main_arg11 main_arg12 main_arg13 main_v48 main_v49 main_v50

def fn_part1 {F : FTy → Type} [FloatOps F] (main_arg2 : FVec F S65536x256 .f32) (main_arg3 : FVec F S65536x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S128x256 .f32) (main_arg11 : FVec F S128 .f32) (main_arg12 : FVec F S256x256 .f32) (main_arg13 : FVec F S256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg3 main_arg7 main_arg8 main_arg9 main_arg10 main_arg11 main_arg12 main_arg13 main_v33

def fn {F : FTy → Type} [FloatOps F] (main_arg0 : FVec F S65536x256 .f32) (main_arg1 : FVec F S65536x256 .f32) (main_arg2 : FVec F S65536x256 .f32) (main_arg3 : FVec F S65536x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S128x256 .f32) (main_arg11 : FVec F S128 .f32) (main_arg12 : FVec F S256x256 .f32) (main_arg13 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg2 main_arg3 main_arg4 main_arg5 main_arg6 main_arg7 main_arg8 main_arg9 main_arg10 main_arg11 main_arg12 main_arg13 main_v13 main_v16
-- ==== Kernel.lean ====
abbrev S65536x256 : Shape := ⟨2, ![65536, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S256x128 : Shape := ⟨2, ![256, 128]⟩
abbrev S1x256 : Shape := ⟨2, ![1, 256]⟩
abbrev S1x128 : Shape := ⟨2, ![1, 128]⟩
abbrev S2x256x256 : Shape := ⟨3, ![2, 256, 256]⟩
abbrev S2x1x1 : Shape := ⟨3, ![2, 1, 1]⟩
abbrev S2048x256 : Shape := ⟨2, ![2048, 256]⟩
abbrev S1x256x256 : Shape := ⟨3, ![1, 256, 256]⟩
abbrev S1x1x1 : Shape := ⟨3, ![1, 1, 1]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩
abbrev S65536x128 : Shape := ⟨2, ![65536, 128]⟩
abbrev S2048x128 : Shape := ⟨2, ![2048, 128]⟩

abbrev nBuf : Space → Nat
  | .hbm => 45
  | .vmem => 50
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x256, .bf16⟩
  | .hbm, ⟨16, _⟩ => ⟨S256x256, .f32⟩
  | .hbm, ⟨17, _⟩ => ⟨S256x256, .bf16⟩
  | .hbm, ⟨18, _⟩ => ⟨S256x256, .f32⟩
  | .hbm, ⟨19, _⟩ => ⟨S256x256, .bf16⟩
  | .hbm, ⟨20, _⟩ => ⟨S256x256, .f32⟩
  | .hbm, ⟨21, _⟩ => ⟨S256x256, .bf16⟩
  | .hbm, ⟨22, _⟩ => ⟨S256x128, .f32⟩
  | .hbm, ⟨23, _⟩ => ⟨S256x128, .bf16⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x128, .f32⟩
  | .hbm, ⟨29, _⟩ => ⟨S65536x256, .bf16⟩
  | .hbm, ⟨30, _⟩ => ⟨S2x256x256, .f32⟩
  | .hbm, ⟨31, _⟩ => ⟨S2x1x1, .f32⟩
  | .hbm, ⟨32, _⟩ => ⟨S_, .f32⟩
  | .hbm, ⟨33, _⟩ => ⟨S256x256, .f32⟩
  | .hbm, ⟨34, _⟩ => ⟨S_, .f32⟩
  | .hbm, ⟨35, _⟩ => ⟨S1x1, .f32⟩
  | .hbm, ⟨36, _⟩ => ⟨S65536x256, .bf16⟩
  | .hbm, ⟨37, _⟩ => ⟨S2x256x256, .f32⟩
  | .hbm, ⟨38, _⟩ => ⟨S2x1x1, .f32⟩
  | .hbm, ⟨39, _⟩ => ⟨S_, .f32⟩
  | .hbm, ⟨40, _⟩ => ⟨S256x256, .f32⟩
  | .hbm, ⟨41, _⟩ => ⟨S_, .f32⟩
  | .hbm, ⟨42, _⟩ => ⟨S1x1, .f32⟩
  | .hbm, ⟨43, _⟩ => ⟨S65536x256, .f32⟩
  | .hbm, ⟨44, _⟩ => ⟨S65536x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S1x256x256, .f32⟩
  | .local _ .vmem, ⟨13, _⟩ => ⟨S1x256x256, .f32⟩
  | .local _ .vmem, ⟨14, _⟩ => ⟨S1x1x1, .f32⟩
  | .local _ .vmem, ⟨15, _⟩ => ⟨S1x1x1, .f32⟩
  | .local _ .vmem, ⟨16, _⟩ => ⟨S2048x256, .bf16⟩
  | .local _ .vmem, ⟨17, _⟩ => ⟨S2048x256, .bf16⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S256x256, .f32⟩
  | .local _ .vmem, ⟨23, _⟩ => ⟨S1x1, .f32⟩
  | .local _ .vmem, ⟨24, _⟩ => ⟨S256x256, .bf16⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S2048x256, .bf16⟩
  | .local _ .vmem, ⟨29, _⟩ => ⟨S2048x256, .bf16⟩
  | .local _ .vmem, ⟨30, _⟩ => ⟨S1x256x256, .f32⟩
  | .local _ .vmem, ⟨31, _⟩ => ⟨S1x256x256, .f32⟩
  | .local _ .vmem, ⟨32, _⟩ => ⟨S1x1x1, .f32⟩
  | .local _ .vmem, ⟨33, _⟩ => ⟨S1x1x1, .f32⟩
  | .local _ .vmem, ⟨34, _⟩ => ⟨S2048x256, .bf16⟩
  | .local _ .vmem, ⟨35, _⟩ => ⟨S2048x256, .bf16⟩
  | .local _ .vmem, ⟨36, _⟩ => ⟨S2048x256, .f32⟩
  | .local _ .vmem, ⟨37, _⟩ => ⟨S2048x256, .f32⟩
  | .local _ .vmem, ⟨38, _⟩ => ⟨S256x256, .f32⟩
  | .local _ .vmem, ⟨39, _⟩ => ⟨S1x1, .f32⟩
  | .local _ .vmem, ⟨40, _⟩ => ⟨S256x256, .bf16⟩
  | .local _ .vmem, ⟨41, _⟩ => ⟨S1x256, .f32⟩
  | .local _ .vmem, ⟨42, _⟩ => ⟨S256x256, .bf16⟩
  | .local _ .vmem, ⟨43, _⟩ => ⟨S1x256, .f32⟩
  | .local _ .vmem, ⟨44, _⟩ => ⟨S256x128, .bf16⟩
  | .local _ .vmem, ⟨45, _⟩ => ⟨S1x128, .f32⟩
  | .local _ .vmem, ⟨46, _⟩ => ⟨S2048x256, .f32⟩
  | .local _ .vmem, ⟨47, _⟩ => ⟨S2048x256, .f32⟩
  | .local _ .vmem, ⟨48, _⟩ => ⟨S2048x128, .f32⟩
  | .local _ .vmem, ⟨49, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_cst : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg10_1 : Ref sig .tc := ⟨.vmem, 47, rfl⟩
abbrev cc2_stg11_0 : Ref sig .tc := ⟨.vmem, 48, rfl⟩
abbrev cc2_stg11_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46
abbrev cc2_sem10_1 : DmaSem sig := 47
abbrev cc2_sem11_0 : DmaSem sig := 48
abbrev cc2_sem11_1 : DmaSem sig := 49

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2048x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  transposes_S256x256_S256x256_1_0 : S256x256.Transposes [1, 0] S256x256
  bitsLt_bf16_f32 : FTy.bits .bf16 < FTy.bits .f32
  transposes_S128x256_S256x128_1_0 : S128x256.Transposes [1, 0] S256x128
  shapeCasts_S256_S1x256 : S256.ShapeCasts S1x256
  shapeCasts_S128_S1x128 : S128.ShapeCasts S1x128
  inb_S1x256x256_S1x256x256_0_0_0 : ∀ a, (![0, 0, 0] : Fin 3 → Nat) a + S1x256x256.size a ≤ S1x256x256.size a
  h_S1x256x256 : 0 < S1x256x256.numel
  inb_S1x1x1_S1x1x1_0_0_0 : ∀ a, (![0, 0, 0] : Fin 3 → Nat) a + S1x1x1.size a ≤ S1x1x1.size a
  h_S1x1x1 : 0 < S1x1x1.numel
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  shapeCasts_S1x256x256_S1x256x256 : S1x256x256.ShapeCasts S1x256x256
  shapeCasts_S256x256_S1x256x256 : S256x256.ShapeCasts S1x256x256
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x256x256_S256x256_d0 : S2x256x256.ReducesTo [0] S256x256
  h_S_ : 0 < S_.numel
  reducesTo_S2x1x1_S1x1_d0 : S2x1x1.ReducesTo [0] S1x1
  shapeCasts_S2048x256_S2048x256 : S2048x256.ShapeCasts S2048x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x256 : S1x1.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x256_S256x256_S2048x256_1_0_0_1_n_n_wf : DotDims.WF S2048x256 S256x256 S2048x256 [1] [0] [0] [1] [] []
  dot_S2048x256_S2048x256_S256x256_0_0_1_1_n_n_wf : DotDims.WF S2048x256 S2048x256 S256x256 [0] [0] [1] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .bf16 = 32 ∨ (Rect.block (s := S65536x256) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x256.size a ≤ S2x256x256.size a
  hwx0_8 : ∀ i : grid0.Coords, EltTy.bits .f32 = 32 ∨ (Rect.block (s := S2x256x256) S1x256x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .bf16 = 32 ∨ (Rect.block (s := S65536x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S65536x256.size a
  hwx1_1 : ∀ i : grid1.Coords, EltTy.bits .f32 = 32 ∨ (Rect.block (s := S65536x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S65536x256.size a
  hwx1_2 : ∀ i : grid1.Coords, EltTy.bits .f32 = 32 ∨ (Rect.block (s := S65536x256) S2048x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x256.size a ≤ S65536x256.size a
  hwx1_9 : ∀ i : grid1.Coords, EltTy.bits .bf16 = 32 ∨ (Rect.block (s := S65536x256) S2048x256.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256x256.size a ≤ S2x256x256.size a
  hwx1_10 : ∀ i : grid1.Coords, EltTy.bits .f32 = 32 ∨ (Rect.block (s := S2x256x256) S1x256x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x1.size a ≤ S2x1x1.size a
  hwx1_11 : ∀ i : grid1.Coords, EltTy.bits .f32 = 32 ∨ (Rect.block (s := S2x1x1) S1x1x1.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .bf16 = 32 ∨ (Rect.block (s := S65536x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .f32 = 32 ∨ (Rect.block (s := S65536x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .bf16 = 32 ∨ (Rect.block (s := S256x256) S256x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .bf16 = 32 ∨ (Rect.block (s := S256x128) S256x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x256.size a ≤ S65536x256.size a
  hwx2_10 : ∀ i : grid2.Coords, EltTy.bits .f32 = 32 ∨ (Rect.block (s := S65536x256) S2048x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2048x128.size a ≤ S65536x128.size a
  hwx2_11 : ∀ i : grid2.Coords, EltTy.bits .f32 = 32 ∨ (Rect.block (s := S65536x128) S2048x128.size (cc2_transform_11 i) (hinb2_11 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15_1) S1x256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_2) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18_0) S2048x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v18_1) S1x256x256.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v18_2) S1x1x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v18_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v14) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v21_0) S2048x256.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v21_1) S2048x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256 : Shape := ⟨2, ![1, 256]⟩
abbrev S_ : Shape := ⟨0, ![]⟩
abbrev S256x65536 : Shape := ⟨2, ![256, 65536]⟩
abbrev S256x128 : Shape := ⟨2, ![256, 128]⟩
abbrev S65536x128 : Shape := ⟨2, ![65536, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S65536x256, .f32⟩
  | .hbm, ⟨16, _⟩ => ⟨S1x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S256x256, .f32⟩
  | .hbm, ⟨21, _⟩ => ⟨S65536x256, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S256x65536, .f32⟩
  | .hbm, ⟨34, _⟩ => ⟨S256x256, .f32⟩
  | .hbm, ⟨35, _⟩ => ⟨S65536x256, .f32⟩
  | .hbm, ⟨36, _⟩ => ⟨S65536x256, .f32⟩
  | .hbm, ⟨37, _⟩ => ⟨S256x256, .f32⟩
  | .hbm, ⟨38, _⟩ => ⟨S65536x256, .f32⟩
  | .hbm, ⟨39, _⟩ => ⟨S1x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S256x256, .f32⟩
  | .hbm, ⟨44, _⟩ => ⟨S65536x256, .f32⟩
  | .hbm, ⟨45, _⟩ => ⟨S1x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S65536x256, .f32⟩
  | .hbm, ⟨55, _⟩ => ⟨S65536x256, .f32⟩
  | .hbm, ⟨56, _⟩ => ⟨S256x65536, .f32⟩
  | .hbm, ⟨57, _⟩ => ⟨S256x256, .f32⟩
  | .hbm, ⟨58, _⟩ => ⟨S65536x256, .f32⟩
  | .hbm, ⟨59, _⟩ => ⟨S65536x256, .f32⟩
  | .hbm, ⟨60, _⟩ => ⟨S256x256, .f32⟩
  | .hbm, ⟨61, _⟩ => ⟨S65536x256, .f32⟩
  | .hbm, ⟨62, _⟩ => ⟨S1x256, .f32⟩
  | .hbm, ⟨63, _⟩ => ⟨S65536x256, .f32⟩
  | .hbm, ⟨64, _⟩ => ⟨S65536x256, .f32⟩
  | .hbm, ⟨65, _⟩ => ⟨S65536x256, .f32⟩
  | .hbm, ⟨66, _⟩ => ⟨S256x256, .f32⟩
  | .hbm, ⟨67, _⟩ => ⟨S65536x256, .f32⟩
  | .hbm, ⟨68, _⟩ => ⟨S1x256, .f32⟩
  | .hbm, ⟨69, _⟩ => ⟨S65536x256, .f32⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S256x128, .f32⟩
  | .hbm, ⟨74, _⟩ => ⟨S65536x128, .f32⟩
  | .hbm, ⟨75, _⟩ => ⟨S1x128, .f32⟩
  | .hbm, ⟨76, _⟩ => ⟨S65536x128, .f32⟩
  | .hbm, ⟨77, _⟩ => ⟨S65536x128, .f32⟩
  | .hbm, ⟨78, _⟩ => ⟨S65536x128, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S_d0_1 : S65536x256.ReducesTo [0, 1] S_
  h_S_ : 0 < S_.numel
  bcast_S_S65536x256 : S_.BroadcastsInDim S65536x256 (![] : Fin 0 → Fin S65536x256.rank)
  transposes_S65536x256_S256x65536_1_0 : S65536x256.Transposes [1, 0] S256x65536
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x256_S256x256_S65536x256_1_0_0_1_n_n_wf : DotDims.WF S65536x256 S256x256 S65536x256 [1] [0] [0] [1] [] []
  dot_S256x65536_S65536x256_S256x256_1_0_0_1_n_n_wf : DotDims.WF S256x65536 S65536x256 S256x256 [1] [0] [0] [1] [] []
  dot_S65536x256_S256x128_S65536x128_1_0_0_1_n_n_wf : DotDims.WF S65536x256 S256x128 S65536x128 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S256x65536_S65536x256_S256x256_1_0_0_1_n_n : DotDims S256x65536 S65536x256 S256x256 where
  lhsContracting := [1]
  rhsContracting := [0]
  lhsNonContracting := [0]
  rhsNonContracting := [1]
  lhsBatch := []
  rhsBatch := []
  wf := dot_S256x65536_S65536x256_S256x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.KRun.lean ====
/-
  The idealized kernel's run, with every buffer named: every weakly fair execution of its `@main` terminates, nothing
  faulting, and each buffer that outlives the kernels — the arguments, the host operations' results and the three
  pallas_calls' output arrays — ends at the contents the last segment boundary gives it: the fold of the host
  stretches and of the pipelines' write-backs from the launch memory.
-/
import proofs.«152349_j35390530519886_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every buffer the thread state holds ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.KRun
-- ==== Proof.KHost.lean ====
/-
  What each pass finds in the buffers it reads, traced back through the segment boundaries.

  Before pass 1 the host transposes each weight (and changes its format, which is the identity on the extended reals)
  and reshapes each bias to one row. Between passes it sums the two cores' partial results from zero. A buffer no
  operation and no pass writes keeps its contents across a boundary; a pass's input arrays are left as entered, and
  its output arrays hold what the pipeline's write-backs leave.
-/
import proofs.«152349_j35390530519886_2_alg».proof.Proof.Gen.KernelIdeal.Frame
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.KHost

open Cert.KernelIdeal Cert.KernelIdeal.Gen Cert.KernelIdeal.Facts
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## Entering pass 1: after the host's transposes and reshapes -/

theorem v1_arg0 : V1 m ρ c main_arg0 = m ((c : Thread nD τ).loc main_arg0) := by
  show StableHlo.after hostOps0 (W0 m ρ c) (Proc.devRef .tc main_arg0) = _; after_results
theorem v1_arg1 : V1 m ρ c main_arg1 = m ((c : Thread nD τ).loc main_arg1) := by
  show StableHlo.after hostOps0 (W0 m ρ c) (Proc.devRef .tc main_arg1) = _; after_results
theorem v1_arg2 : V1 m ρ c main_arg2 = m ((c : Thread nD τ).loc main_arg2) := by
  show StableHlo.after hostOps0 (W0 m ρ c) (Proc.devRef .tc main_arg2) = _; after_results
theorem v1_arg3 : V1 m ρ c main_arg3 = m ((c : Thread nD τ).loc main_arg3) := by
  show StableHlo.after hostOps0 (W0 m ρ c) (Proc.devRef .tc main_arg3) = _; after_results

/-- A square weight, transposed (the format change is the identity). -/
abbrev trW (W : (⟨S256x256, .f32⟩ : BufTy).Contents (Elt Ideal)) : S256x256.Idx → EReal :=
  truncf (F := Ideal) .bf16 (transpose S256x256 [1, 0] W transposes_S256x256_S256x256_1_0) bitsLt_bf16_f32
/-- The output weight, transposed. -/
abbrev trWo (W : (⟨S128x256, .f32⟩ : BufTy).Contents (Elt Ideal)) : S256x128.Idx → EReal :=
  truncf (F := Ideal) .bf16 (transpose S256x128 [1, 0] W transposes_S128x256_S256x128_1_0) bitsLt_bf16_f32
/-- A bias as one row. -/
abbrev rowB (b : (⟨S256, .f32⟩ : BufTy).Contents (Elt Ideal)) : S1x256.Idx → EReal := shapeCast S1x256 b shapeCasts_S256_S1x256
abbrev rowBo (b : (⟨S128, .f32⟩ : BufTy).Contents (Elt Ideal)) : S1x128.Idx → EReal := shapeCast S1x128 b shapeCasts_S128_S1x128

theorem v1_WnhT : (V1 m ρ c main_v1 : S256x256.Idx → EReal) = trW (m ((c : Thread nD τ).loc main_arg4)) := by
  show StableHlo.after hostOps0 (W0 m ρ c) (Proc.devRef .tc main_v1) = _; after_results
theorem v1_WnrT : (V1 m ρ c main_v3 : S256x256.Idx → EReal) = trW (m ((c : Thread nD τ).loc main_arg6)) := by
  show StableHlo.after hostOps0 (W0 m ρ c) (Proc.devRef .tc main_v3) = _; after_results
theorem v1_WntT : (V1 m ρ c main_v5 : S256x256.Idx → EReal) = trW (m ((c : Thread nD τ).loc main_arg8)) := by
  show StableHlo.after hostOps0 (W0 m ρ c) (Proc.devRef .tc main_v5) = _; after_results
theorem v1_WhT : (V1 m ρ c main_v7 : S256x256.Idx → EReal) = trW (m ((c : Thread nD τ).loc main_arg12)) := by
  show StableHlo.after hostOps0 (W0 m ρ c) (Proc.devRef .tc main_v7) = _; after_results
theorem v1_WbtT : (V1 m ρ c main_v9 : S256x128.Idx → EReal) = trWo (m ((c : Thread nD τ).loc main_arg10)) := by
  show StableHlo.after hostOps0 (W0 m ρ c) (Proc.devRef .tc main_v9) = _; after_results
theorem v1_bnh : (V1 m ρ c main_v10 : S1x256.Idx → EReal) = rowB (m ((c : Thread nD τ).loc main_arg5)) := by
  show StableHlo.after hostOps0 (W0 m ρ c) (Proc.devRef .tc main_v10) = _; after_results; rfl
theorem v1_bnr : (V1 m ρ c main_v11 : S1x256.Idx → EReal) = rowB (m ((c : Thread nD τ).loc main_arg7)) := by
  show StableHlo.after hostOps0 (W0 m ρ c) (Proc.devRef .tc main_v11) = _; after_results; rfl
theorem v1_bnt : (V1 m ρ c main_v12 : S1x256.Idx → EReal) = rowB (m ((c : Thread nD τ).loc main_arg9)) := by
  show StableHlo.after hostOps0 (W0 m ρ c) (Proc.devRef .tc main_v12) = _; after_results; rfl
theorem v1_bh : (V1 m ρ c main_v13 : S1x256.Idx → EReal) = rowB (m ((c : Thread nD τ).loc main_arg13)) := by
  show StableHlo.after hostOps0 (W0 m ρ c) (Proc.devRef .tc main_v13) = _; after_results; rfl
theorem v1_bbt : (V1 m ρ c main_v14 : S1x128.Idx → EReal) = rowBo (m ((c : Thread nD τ).loc main_arg11)) := by
  show StableHlo.after hostOps0 (W0 m ρ c) (Proc.devRef .tc main_v14) = _; after_results; rfl

/-! ## Entering pass 2: pass 1's arrays, and the sums over the two cores -/

/-- An input array of pass 1 leaves the pass as it entered. -/
theorem w2_in (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem v3_h : V3 m ρ c main_v15_0 = (dat0 (V1 m ρ) c).arrAt 7 cfg0.N :=
  (show V3 m ρ c main_v15_0 = W2 m ρ c (Proc.devRef .tc main_v15_0) from by
    show StableHlo.after hostOps1 (W2 m ρ c) (Proc.devRef .tc main_v15_0) = _; after_results).trans (W2_arr m ρ c 7)
theorem v3_nr : V3 m ρ c main_arg2 = m ((c : Thread nD τ).loc main_arg2) :=
  (show V3 m ρ c main_arg2 = W2 m ρ c (Proc.devRef .tc main_arg2) from by
    show StableHlo.after hostOps1 (W2 m ρ c) (Proc.devRef .tc main_arg2) = _; after_results).trans
    ((w2_in m ρ c 2 rfl).trans (v1_arg2 m ρ c))
theorem v3_nt : V3 m ρ c main_arg3 = m ((c : Thread nD τ).loc main_arg3) :=
  (show V3 m ρ c main_arg3 = W2 m ρ c (Proc.devRef .tc main_arg3) from by
    show StableHlo.after hostOps1 (W2 m ρ c) (Proc.devRef .tc main_arg3) = _; after_results).trans
    ((W2_of_ne m ρ c main_arg3 (by decide)).trans (v1_arg3 m ρ c))
theorem v3_M1 : (V3 m ρ c main_v16 : S256x256.Idx → EReal)
    = Host.reduceAdd (F := Ideal) ((dat0 (V1 m ρ) c).arrAt 8 cfg0.N) (constant (F := Ideal) S_ .f32 0x00000000#32) reducesTo_S2x256x256_S256x256_d0 h_S_ := by
  rw [← W2_arr m ρ c 8]
  show StableHlo.after hostOps1 (W2 m ρ c) (Proc.devRef .tc main_v16) = _; after_results
theorem v3_s1 : (V3 m ρ c main_v17 : S1x1.Idx → EReal)
    = Host.reduceAdd (F := Ideal) ((dat0 (V1 m ρ) c).arrAt 9 cfg0.N) (constant (F := Ideal) S_ .f32 0x00000000#32) reducesTo_S2x1x1_S1x1_d0 h_S_ := by
  rw [← W2_arr m ρ c 9]
  show StableHlo.after hostOps1 (W2 m ρ c) (Proc.devRef .tc main_v17) = _; after_results
theorem v3_WnrT : (V3 m ρ c main_v3 : S256x256.Idx → EReal) = trW (m ((c : Thread nD τ).loc main_arg6)) :=
  (show V3 m ρ c main_v3 = W2 m ρ c (Proc.devRef .tc main_v3) from by
    show StableHlo.after hostOps1 (W2 m ρ c) (Proc.devRef .tc main_v3) = _; after_results).trans
    ((W2_of_ne m ρ c main_v3 (by decide)).trans (v1_WnrT m ρ c))
theorem v3_bnr : (V3 m ρ c main_v11 : S1x256.Idx → EReal) = rowB (m ((c : Thread nD τ).loc main_arg7)) :=
  (show V3 m ρ c main_v11 = W2 m ρ c (Proc.devRef .tc main_v11) from by
    show StableHlo.after hostOps1 (W2 m ρ c) (Proc.devRef .tc main_v11) = _; after_results).trans
    ((W2_of_ne m ρ c main_v11 (by decide)).trans (v1_bnr m ρ c))
theorem v3_WhT : (V3 m ρ c main_v7 : S256x256.Idx → EReal) = trW (m ((c : Thread nD τ).loc main_arg12)) :=
  (show V3 m ρ c main_v7 = W2 m ρ c (Proc.devRef .tc main_v7) from by
    show StableHlo.after hostOps1 (W2 m ρ c) (Proc.devRef .tc main_v7) = _; after_results).trans
    ((w2_in m ρ c 5 rfl).trans (v1_WhT m ρ c))
theorem v3_bh : (V3 m ρ c main_v13 : S1x256.Idx → EReal) = rowB (m ((c : Thread nD τ).loc main_arg13)) :=
  (show V3 m ρ c main_v13 = W2 m ρ c (Proc.devRef .tc main_v13) from by
    show StableHlo.after hostOps1 (W2 m ρ c) (Proc.devRef .tc main_v13) = _; after_results).trans
    ((w2_in m ρ c 6 rfl).trans (v1_bh m ρ c))

/-- The buffers pass 3 needs that neither pass 1 nor the first sums touch, at pass 2's entry. -/
theorem v3_WntT : (V3 m ρ c main_v5 : S256x256.Idx → EReal) = trW (m ((c : Thread nD τ).loc main_arg8)) :=
  (show V3 m ρ c main_v5 = W2 m ρ c (Proc.devRef .tc main_v5) from by
    show StableHlo.after hostOps1 (W2 m ρ c) (Proc.devRef .tc main_v5) = _; after_results).trans
    ((W2_of_ne m ρ c main_v5 (by decide)).trans (v1_WntT m ρ c))
theorem v3_bnt : (V3 m ρ c main_v12 : S1x256.Idx → EReal) = rowB (m ((c : Thread nD τ).loc main_arg9)) :=
  (show V3 m ρ c main_v12 = W2 m ρ c (Proc.devRef .tc main_v12) from by
    show StableHlo.after hostOps1 (W2 m ρ c) (Proc.devRef .tc main_v12) = _; after_results).trans
    ((W2_of_ne m ρ c main_v12 (by decide)).trans (v1_bnt m ρ c))
theorem v3_WbtT : (V3 m ρ c main_v9 : S256x128.Idx → EReal) = trWo (m ((c : Thread nD τ).loc main_arg10)) :=
  (show V3 m ρ c main_v9 = W2 m ρ c (Proc.devRef .tc main_v9) from by
    show StableHlo.after hostOps1 (W2 m ρ c) (Proc.devRef .tc main_v9) = _; after_results).trans
    ((W2_of_ne m ρ c main_v9 (by decide)).trans (v1_WbtT m ρ c))
theorem v3_bbt : (V3 m ρ c main_v14 : S1x128.Idx → EReal) = rowBo (m ((c : Thread nD τ).loc main_arg11)) :=
  (show V3 m ρ c main_v14 = W2 m ρ c (Proc.devRef .tc main_v14) from by
    show StableHlo.after hostOps1 (W2 m ρ c) (Proc.devRef .tc main_v14) = _; after_results).trans
    ((W2_of_ne m ρ c main_v14 (by decide)).trans (v1_bbt m ρ c))

/-! ## Entering pass 3: pass 2's arrays, and the sums over the two cores -/

/-- An input array of pass 2 leaves the pass as it entered. -/
theorem w4_in (w : Fin cfg1.W) (hw : (cfg1.win w).isOut = false) :
    W4 m ρ c (Proc.devRef .tc (Pipeline.arrRef spec1 w)) = V3 m ρ c (Pipeline.arrRef spec1 w) :=
  (W4_arr m ρ c w).trans (((dat1 (V3 m ρ) c).arrAt_in w hw _).trans (A_eq1 (V3 m ρ) c w))

theorem v5_h1 : V5 m ρ c main_v18_0 = (dat1 (V3 m ρ) c).arrAt 9 cfg1.N :=
  (show V5 m ρ c main_v18_0 = W4 m ρ c (Proc.devRef .tc main_v18_0) from by
    show StableHlo.after hostOps2 (W4 m ρ c) (Proc.devRef .tc main_v18_0) = _; after_results).trans (W4_arr m ρ c 9)
theorem v5_nt : V5 m ρ c main_arg3 = m ((c : Thread nD τ).loc main_arg3) :=
  (show V5 m ρ c main_arg3 = W4 m ρ c (Proc.devRef .tc main_arg3) from by
    show StableHlo.after hostOps2 (W4 m ρ c) (Proc.devRef .tc main_arg3) = _; after_results).trans
    ((w4_in m ρ c 2 rfl).trans (v3_nt m ρ c))
theorem v5_M2 : (V5 m ρ c main_v19 : S256x256.Idx → EReal)
    = Host.reduceAdd (F := Ideal) ((dat1 (V3 m ρ) c).arrAt 10 cfg1.N) (constant (F := Ideal) S_ .f32 0x00000000#32) reducesTo_S2x256x256_S256x256_d0 h_S_ := by
  rw [← W4_arr m ρ c 10]
  show StableHlo.after hostOps2 (W4 m ρ c) (Proc.devRef .tc main_v19) = _; after_results
theorem v5_s2 : (V5 m ρ c main_v20 : S1x1.Idx → EReal)
    = Host.reduceAdd (F := Ideal) ((dat1 (V3 m ρ) c).arrAt 11 cfg1.N) (constant (F := Ideal) S_ .f32 0x00000000#32) reducesTo_S2x1x1_S1x1_d0 h_S_ := by
  rw [← W4_arr m ρ c 11]
  show StableHlo.after hostOps2 (W4 m ρ c) (Proc.devRef .tc main_v20) = _; after_results
theorem v5_WntT : (V5 m ρ c main_v5 : S256x256.Idx → EReal) = trW (m ((c : Thread nD τ).loc main_arg8)) :=
  (show V5 m ρ c main_v5 = W4 m ρ c (Proc.devRef .tc main_v5) from by
    show StableHlo.after hostOps2 (W4 m ρ c) (Proc.devRef .tc main_v5) = _; after_results).trans
    ((W4_of_ne m ρ c main_v5 (by decide)).trans (v3_WntT m ρ c))
theorem v5_bnt : (V5 m ρ c main_v12 : S1x256.Idx → EReal) = rowB (m ((c : Thread nD τ).loc main_arg9)) :=
  (show V5 m ρ c main_v12 = W4 m ρ c (Proc.devRef .tc main_v12) from by
    show StableHlo.after hostOps2 (W4 m ρ c) (Proc.devRef .tc main_v12) = _; after_results).trans
    ((W4_of_ne m ρ c main_v12 (by decide)).trans (v3_bnt m ρ c))
theorem v5_WhT : (V5 m ρ c main_v7 : S256x256.Idx → EReal) = trW (m ((c : Thread nD τ).loc main_arg12)) :=
  (show V5 m ρ c main_v7 = W4 m ρ c (Proc.devRef .tc main_v7) from by
    show StableHlo.after hostOps2 (W4 m ρ c) (Proc.devRef .tc main_v7) = _; after_results).trans
    ((w4_in m ρ c 7 rfl).trans (v3_WhT m ρ c))
theorem v5_bh : (V5 m ρ c main_v13 : S1x256.Idx → EReal) = rowB (m ((c : Thread nD τ).loc main_arg13)) :=
  (show V5 m ρ c main_v13 = W4 m ρ c (Proc.devRef .tc main_v13) from by
    show StableHlo.after hostOps2 (W4 m ρ c) (Proc.devRef .tc main_v13) = _; after_results).trans
    ((w4_in m ρ c 8 rfl).trans (v3_bh m ρ c))
theorem v5_WbtT : (V5 m ρ c main_v9 : S256x128.Idx → EReal) = trWo (m ((c : Thread nD τ).loc main_arg10)) :=
  (show V5 m ρ c main_v9 = W4 m ρ c (Proc.devRef .tc main_v9) from by
    show StableHlo.after hostOps2 (W4 m ρ c) (Proc.devRef .tc main_v9) = _; after_results).trans
    ((W4_of_ne m ρ c main_v9 (by decide)).trans (v3_WbtT m ρ c))
theorem v5_bbt : (V5 m ρ c main_v14 : S1x128.Idx → EReal) = rowBo (m ((c : Thread nD τ).loc main_arg11)) :=
  (show V5 m ρ c main_v14 = W4 m ρ c (Proc.devRef .tc main_v14) from by
    show StableHlo.after hostOps2 (W4 m ρ c) (Proc.devRef .tc main_v14) = _; after_results).trans
    ((W4_of_ne m ρ c main_v14 (by decide)).trans (v3_bbt m ρ c))

/-! ## The results: pass 3's output arrays at the last boundary -/

theorem w6_hNext : W6 m ρ c (Proc.devRef .tc main_v21_0) = (dat2 (V5 m ρ) c).arrAt 10 cfg2.N := W6_arr m ρ c 10
theorem w6_bOut : W6 m ρ c (Proc.devRef .tc main_v21_1) = (dat2 (V5 m ρ) c).arrAt 11 cfg2.N := W6_arr m ρ c 11

end Cert.KernelIdeal.KHost
-- ==== Proof.Spec.lean ====
/-
  What both programs compute, as functions of the argument arrays, entry by entry over the extended reals.

  A matrix is a function of a row and a column. The cell is
      cell x Wx bx h Wh bh = tanh (x · Wxᵀ + bx) + tanh (h · Whᵀ + bh),
  and between cells the state `h` has the direction of a matrix `a` projected out of it. The two programs write that
  projection differently: the kernel contracts `a` with the Gram matrix `aᵀ h` and scales by `1 / ‖a‖²` (`projK`), the
  reference normalises `a` by `‖a‖` first and contracts twice (`projR`). Everything else is literally the same
  expression, so the results are stated once, over the projection used.
-/
import Idealize.ShloMosaic.PureOps.Ideal

noncomputable section

namespace Spec

open Idealize.ShloMosaic

/-- A matrix over the extended reals: rows, then columns. -/
abbrev Mat (m n : ℕ) := Fin m → Fin n → EReal

variable {B I H O : ℕ}

/-- `x · Wᵀ + bias`: entry `(b, j)` is `∑ₖ x b k · W j k + bias j`. -/
def lin {K J : ℕ} (x : Mat B K) (W : Mat J K) (bias : Fin J → EReal) : Mat B J :=
  fun b j => (∑ k, x b k * W j k) + bias j

/-- `tanh (x · Wxᵀ + bx) + tanh (h · Whᵀ + bh)`. -/
def cell (x : Mat B I) (Wx : Mat H I) (bx : Fin H → EReal) (h : Mat B H) (Wh : Mat H H) (bh : Fin H → EReal) : Mat B H :=
  fun b j => Ideal.tanh (lin x Wx bx b j) + Ideal.tanh (lin h Wh bh b j)

/-- The squared Frobenius norm `∑_b ∑ₖ a b k · a b k`. -/
def sumsq (a : Mat B I) : EReal := ∑ b, ∑ k, a b k * a b k

/-- The Gram matrix `aᵀ h`: entry `(k, j)` is `∑_b a b k · h b j`. -/
def gram (a : Mat B I) (h : Mat B H) : Mat I H := fun k j => ∑ b, a b k * h b j

/-- The kernel's projection: `h − (a · (aᵀ h)) · (1 / ‖a‖²)`. -/
def projK (a : Mat B I) (h : Mat B H) : Mat B H :=
  fun b j => h b j - (∑ k, a b k * gram a h k j) * Ideal.div 1 (sumsq a)

/-- The reference's projection: `h − (a / ‖a‖) · ((a / ‖a‖)ᵀ h)`. -/
def projR (a : Mat B I) (h : Mat B H) : Mat B H :=
  fun b j => h b j - ∑ k, Ideal.div (a b k) (Ideal.sqrt (sumsq a))
    * ∑ b', Ideal.div (a b' k) (Ideal.sqrt (sumsq a)) * h b' j

/-- The arguments both programs take. -/
structure Args (B I H O : ℕ) where
  h_prev : Mat B H
  n_h : Mat B I
  n_r : Mat B I
  n_t : Mat B I
  W_nh : Mat H I
  b_nh : Fin H → EReal
  W_nr : Mat H I
  b_nr : Fin H → EReal
  W_nt : Mat H I
  b_nt : Fin H → EReal
  W_bt : Mat O H
  b_bt : Fin O → EReal
  W_h : Mat H H
  b_h : Fin H → EReal

variable (proj : Mat B I → Mat B H → Mat B H) (A : Args B I H O)

/-- The first state: the cell on `n_h` and the previous state. -/
def h0 : Mat B H := cell A.n_h A.W_nh A.b_nh A.h_prev A.W_h A.b_h
/-- The second state: the cell on `n_r` and the first state with `n_r` projected out. -/
def h1 : Mat B H := cell A.n_r A.W_nr A.b_nr (proj A.n_r (h0 A)) A.W_h A.b_h
/-- The next state: the cell on `n_t` and the second state with `n_t` projected out. -/
def hNext : Mat B H := cell A.n_t A.W_nt A.b_nt (proj A.n_t (h1 proj A)) A.W_h A.b_h
/-- The second result: `tanh (hNext · W_btᵀ + b_bt)`. -/
def bOut : Mat B O := fun b j => Ideal.tanh (lin (hNext proj A) A.W_bt A.b_bt b j)

end Spec
-- ==== Proof.ArgsOf.lean ====
/-
  The argument arrays as matrices: a rank-2 array read at (row, column), a rank-1 array at its one coordinate, and the
  fourteen arguments, in the programs' order, as the record the specification takes.
-/
import proofs.«152349_j35390530519886_2_alg».proof.Proof.Spec
import Idealize.ShloMosaic.Lib.ValueIdx

noncomputable section

namespace Spec

open Idealize.ShloMosaic Idealize.ShloMosaic.ValueIdx

/-- A rank-2 array over the extended reals, as a matrix. -/
def mat {m n : ℕ} (x : (⟨2, ![m, n]⟩ : Shape).Idx → EReal) : Mat m n := fun a b => x (ix2 a b)

/-- A rank-1 array over the extended reals, as a function of its coordinate. -/
def vec {n : ℕ} (x : (⟨1, ![n]⟩ : Shape).Idx → EReal) : Fin n → EReal := fun a => x (ix1 a)

theorem mat_apply {m n : ℕ} (x : (⟨2, ![m, n]⟩ : Shape).Idx → EReal) (a : Fin m) (b : Fin n) : mat x a b = x (ix2 a b) := rfl
theorem vec_apply {n : ℕ} (x : (⟨1, ![n]⟩ : Shape).Idx → EReal) (a : Fin n) : vec x a = x (ix1 a) := rfl

/-- The fourteen arguments in the programs' order: `h_prev, n_h, n_r, n_t, W_nh, b_nh, W_nr, b_nr, W_nt, b_nt, W_bt,
    b_bt, W_h, b_h`. -/
def argsOf
    (x0 x1 x2 x3 : (⟨2, ![65536, 256]⟩ : Shape).Idx → EReal)
    (x4 : (⟨2, ![256, 256]⟩ : Shape).Idx → EReal) (x5 : (⟨1, ![256]⟩ : Shape).Idx → EReal)
    (x6 : (⟨2, ![256, 256]⟩ : Shape).Idx → EReal) (x7 : (⟨1, ![256]⟩ : Shape).Idx → EReal)
    (x8 : (⟨2, ![256, 256]⟩ : Shape).Idx → EReal) (x9 : (⟨1, ![256]⟩ : Shape).Idx → EReal)
    (x10 : (⟨2, ![128, 256]⟩ : Shape).Idx → EReal) (x11 : (⟨1, ![128]⟩ : Shape).Idx → EReal)
    (x12 : (⟨2, ![256, 256]⟩ : Shape).Idx → EReal) (x13 : (⟨1, ![256]⟩ : Shape).Idx → EReal) :
    Args 65536 256 256 128 where
  h_prev := mat x0
  n_h := mat x1
  n_r := mat x2
  n_t := mat x3
  W_nh := mat x4
  b_nh := vec x5
  W_nr := mat x6
  b_nr := vec x7
  W_nt := mat x8
  b_nt := vec x9
  W_bt := mat x10
  b_bt := vec x11
  W_h := mat x12
  b_h := vec x13

end Spec
-- ==== Proof.RegionSpec.lean ====
/-
  What each of the kernel's three passes leaves in its output arrays, as functions of the arrays it reads.

  The passes take the weights already transposed (`WT k j = W j k`) and the biases as one-row matrices. Rows come in
  32 blocks of 2048; block `16·c + i` belongs to core `c`, which accumulates over its 16 blocks `i`. Passes 1 and 2
  leave, per core, the partial Gram matrix and the partial squared norm of their blocks; the sums over the two cores
  are taken between the passes.
-/
import proofs.«152349_j35390530519886_2_alg».proof.Proof.Spec

noncomputable section

namespace RegionSpec

open Idealize.ShloMosaic Spec

variable {B K J H I O : ℕ}

/-- `x · WT + bias` with the weight already transposed and the bias a one-row matrix. -/
def linT (x : Mat B K) (WT : Mat K J) (bias : Mat 1 J) : Mat B J :=
  fun b j => (∑ k, x b k * WT k j) + bias 0 j

/-- `tanh (x · WxT + bx) + tanh (h · WhT + bh)`. -/
def cellT (x : Mat B I) (WxT : Mat I H) (bx : Mat 1 H) (h : Mat B H) (WhT : Mat H H) (bh : Mat 1 H) : Mat B H :=
  fun b j => Ideal.tanh (linT x WxT bx b j) + Ideal.tanh (linT h WhT bh b j)

/-- `h − (a · M) · (1 / s)`: the projection, from the finished Gram matrix `M` and squared norm `s`. -/
def projT (a : Mat B I) (h : Mat B H) (M : Mat I H) (s : EReal) : Mat B H :=
  fun b j => h b j - (∑ k, a b k * M k j) * Ideal.div 1 s

/-- Row `2048 · (16 · c + i) + r`: row `r` of block `i` of core `c`. -/
def row (c : Fin 2) (i : Fin 16) (r : Fin 2048) : Fin 65536 :=
  ⟨2048 * (16 * c.val + i.val) + r.val, by have := c.isLt; have := i.isLt; have := r.isLt; omega⟩

/-- Core `c`'s partial Gram matrix of `a` against `h`: over its 16 blocks of 2048 rows. -/
def gramPart (c : Fin 2) (a : Mat 65536 I) (h : Mat 65536 H) : Mat I H :=
  fun k j => ∑ i : Fin 16, ∑ r : Fin 2048, a (row c i r) k * h (row c i r) j

/-- Core `c`'s partial squared norm of `a`: over its 16 blocks of 2048 rows. -/
def sumsqPart (c : Fin 2) (a : Mat 65536 I) : EReal :=
  ∑ i : Fin 16, ∑ r : Fin 2048, ∑ k, a (row c i r) k * a (row c i r) k

/-- Pass 1's state: the cell on `n_h` and the previous state. -/
def pass1_h (n_h h_prev : Mat 65536 256) (WnhT : Mat 256 256) (bnh : Mat 1 256) (WhT : Mat 256 256) (bh : Mat 1 256) :
    Mat 65536 256 := cellT n_h WnhT bnh h_prev WhT bh

/-- Pass 2's state: the cell on `n_r` and pass 1's state with `n_r` projected out. -/
def pass2_h (h : Mat 65536 256) (n_r : Mat 65536 256) (M1 : Mat 256 256) (s1 : EReal) (WnrT : Mat 256 256) (bnr : Mat 1 256)
    (WhT : Mat 256 256) (bh : Mat 1 256) : Mat 65536 256 := cellT n_r WnrT bnr (projT n_r h M1 s1) WhT bh

/-- Pass 3's first result: the cell on `n_t` and pass 2's state with `n_t` projected out. -/
def pass3_h (h1 : Mat 65536 256) (n_t : Mat 65536 256) (M2 : Mat 256 256) (s2 : EReal) (WntT : Mat 256 256) (bnt : Mat 1 256)
    (WhT : Mat 256 256) (bh : Mat 1 256) : Mat 65536 256 := cellT n_t WntT bnt (projT n_t h1 M2 s2) WhT bh

/-- Pass 3's second result: `tanh (hNext · WbtT + bbt)`. -/
def pass3_b (hn : Mat 65536 256) (WbtT : Mat 256 128) (bbt : Mat 1 128) : Mat 65536 128 :=
  fun b o => Ideal.tanh (linT hn WbtT bbt b o)

end RegionSpec
-- ==== Proof.BlockSum.lean ====
/-
  A sum over `m · n` consecutive positions is the sum, over the `m` blocks of `n` consecutive positions, of each
  block's sum: position `x` is `r + n · t` for block `t` and offset `r`. In any commutative additive monoid, so in
  particular on the extended reals, where sums of finitely many terms may be regrouped freely.
-/
import Mathlib.Algebra.BigOperators.Fin
import Mathlib.Logic.Equiv.Fin.Basic

namespace BlockSum

/-- Position `r + n · t` of `Fin (m · n)`. -/
def pos {m n : ℕ} (t : Fin m) (r : Fin n) : Fin (m * n) := finProdFinEquiv (t, r)

theorem pos_val {m n : ℕ} (t : Fin m) (r : Fin n) : (pos t r).val = r.val + n * t.val := rfl

/-- The sum over all positions, block by block. -/
theorem sum_blocks {M : Type*} [AddCommMonoid M] {m n : ℕ} (f : Fin (m * n) → M) :
    ∑ x, f x = ∑ t : Fin m, ∑ r : Fin n, f (pos t r) :=
  ((finProdFinEquiv (m := m) (n := n)).sum_comp f).symm.trans (Fintype.sum_prod_type fun p => f (finProdFinEquiv p))

end BlockSum
-- ==== Proof.Compose.lean ====
/-
  The three passes, with the sums over the two cores taken between them, compute the specification with the kernel's
  projection.

  A pass takes a weight transposed and a bias as a one-row matrix, so its affine map is the specification's. The 65536
  rows are the 2 · 16 blocks of 2048 rows in order, so the two cores' partial Gram matrices (partial squared norms) add
  up to the whole Gram matrix (squared norm): on the extended reals a finite sum may be regrouped freely.
-/
import proofs.«152349_j35390530519886_2_alg».proof.Proof.Spec
import proofs.«152349_j35390530519886_2_alg».proof.Proof.RegionSpec
import proofs.«152349_j35390530519886_2_alg».proof.Proof.BlockSum

noncomputable section

namespace Compose

open Idealize.ShloMosaic Spec RegionSpec

/-- The transposed weight a pass takes. -/
def Tr {m n : ℕ} (W : Mat m n) : Mat n m := fun k j => W j k
/-- The one-row matrix a pass takes for a bias. -/
def Row {n : ℕ} (b : Fin n → EReal) : Mat 1 n := fun _ j => b j

theorem linT_eq {B K J : ℕ} (x : Mat B K) (W : Mat J K) (b : Fin J → EReal) : linT x (Tr W) (Row b) = lin x W b := rfl

theorem cellT_eq {B I H : ℕ} (x : Mat B I) (Wx : Mat H I) (bx : Fin H → EReal) (h : Mat B H) (Wh : Mat H H) (bh : Fin H → EReal) :
    cellT x (Tr Wx) (Row bx) h (Tr Wh) (Row bh) = cell x Wx bx h Wh bh := rfl

/-- Row `2048 · (16 · q + i) + r` is position `r` of block `i + 16 · q`. -/
theorem row_eq_pos (q : Fin 2) (i : Fin 16) (r : Fin 2048) :
    row q i r = (BlockSum.pos (m := 32) (n := 2048) (BlockSum.pos (m := 2) (n := 16) q i) r : Fin 65536) := by
  apply Fin.ext
  show 2048 * (16 * q.val + i.val) + r.val = r.val + 2048 * (i.val + 16 * q.val)
  omega

/-- A sum over all 65536 rows, core by core, block by block. -/
theorem sum_rows {M : Type*} [AddCommMonoid M] (f : Fin 65536 → M) :
    ∑ q : Fin 2, ∑ i : Fin 16, ∑ r : Fin 2048, f (row q i r) = ∑ b, f b := by
  have h1 : ∑ b : Fin 65536, f b = ∑ t : Fin 32, ∑ r : Fin 2048, f (BlockSum.pos (m := 32) (n := 2048) t r) :=
    BlockSum.sum_blocks (m := 32) (n := 2048) f
  have h2 : ∑ t : Fin 32, ∑ r : Fin 2048, f (BlockSum.pos (m := 32) (n := 2048) t r)
      = ∑ q : Fin 2, ∑ i : Fin 16, ∑ r : Fin 2048, f (BlockSum.pos (m := 32) (n := 2048) (BlockSum.pos (m := 2) (n := 16) q i) r) :=
    BlockSum.sum_blocks (m := 2) (n := 16) fun t : Fin 32 => ∑ r : Fin 2048, f (BlockSum.pos (m := 32) (n := 2048) t r)
  rw [h1, h2]
  refine Finset.sum_congr rfl fun q _ => Finset.sum_congr rfl fun i _ => Finset.sum_congr rfl fun r _ => ?_
  rw [row_eq_pos]

/-- The two cores' partial Gram matrices add up to the Gram matrix. -/
theorem gram_of_parts {I H : ℕ} (a : Mat 65536 I) (h : Mat 65536 H) (k : Fin I) (j : Fin H) :
    0 + ∑ q : Fin 2, gramPart q a h k j = gram a h k j := by
  rw [zero_add]
  exact sum_rows fun b => a b k * h b j

/-- The two cores' partial squared norms add up to the squared norm. -/
theorem sumsq_of_parts {I : ℕ} (a : Mat 65536 I) : 0 + ∑ q : Fin 2, sumsqPart q a = sumsq a := by
  rw [zero_add]
  exact sum_rows fun b => ∑ k, a b k * a b k

/-- The pass's projection from the finished Gram matrix and squared norm is the kernel's projection. -/
theorem projT_eq {I H : ℕ} (a : Mat 65536 I) (h : Mat 65536 H) (M : Mat I H) (s : EReal)
    (hM : ∀ k j, M k j = 0 + ∑ q : Fin 2, gramPart q a h k j) (hs : s = 0 + ∑ q : Fin 2, sumsqPart q a) :
    projT a h M s = projK a h := by
  funext b j
  unfold projT projK
  rw [hs, sumsq_of_parts]
  simp only [hM, gram_of_parts]

variable (A : Args 65536 256 256 128)

/-- Pass 1 leaves the first state. -/
theorem pass1_eq : pass1_h A.n_h A.h_prev (Tr A.W_nh) (Row A.b_nh) (Tr A.W_h) (Row A.b_h) = h0 A := rfl

/-- Pass 2, from the first state and the summed partials, leaves the second state. -/
theorem pass2_eq (M1 : Mat 256 256) (s1 : EReal)
    (hM : ∀ k j, M1 k j = 0 + ∑ q : Fin 2, gramPart q A.n_r (h0 A) k j) (hs : s1 = 0 + ∑ q : Fin 2, sumsqPart q A.n_r) :
    pass2_h (h0 A) A.n_r M1 s1 (Tr A.W_nr) (Row A.b_nr) (Tr A.W_h) (Row A.b_h) = h1 projK A := by
  unfold pass2_h h1
  rw [projT_eq A.n_r (h0 A) M1 s1 hM hs]
  rfl

/-- Pass 3, from the second state and the summed partials, leaves the next state … -/
theorem pass3_h_eq (M2 : Mat 256 256) (s2 : EReal)
    (hM : ∀ k j, M2 k j = 0 + ∑ q : Fin 2, gramPart q A.n_t (h1 projK A) k j) (hs : s2 = 0 + ∑ q : Fin 2, sumsqPart q A.n_t) :
    pass3_h (h1 projK A) A.n_t M2 s2 (Tr A.W_nt) (Row A.b_nt) (Tr A.W_h) (Row A.b_h) = hNext projK A := by
  unfold pass3_h hNext
  rw [projT_eq A.n_t (h1 projK A) M2 s2 hM hs]
  rfl

/-- … and the second result. -/
theorem pass3_b_eq : pass3_b (hNext projK A) (Tr A.W_bt) (Row A.b_bt) = bOut projK A := rfl

end Compose
-- ==== Proof.KIdx.lean ====
/-
  The host-prepared buffers read entry by entry: a transposed weight is the weight with its coordinates swapped, a
  bias reshaped to one row is the bias at the column, and the sum over the two cores of a stack of two arrays is, at
  each entry, zero plus the two entries.
-/
import proofs.«152349_j35390530519886_2_alg».proof.Proof.KHost
import proofs.«152349_j35390530519886_2_alg».proof.Proof.ArgsOf
import proofs.«152349_j35390530519886_2_alg».proof.Proof.Compose

set_option maxRecDepth 16384

noncomputable section

namespace Cert.KernelIdeal.KIdx

open Cert.KernelIdeal Cert.KernelIdeal.Gen Cert.KernelIdeal.Facts Cert.KernelIdeal.KHost
open Idealize.ShloMosaic Idealize.ShloMosaic.ValueIdx

/-- A transposed square weight, as a matrix. -/
theorem mat_trW (W : (⟨S256x256, .f32⟩ : BufTy).Contents (Elt Ideal)) : Spec.mat (trW W) = Compose.Tr (Spec.mat W) := by
  funext k j
  show trW W (ix2 k j) = W (ix2 j k)
  unfold trW
  rw [truncf_apply]
  exact transpose_apply [1, 0] W transposes_S256x256_S256x256_1_0 (ix2 k j) (ix2 j k) (fun b => match b with
    | ⟨0, _⟩ => rfl
    | ⟨1, _⟩ => rfl)

/-- The transposed output weight, as a matrix. -/
theorem mat_trWo (W : (⟨S128x256, .f32⟩ : BufTy).Contents (Elt Ideal)) : Spec.mat (trWo W) = Compose.Tr (Spec.mat W) := by
  funext k j
  show trWo W (ix2 k j) = W (ix2 j k)
  unfold trWo
  rw [truncf_apply]
  exact transpose_apply [1, 0] W transposes_S128x256_S256x128_1_0 (ix2 k j) (ix2 j k) (fun b => match b with
    | ⟨0, _⟩ => rfl
    | ⟨1, _⟩ => rfl)

/-- A bias as one row, as a matrix. -/
theorem mat_rowB (b : (⟨S256, .f32⟩ : BufTy).Contents (Elt Ideal)) : Spec.mat (rowB b) = Compose.Row (Spec.vec b) := by
  funext u j
  exact shapeCast_a_1a_apply b shapeCasts_S256_S1x256 u j

theorem mat_rowBo (b : (⟨S128, .f32⟩ : BufTy).Contents (Elt Ideal)) : Spec.mat (rowBo b) = Compose.Row (Spec.vec b) := by
  funext u j
  exact shapeCast_a_1a_apply b shapeCasts_S128_S1x128 u j

/-- The sum over the two cores of a stack of two matrices, at an entry. -/
theorem sum2_mat (x : (⟨S2x256x256, .f32⟩ : BufTy).Contents (Elt Ideal)) (k j : Fin 256) :
    (Host.reduceAdd (F := Ideal) x (constant (F := Ideal) S_ .f32 0x00000000#32) reducesTo_S2x256x256_S256x256_d0 h_S_ : S256x256.Idx → EReal) (ix2 k j)
      = 0 + ∑ q : Fin 2, x (ix3 q k j) := by
  have hr : S2x256x256.Reduces [0] S256x256 := by decide
  show Ideal.hostReduceAdd reducesTo_S2x256x256_S256x256_d0 x _ (ix2 k j) = _
  rw [Ideal.hostReduceAdd_single _ hr]
  show constant (F := Ideal) S_ .f32 0x00000000#32 _ + ∑ q : Fin 2, x (hr.lift (ix2 k j) q) = _
  rw [constant_apply, Ideal.ofBits_zero_f32]
  refine congrArg _ (Finset.sum_congr rfl fun q _ => congrArg x ?_)
  funext a
  match a with
  | ⟨0, _⟩ => rfl
  | ⟨1, _⟩ => rfl
  | ⟨2, _⟩ => rfl

/-- The sum over the two cores of a stack of two numbers. -/
theorem sum2_one (x : (⟨S2x1x1, .f32⟩ : BufTy).Contents (Elt Ideal)) :
    (Host.reduceAdd (F := Ideal) x (constant (F := Ideal) S_ .f32 0x00000000#32) reducesTo_S2x1x1_S1x1_d0 h_S_ : S1x1.Idx → EReal) (ix2 0 0)
      = 0 + ∑ q : Fin 2, x (ix3 q 0 0) := by
  have hr : S2x1x1.Reduces [0] S1x1 := by decide
  show Ideal.hostReduceAdd reducesTo_S2x1x1_S1x1_d0 x _ (ix2 0 0) = _
  rw [Ideal.hostReduceAdd_single _ hr]
  show constant (F := Ideal) S_ .f32 0x00000000#32 _ + ∑ q : Fin 2, x (hr.lift (ix2 0 0) q) = _
  rw [constant_apply, Ideal.ofBits_zero_f32]
  refine congrArg _ (Finset.sum_congr rfl fun q _ => congrArg x ?_)
  funext a
  match a with
  | ⟨0, _⟩ => rfl
  | ⟨1, _⟩ => rfl
  | ⟨2, _⟩ => rfl

end Cert.KernelIdeal.KIdx
-- ==== Proof.Pass1Pay.lean ====
/-
  The arithmetic of the first pass's body, read entry by entry over the extended reals.

  The body takes three row blocks of 2048 rows (of n_h, of the previous state, of n_r), two transposed weight matrices and
  two one-row biases. It forms the cell  tanh (x · WxT + bx) + tanh (h · WhT + bh)  on the block, the block's
  contribution  aᵀ · cell  to the Gram matrix, and the block's contribution  ∑ a²  to the squared norm; the two
  contributions are added into running totals. A change of float format is the identity here, a product into a zero
  accumulator is the plain sum of products, and a lane sum from a zero is the plain sum.
-/
import proofs.«152349_j35390530519886_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pass1

open Cert.KernelIdeal Cert.KernelIdeal.Gen Idealize.ShloMosaic Idealize.ShloMosaic.ValueIdx

/-! ## The two products' operand indices -/

theorem rows_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem rows_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rows_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rows_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

theorem gram_lhs_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem gram_lhs_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl
theorem gram_rhs_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
theorem gram_rhs_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- A [2048,256] block times a [256,256] matrix, into zero: entry (r, j) is the sum over k of block (r, k) times
    matrix (k, j). -/
theorem mm_rows (l : FVec Ideal S2048x256 .bf16) (w : FVec Ideal S256x256 .bf16) (r : Fin 2048) (j : Fin 256) :
    matmul dot_S2048x256_S256x256_S2048x256_1_0_0_1_n_n none l w (constant S2048x256 .f32 0x00000000#32) (ix2 r j)
      = ∑ k : Fin 256, l (ix2 r k) * w (ix2 k j) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r j)
      ((contrEquiv1 dot_S2048x256_S256x256_S2048x256_1_0_0_1_n_n 256 rfl rfl).symm k) = ix2 r k :=
    funext fun a => Fin.ext (by
      match a with
      | ⟨0, _⟩ => exact rows_lhs_0 _ _
      | ⟨1, _⟩ => exact (rows_lhs_1 _ _).trans hk)
  have er : dot_S2048x256_S256x256_S2048x256_1_0_0_1_n_n.rhsIdx (ix2 r j)
      ((contrEquiv1 dot_S2048x256_S256x256_S2048x256_1_0_0_1_n_n 256 rfl rfl).symm k) = ix2 k j :=
    funext fun a => Fin.ext (by
      match a with
      | ⟨0, _⟩ => exact (rows_rhs_0 _ _).trans hk
      | ⟨1, _⟩ => exact rows_rhs_1 _ _)
  rw [el, er]

/-- Two [2048,256] blocks contracted over their rows, into zero: entry (k, j) is the sum over the rows r of the first
    at (r, k) times the second at (r, j). -/
theorem mm_gram (a h : FVec Ideal S2048x256 .bf16) (k j : Fin 256) :
    matmul dot_S2048x256_S2048x256_S256x256_0_0_1_1_n_n none a h (constant S256x256 .f32 0x00000000#32) (ix2 k j)
      = ∑ r : Fin 2048, a (ix2 r k) * h (ix2 r j) := by
  simp only [matmul]
  rw [Ideal.matmul_constant_zero_apply,
    ← Equiv.sum_comp (contrEquiv1 dot_S2048x256_S2048x256_S256x256_0_0_1_1_n_n 2048 rfl rfl).symm]
  refine Finset.sum_congr rfl fun r _ => ?_
  have hr := contrEquiv1_symm_val dot_S2048x256_S2048x256_S256x256_0_0_1_1_n_n 2048 rfl rfl r
  have el : dot_S2048x256_S2048x256_S256x256_0_0_1_1_n_n.lhsIdx (ix2 k j)
      ((contrEquiv1 dot_S2048x256_S2048x256_S256x256_0_0_1_1_n_n 2048 rfl rfl).symm r) = ix2 r k :=
    funext fun a => Fin.ext (by
      match a with
      | ⟨0, _⟩ => exact (gram_lhs_0 _ _).trans hr
      | ⟨1, _⟩ => exact gram_lhs_1 _ _)
  have er : dot_S2048x256_S2048x256_S256x256_0_0_1_1_n_n.rhsIdx (ix2 k j)
      ((contrEquiv1 dot_S2048x256_S2048x256_S256x256_0_0_1_1_n_n 2048 rfl rfl).symm r) = ix2 r j :=
    funext fun a => Fin.ext (by
      match a with
      | ⟨0, _⟩ => exact (gram_rhs_0 _ _).trans hr
      | ⟨1, _⟩ => exact gram_rhs_1 _ _)
  rw [el, er]

/-- A one-row matrix spread over 2048 rows reads its one row. -/
theorem bias_rows (v : FVec Ideal S1x256 .f32) (r : Fin 2048) (j : Fin 256) :
    broadcastTo S2048x256 v broadcasts_S1x256_S2048x256 (ix2 r j) = v (ix2 0 j) :=
  broadcastTo_apply v broadcasts_S1x256_S2048x256 (ix2 r j) (ix2 0 j) (fun a => match a with
    | ⟨0, _⟩ => by show (0 : Nat) = if (1 : Nat) = 1 then 0 else r.val; rw [if_pos rfl]
    | ⟨1, _⟩ => by show j.val = if (256 : Nat) = 1 then 0 else j.val; rw [if_neg (by decide)])

/-! ## The payloads at an entry -/

/-- The cell on a block: entry (r, j) of  tanh (x · WxT + bx) + tanh (h · WhT + bh). -/
theorem pay5_apply (x h : Vec Ideal S2048x256 .f32) (WxT : Vec Ideal S256x256 .bf16) (bx : Vec Ideal S1x256 .f32)
    (WhT : Vec Ideal S256x256 .bf16) (bh : Vec Ideal S1x256 .f32) (r : Fin 2048) (j : Fin 256) :
    k0_pay5 (F := Ideal) x h WxT bx WhT bh (ix2 r j)
      = Ideal.tanh ((∑ k : Fin 256, x (ix2 r k) * WxT (ix2 k j)) + bx (ix2 0 j))
        + Ideal.tanh ((∑ k : Fin 256, h (ix2 r k) * WhT (ix2 k j)) + bh (ix2 0 j)) := by
  unfold k0_pay5
  simp only [addf_apply, tanh, Ideal.tanh_def, shapeCast_self]
  rw [mm_rows, mm_rows, bias_rows, bias_rows]
  rfl

/-- What the body stores as the state block: the cell (the change of format is the identity). -/
theorem pay6_apply (x h : Vec Ideal S2048x256 .f32) (WxT : Vec Ideal S256x256 .bf16) (bx : Vec Ideal S1x256 .f32)
    (WhT : Vec Ideal S256x256 .bf16) (bh : Vec Ideal S1x256 .f32) (r : Fin 2048) (j : Fin 256) :
    k0_pay6 (F := Ideal) x h WxT bx WhT bh (ix2 r j) = k0_pay5 (F := Ideal) x h WxT bx WhT bh (ix2 r j) := rfl

/-- The block's contribution to the Gram matrix: entry (k, j) is the sum over the block's rows of a (r, k) times the
    cell at (r, j). -/
theorem pay7_apply (x h a : Vec Ideal S2048x256 .f32) (WxT : Vec Ideal S256x256 .bf16) (bx : Vec Ideal S1x256 .f32)
    (WhT : Vec Ideal S256x256 .bf16) (bh : Vec Ideal S1x256 .f32) (k j : Fin 256) :
    k0_pay7 (F := Ideal) x h a WxT bx WhT bh (ix2 k j)
      = ∑ r : Fin 2048, a (ix2 r k) * k0_pay5 (F := Ideal) x h WxT bx WhT bh (ix2 r j) := by
  unfold k0_pay7
  rw [mm_gram]
  rfl

/-- A [256,256] matrix viewed as [1,256,256] reads (0, k, j) at (k, j). -/
theorem cast_1x256x256 (v : FVec Ideal S256x256 .f32) (k j : Fin 256) :
    shapeCast S1x256x256 v shapeCasts_S256x256_S1x256x256 (ix3 0 k j) = v (ix2 k j) :=
  shapeCast_apply v shapeCasts_S256x256_S1x256x256 (ix3 0 k j) (ix2 k j) (by
    rw [Shape.rowMajor_val_two, Shape.rowMajor_val_three]
    show k.val * 256 + j.val = (0 * 256 + k.val) * 256 + j.val
    omega)

/-- The Gram total after the block: the total before plus the block's contribution. -/
theorem pay1_apply (v29 : FVec Ideal S256x256 .f32) (v31 : FVec Ideal S1x256x256 .f32) (k j : Fin 256) :
    k0_pay1 (F := Ideal) v29 v31 (ix3 0 k j) = v31 (ix3 0 k j) + v29 (ix2 k j) := by
  unfold k0_pay1
  rw [addf_apply, cast_1x256x256]

theorem pay8_eq (v30 : Vec Ideal S1x256x256 .f32) : k0_pay8 (F := Ideal) v30 = v30 := by
  unfold k0_pay8
  exact shapeCast_self _ _

theorem pay3_apply (i : S1x256x256.Idx) : k0_pay3 (F := Ideal) i = 0 := by
  unfold k0_pay3
  show Ideal.ofBits .f32 0x00000000#32 = 0
  exact Ideal.ofBits_zero_f32

theorem pay4_apply (i : S1x1x1.Idx) : k0_pay4 (F := Ideal) i = 0 := by
  unfold k0_pay4
  show Ideal.ofBits .f32 0x00000000#32 = 0
  exact Ideal.ofBits_zero_f32

/-- A lane sum of a [2048,256] block from zero: entry r is the sum over the lanes. -/
theorem lanes_sum (v : FVec Ideal S2048x256 .f32) (hφ : FKind.Formats .f32)
    (hacc : (0x00000000#32 : BitVec 32) = 0x00000000#32) (r : Fin 2048) :
    multiReduction .add [1] S2048 v 0x00000000#32 reduces_S2048x256_S2048 hφ hacc (ix1 r) = ∑ k : Fin 256, v (ix2 r k) := by
  refine (Ideal.multiReduction_add_single v 0x00000000#32 reduces_S2048x256_S2048 hφ hacc (ix1 r)).trans ?_
  refine Finset.sum_congr rfl fun k _ => congrArg v (funext fun a => Fin.ext ?_)
  match a with
  | ⟨0, _⟩ => rfl
  | ⟨1, _⟩ => rfl

/-- A sum down a [2048,1] column from zero. -/
theorem rows_sum (v : FVec Ideal S2048x1 .f32) (hφ : FKind.Formats .f32)
    (hacc : (0x00000000#32 : BitVec 32) = 0x00000000#32) :
    multiReduction .add [0] S1 v 0x00000000#32 reduces_S2048x1_S1 hφ hacc (ix1 0) = ∑ r : Fin 2048, v (ix2 r 0) := by
  refine (Ideal.multiReduction_add_single v 0x00000000#32 reduces_S2048x1_S1 hφ hacc (ix1 0)).trans ?_
  refine Finset.sum_congr rfl fun r _ => congrArg v (funext fun a => Fin.ext ?_)
  match a with
  | ⟨0, _⟩ => rfl
  | ⟨1, _⟩ => rfl

theorem cast_2048x1 (v : FVec Ideal S2048 .f32) (r : Fin 2048) :
    shapeCast S2048x1 v shapeCasts_S2048_S2048x1 (ix2 r 0) = v (ix1 r) :=
  shapeCast_apply v shapeCasts_S2048_S2048x1 (ix2 r 0) (ix1 r) (by
    rw [Shape.rowMajor_val_one, Shape.rowMajor_val_two]
    show r.val = r.val * 1 + 0
    omega)

theorem cast_1x1 (v : FVec Ideal S1 .f32) : shapeCast S1x1 v shapeCasts_S1_S1x1 (ix2 0 0) = v (ix1 0) :=
  shapeCast_apply v shapeCasts_S1_S1x1 (ix2 0 0) (ix1 0) (by
    rw [Shape.rowMajor_val_one, Shape.rowMajor_val_two]; rfl)

theorem cast_1x1x1 (v : FVec Ideal S1x1 .f32) : shapeCast S1x1x1 v shapeCasts_S1x1_S1x1x1 (ix3 0 0 0) = v (ix2 0 0) :=
  shapeCast_apply v shapeCasts_S1x1_S1x1x1 (ix3 0 0 0) (ix2 0 0) (by
    rw [Shape.rowMajor_val_two, Shape.rowMajor_val_three]; rfl)

/-- The squared-norm total after the block: the total before plus the sum of the block's squares. -/
theorem pay2_apply (a : Vec Ideal S2048x256 .f32) (v40 : Vec Ideal S1x1x1 .f32) :
    k0_pay2 (F := Ideal) a v40 (ix3 0 0 0) = v40 (ix3 0 0 0) + ∑ r : Fin 2048, ∑ k : Fin 256, a (ix2 r k) * a (ix2 r k) := by
  unfold k0_pay2
  rw [addf_apply, shapeCast_self]
  refine congrArg (v40 (ix3 0 0 0) + ·) ?_
  refine (cast_1x1x1 _).trans ((cast_1x1 _).trans ((rows_sum _ _ _).trans ?_))
  refine Finset.sum_congr rfl fun r _ => ?_
  refine (cast_2048x1 _ r).trans ((lanes_sum _ _ _ r).trans ?_)
  rfl

end Cert.KernelIdeal.Pass1
-- ==== Proof.Pass1Pieces.lean ====
/-
  What each of the first pass's two control cases leaves in its three output buffers, as the body's arithmetic applied
  to the blocks it loaded: the state block is the cell of the loaded blocks; the Gram total is the total before (zero
  when the point resets it) plus the block's contribution; the squared-norm total likewise.
-/
import proofs.«152349_j35390530519886_2_alg».proof.Proof.Gen.KernelIdeal.Frame
import Idealize.ShloMosaic.Lib.Pipeline.Value
import Idealize.ShloMosaic.Lib.Tactic

set_option maxRecDepth 16384

noncomputable section

namespace Cert.KernelIdeal.Pass1

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the state block is the cell of the loaded blocks. -/
theorem piece_B_7 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256x256 .f32) (harg10 : arg10.IsWhole) (arg11 : Memref sig .tc .vmem S1x1x1 .f32) (harg11 : arg11.IsWhole) (hc0 : ¬cond0_0 i) (x0 : Vec F S2048x256 .f32) (x1 : Vec F S2048x256 .f32) (x2 : Vec F S2048x256 .f32) (x3 : Vec F S256x256 .bf16) (x4 : Vec F S1x256 .f32) (x5 : Vec F S256x256 .bf16) (x6 : Vec F S1x256 .f32) (xo8 : Vec F S1x256x256 .f32) (xo9 : Vec F S1x1x1 .f32) :
    out0_B_7 c i arg2 harg2 arg3 harg3 arg4 harg4 arg5 harg5 arg6 harg6 arg7 harg7 arg8 harg8 arg9 harg9 arg10 harg10 arg11 harg11 hc0 x0 x1 x2 x3 x4 x5 x6 xo8 xo9 = k0_pay6 x0 x1 x3 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  rw [View.canon_unit_zero hz2]
  simp only [View.readAt_eq_ld, harg2.read_unread, harg3.read_unread, harg4.read_unread, harg5.read_unread, harg6.read_unread, harg7.read_unread, harg8.read_unread, View.ld_unit_zero (S := S2048x256) hz2, View.ld_unit_zero (S := S256x256) hz2, View.ld_unit_zero (S := S1x256) hz2]

/-- A point that resets: the state block is the cell of the loaded blocks. -/
theorem piece_A_7 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256x256 .f32) (harg10 : arg10.IsWhole) (arg11 : Memref sig .tc .vmem S1x1x1 .f32) (harg11 : arg11.IsWhole) (hc0 : cond0_0 i) (x0 : Vec F S2048x256 .f32) (x1 : Vec F S2048x256 .f32) (x2 : Vec F S2048x256 .f32) (x3 : Vec F S256x256 .bf16) (x4 : Vec F S1x256 .f32) (x5 : Vec F S256x256 .bf16) (x6 : Vec F S1x256 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay6 x0 x1 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  rw [View.canon_unit_zero hz2]
  simp only [View.readAt_eq_ld, harg2.read_unread, harg3.read_unread, harg4.read_unread, harg5.read_unread, harg6.read_unread, harg7.read_unread, harg8.read_unread, View.ld_unit_zero (S := S2048x256) hz2, View.ld_unit_zero (S := S256x256) hz2, View.ld_unit_zero (S := S1x256) hz2]

/-- A point that does not reset: the Gram total is the total before plus the block's contribution. -/
theorem piece_B_8 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256x256 .f32) (harg10 : arg10.IsWhole) (arg11 : Memref sig .tc .vmem S1x1x1 .f32) (harg11 : arg11.IsWhole) (hc0 : ¬cond0_0 i) (x0 : Vec F S2048x256 .f32) (x1 : Vec F S2048x256 .f32) (x2 : Vec F S2048x256 .f32) (x3 : Vec F S256x256 .bf16) (x4 : Vec F S1x256 .f32) (x5 : Vec F S256x256 .bf16) (x6 : Vec F S1x256 .f32) (xo8 : Vec F S1x256x256 .f32) (xo9 : Vec F S1x1x1 .f32) :
    out0_B_8 c i arg2 harg2 arg3 harg3 arg4 harg4 arg5 harg5 arg6 harg6 arg7 harg7 arg8 harg8 arg9 harg9 arg10 harg10 arg11 harg11 hc0 x0 x1 x2 x3 x4 x5 x6 xo8 xo9 = k0_pay1 (k0_pay7 x0 x1 x2 x3 x4 x5 x6) (k0_pay8 xo8) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S2048x256) hz2, View.ld_unit_zero (S := S256x256) hz2, View.ld_unit_zero (S := S1x256) hz2, harg10.read_unread, View.ld_unit_zero (S := S1x256x256) hz3]

/-- A point that does not reset: the squared-norm total is the total before plus the block's sum of squares. -/
theorem piece_B_9 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256x256 .f32) (harg10 : arg10.IsWhole) (arg11 : Memref sig .tc .vmem S1x1x1 .f32) (harg11 : arg11.IsWhole) (hc0 : ¬cond0_0 i) (x0 : Vec F S2048x256 .f32) (x1 : Vec F S2048x256 .f32) (x2 : Vec F S2048x256 .f32) (x3 : Vec F S256x256 .bf16) (x4 : Vec F S1x256 .f32) (x5 : Vec F S256x256 .bf16) (x6 : Vec F S1x256 .f32) (xo8 : Vec F S1x256x256 .f32) (xo9 : Vec F S1x1x1 .f32) :
    out0_B_9 c i arg2 harg2 arg3 harg3 arg4 harg4 arg5 harg5 arg6 harg6 arg7 harg7 arg8 harg8 arg9 harg9 arg10 harg10 arg11 harg11 hc0 x0 x1 x2 x3 x4 x5 x6 xo8 xo9 = k0_pay2 x2 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S2048x256) hz2, View.ld_unit_zero (S := S256x256) hz2, View.ld_unit_zero (S := S1x256) hz2, harg11.read_unread, View.ld_unit_zero (S := S1x1x1) hz3]

/-- A point that resets: the Gram total is zero plus the block's contribution. -/
theorem piece_A_8 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256x256 .f32) (harg10 : arg10.IsWhole) (arg11 : Memref sig .tc .vmem S1x1x1 .f32) (harg11 : arg11.IsWhole) (hc0 : cond0_0 i) (x0 : Vec F S2048x256 .f32) (x1 : Vec F S2048x256 .f32) (x2 : Vec F S2048x256 .f32) (x3 : Vec F S256x256 .bf16) (x4 : Vec F S1x256 .f32) (x5 : Vec F S256x256 .bf16) (x6 : Vec F S1x256 .f32) :
    out0_A_8 c i arg2 harg2 arg3 harg3 arg4 harg4 arg5 harg5 arg6 harg6 arg7 harg7 arg8 harg8 arg9 harg9 arg10 harg10 arg11 harg11 hc0 x0 x1 x2 x3 x4 x5 x6 = k0_pay1 (k0_pay7 x0 x1 x2 x3 x4 x5 x6) (k0_pay8 k0_pay3) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x256x256) hz3]
  simp only [View.readAt_eq_ld, harg2.read_unread, harg3.read_unread, harg4.read_unread, harg5.read_unread, harg6.read_unread, harg7.read_unread, harg8.read_unread, View.ld_unit_zero (S := S2048x256) hz2, View.ld_unit_zero (S := S256x256) hz2, View.ld_unit_zero (S := S1x256) hz2, View.readCov_unit_zero (S := S1x256x256) _ hz3]

/-- A point that resets: the squared-norm total is zero plus the block's sum of squares. -/
theorem piece_A_9 (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256x256 .f32) (harg10 : arg10.IsWhole) (arg11 : Memref sig .tc .vmem S1x1x1 .f32) (harg11 : arg11.IsWhole) (hc0 : cond0_0 i) (x0 : Vec F S2048x256 .f32) (x1 : Vec F S2048x256 .f32) (x2 : Vec F S2048x256 .f32) (x3 : Vec F S256x256 .bf16) (x4 : Vec F S1x256 .f32) (x5 : Vec F S256x256 .bf16) (x6 : Vec F S1x256 .f32) :
    out0_A_9 c i arg2 harg2 arg3 harg3 arg4 harg4 arg5 harg5 arg6 harg6 arg7 harg7 arg8 harg8 arg9 harg9 arg10 harg10 arg11 harg11 hc0 x0 x1 x2 x3 x4 x5 x6 = k0_pay2 x2 k0_pay4 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x1x1) hz3]
  simp only [View.readAt_eq_ld, harg2.read_unread, harg3.read_unread, harg4.read_unread, harg5.read_unread, harg6.read_unread, harg7.read_unread, harg8.read_unread, View.ld_unit_zero (S := S2048x256) hz2, View.ld_unit_zero (S := S256x256) hz2, View.ld_unit_zero (S := S1x256) hz2, View.readCov_unit_zero (S := S1x1x1) _ hz3]

end Cert.KernelIdeal.Pass1
-- ==== Proof.Pass1Blocks.lean ====
/-
  The first pass's windows read off their arrays. Point t of the 32 takes rows 2048·t … 2048·t + 2047 of the three
  row-blocked inputs and of the state output, the weights and biases whole, and block t / 16 of the two per-core totals.
-/
import proofs.«152349_j35390530519886_2_alg».proof.Proof.Gen.KernelIdeal.Frame
import Idealize.ShloMosaic.Lib.Pipeline.Value
import Idealize.ShloMosaic.Lib.ValueIdx

set_option maxRecDepth 16384

noncomputable section

namespace Cert.KernelIdeal.Pass1

open Cert.KernelIdeal Cert.KernelIdeal.Gen Idealize.ShloMosaic Idealize.ShloMosaic.TcCoe Idealize.SL.Sem
open Idealize.ShloMosaic.ValueIdx
open Idealize.ShloMosaic.Pipeline (Dat)

/-- The block indices of the row-blocked windows: block t, column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0 :=
  (by decide +kernel : ∀ t : Fin grid0.N, _)

/-- The weights and biases are taken whole at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The per-core totals: block t / 16. -/
theorem idx_core : ∀ t : Fin cfg0.N,
    win0_8.index t (0 : Fin 3) = t.val / 16 ∧ win0_8.index t (1 : Fin 3) = 0 ∧ win0_8.index t (2 : Fin 3) = 0
    ∧ win0_9.index t (0 : Fin 3) = t.val / 16 ∧ win0_9.index t (1 : Fin 3) = 0 ∧ win0_9.index t (2 : Fin 3) = 0 :=
  (by decide +kernel : ∀ t : Fin grid0.N, _)

variable (V : (c : Dev nD) → (b : Ref sig .tc) → Buf (Elt Ideal) ((c : Thread nD τ).loc b)) (c : Dev nD)

/-- Row r of block t. -/
def rowOf (t : Fin cfg0.N) (r : Fin 2048) : Fin 65536 :=
  ⟨2048 * t.val + r.val, by have := t.isLt; have : cfg0.N = 32 := N_0; have := r.isLt; omega⟩

theorem blk0_apply (t : Fin cfg0.N) (r : Fin 2048) (k : Fin 256) :
    (iblk0 V c 0 t : Vec Ideal S2048x256 .f32) (ix2 r k) = (V c main_arg1 : S65536x256.Idx → EReal) (ix2 (rowOf t r) k) := by
  unfold iblk0
  rw [View.read_apply]
  show V c main_arg1 _ = V c main_arg1 _
  congr 1
  funext a
  apply Fin.ext
  obtain ⟨e0, e1, -⟩ := idx_rows t
  match a with
  | ⟨0, _⟩ => show win0_0.index t (0 : Fin 2) * 2048 + 1 * r.val = 2048 * t.val + r.val; rw [e0]; omega
  | ⟨1, _⟩ => show win0_0.index t (1 : Fin 2) * 256 + 1 * k.val = k.val; rw [e1]; omega

theorem blk1_apply (t : Fin cfg0.N) (r : Fin 2048) (k : Fin 256) :
    (iblk0 V c 1 t : Vec Ideal S2048x256 .f32) (ix2 r k) = (V c main_arg0 : S65536x256.Idx → EReal) (ix2 (rowOf t r) k) := by
  unfold iblk0
  rw [View.read_apply]
  show V c main_arg0 _ = V c main_arg0 _
  congr 1
  funext a
  apply Fin.ext
  obtain ⟨-, -, e0, e1, -⟩ := idx_rows t
  match a with
  | ⟨0, _⟩ => show win0_1.index t (0 : Fin 2) * 2048 + 1 * r.val = 2048 * t.val + r.val; rw [e0]; omega
  | ⟨1, _⟩ => show win0_1.index t (1 : Fin 2) * 256 + 1 * k.val = k.val; rw [e1]; omega

theorem blk2_apply (t : Fin cfg0.N) (r : Fin 2048) (k : Fin 256) :
    (iblk0 V c 2 t : Vec Ideal S2048x256 .f32) (ix2 r k) = (V c main_arg2 : S65536x256.Idx → EReal) (ix2 (rowOf t r) k) := by
  unfold iblk0
  rw [View.read_apply]
  show V c main_arg2 _ = V c main_arg2 _
  congr 1
  funext a
  apply Fin.ext
  obtain ⟨-, -, -, -, e0, e1, -⟩ := idx_rows t
  match a with
  | ⟨0, _⟩ => show win0_2.index t (0 : Fin 2) * 2048 + 1 * r.val = 2048 * t.val + r.val; rw [e0]; omega
  | ⟨1, _⟩ => show win0_2.index t (1 : Fin 2) * 256 + 1 * k.val = k.val; rw [e1]; omega

theorem blk3_apply (t : Fin cfg0.N) (k j : Fin 256) :
    (iblk0 V c 3 t : Vec Ideal S256x256 .bf16) (ix2 k j) = (V c main_v1 : S256x256.Idx → EReal) (ix2 k j) := by
  unfold iblk0
  rw [View.read_apply]
  show V c main_v1 _ = V c main_v1 _
  congr 1
  funext a
  apply Fin.ext
  obtain ⟨e0, e1, -⟩ := idx_whole t
  match a with
  | ⟨0, _⟩ => show win0_3.index t (0 : Fin 2) * 256 + 1 * k.val = k.val; rw [e0]; omega
  | ⟨1, _⟩ => show win0_3.index t (1 : Fin 2) * 256 + 1 * j.val = j.val; rw [e1]; omega

theorem blk4_apply (t : Fin cfg0.N) (j : Fin 256) :
    (iblk0 V c 4 t : Vec Ideal S1x256 .f32) (ix2 0 j) = (V c main_v10 : S1x256.Idx → EReal) (ix2 0 j) := by
  unfold iblk0
  rw [View.read_apply]
  show V c main_v10 _ = V c main_v10 _
  congr 1
  funext a
  apply Fin.ext
  obtain ⟨-, -, e0, e1, -⟩ := idx_whole t
  match a with
  | ⟨0, _⟩ => show win0_4.index t (0 : Fin 2) * 1 + 1 * 0 = 0; rw [e0]
  | ⟨1, _⟩ => show win0_4.index t (1 : Fin 2) * 256 + 1 * j.val = j.val; rw [e1]; omega

theorem blk5_apply (t : Fin cfg0.N) (k j : Fin 256) :
    (iblk0 V c 5 t : Vec Ideal S256x256 .bf16) (ix2 k j) = (V c main_v7 : S256x256.Idx → EReal) (ix2 k j) := by
  unfold iblk0
  rw [View.read_apply]
  show V c main_v7 _ = V c main_v7 _
  congr 1
  funext a
  apply Fin.ext
  obtain ⟨-, -, -, -, e0, e1, -⟩ := idx_whole t
  match a with
  | ⟨0, _⟩ => show win0_5.index t (0 : Fin 2) * 256 + 1 * k.val = k.val; rw [e0]; omega
  | ⟨1, _⟩ => show win0_5.index t (1 : Fin 2) * 256 + 1 * j.val = j.val; rw [e1]; omega

theorem blk6_apply (t : Fin cfg0.N) (j : Fin 256) :
    (iblk0 V c 6 t : Vec Ideal S1x256 .f32) (ix2 0 j) = (V c main_v13 : S1x256.Idx → EReal) (ix2 0 j) := by
  unfold iblk0
  rw [View.read_apply]
  show V c main_v13 _ = V c main_v13 _
  congr 1
  funext a
  apply Fin.ext
  obtain ⟨-, -, -, -, -, -, e0, e1⟩ := idx_whole t
  match a with
  | ⟨0, _⟩ => show win0_6.index t (0 : Fin 2) * 1 + 1 * 0 = 0; rw [e0]
  | ⟨1, _⟩ => show win0_6.index t (1 : Fin 2) * 256 + 1 * j.val = j.val; rw [e1]; omega

/-- Where the state output's block t sits in its array. -/
theorem emb7 (t : Fin cfg0.N) (r : Fin 2048) (j : Fin 256) :
    ((cfg0.win 7).blk t).view.emb (ix2 r j : S2048x256.Idx) = (ix2 (rowOf t r) j : S65536x256.Idx) := by
  funext a
  apply Fin.ext
  obtain ⟨-, -, -, -, -, -, e0, e1⟩ := idx_rows t
  match a with
  | ⟨0, _⟩ => show win0_7.index t (0 : Fin 2) * 2048 + 1 * r.val = 2048 * t.val + r.val; rw [e0]; omega
  | ⟨1, _⟩ => show win0_7.index t (1 : Fin 2) * 256 + 1 * j.val = j.val; rw [e1]; omega

/-- Where the Gram total's block at point t sits in its array: core t / 16. -/
theorem emb8 (t : Fin cfg0.N) (q : Fin 2) (hq : q.val = t.val / 16) (k j : Fin 256) :
    ((cfg0.win 8).blk t).view.emb (ix3 0 k j : S1x256x256.Idx) = (ix3 q k j : S2x256x256.Idx) := by
  funext a
  apply Fin.ext
  obtain ⟨e0, e1, e2, -⟩ := idx_core t
  match a with
  | ⟨0, _⟩ => show win0_8.index t (0 : Fin 3) * 1 + 1 * 0 = q.val; rw [e0, hq]; omega
  | ⟨1, _⟩ => show win0_8.index t (1 : Fin 3) * 256 + 1 * k.val = k.val; rw [e1]; omega
  | ⟨2, _⟩ => show win0_8.index t (2 : Fin 3) * 256 + 1 * j.val = j.val; rw [e2]; omega

/-- Where the squared-norm total's block at point t sits in its array: core t / 16. -/
theorem emb9 (t : Fin cfg0.N) (q : Fin 2) (hq : q.val = t.val / 16) :
    ((cfg0.win 9).blk t).view.emb (ix3 0 0 0 : S1x1x1.Idx) = (ix3 q 0 0 : S2x1x1.Idx) := by
  funext a
  apply Fin.ext
  obtain ⟨-, -, -, e0, e1, e2⟩ := idx_core t
  match a with
  | ⟨0, _⟩ => show win0_9.index t (0 : Fin 3) * 1 + 1 * 0 = q.val; rw [e0, hq]; omega
  | ⟨1, _⟩ => show win0_9.index t (1 : Fin 3) * 1 + 1 * 0 = 0; rw [e1]
  | ⟨2, _⟩ => show win0_9.index t (2 : Fin 3) * 1 + 1 * 0 = 0; rw [e2]

end Cert.KernelIdeal.Pass1
-- ==== Proof.Pass1.lean ====
/-
  What the kernel's first pass leaves in its three output arrays.

  The pass walks 32 blocks of 2048 rows, 16 per core. At block t it writes the cell of rows 2048·t … 2048·t + 2047 into
  the state array, and adds the block's contribution to two per-core running totals, which are reset at each core's
  first block and written back after its last: the Gram matrix of n_r against the new state, and the squared norm of
  n_r. A running total that starts from a stored zero and adds one block's contribution per point is, after the core's
  sixteen points, the sum of the sixteen contributions.
-/
import proofs.«152349_j35390530519886_2_alg».proof.Proof.Gen.KernelIdeal.Frame
import proofs.«152349_j35390530519886_2_alg».proof.Proof.RegionSpec
import proofs.«152349_j35390530519886_2_alg».proof.Proof.ArgsOf
import proofs.«152349_j35390530519886_2_alg».proof.Proof.Pass1Pay
import proofs.«152349_j35390530519886_2_alg».proof.Proof.Pass1Pieces
import proofs.«152349_j35390530519886_2_alg».proof.Proof.Pass1Blocks
import Idealize.ShloMosaic.Lib.Pipeline.Value
import Idealize.ShloMosaic.Lib.ValueIdx

set_option maxRecDepth 16384

noncomputable section

namespace Cert.KernelIdeal.Pass1

open Cert.KernelIdeal Cert.KernelIdeal.Gen Idealize.ShloMosaic Idealize.ShloMosaic.TcCoe Idealize.SL.Sem
open Idealize.ShloMosaic.ValueIdx
open Idealize.ShloMosaic.Pipeline (Dat)
open Spec (mat)

variable (V : (c : Dev nD) → (b : Ref sig .tc) → Buf (Elt Ideal) ((c : Thread nD τ).loc b)) (c : Dev nD)

/-- The pass's state on all 65536 rows: the cell on n_h and the previous state. -/
abbrev hAll : Spec.Mat 65536 256 :=
  RegionSpec.pass1_h (mat (V c main_arg1 : S65536x256.Idx → EReal)) (mat (V c main_arg0 : S65536x256.Idx → EReal))
    (mat (V c main_v1 : S256x256.Idx → EReal)) (mat (V c main_v10 : S1x256.Idx → EReal))
    (mat (V c main_v7 : S256x256.Idx → EReal)) (mat (V c main_v13 : S1x256.Idx → EReal))

/-- The cell on block t, at row r of the block, is the state at row 2048·t + r. -/
theorem cell_blk (t : Fin cfg0.N) (r : Fin 2048) (j : Fin 256) :
    k0_pay5 (F := Ideal) (iblk0 V c 0 t) (iblk0 V c 1 t) (iblk0 V c 3 t) (iblk0 V c 4 t) (iblk0 V c 5 t) (iblk0 V c 6 t) (ix2 r j) = hAll V c (rowOf t r) j := by
  refine (pay5_apply (iblk0 V c 0 t) (iblk0 V c 1 t) (iblk0 V c 3 t) (iblk0 V c 4 t) (iblk0 V c 5 t) (iblk0 V c 6 t) r j).trans ?_
  simp only [blk0_apply, blk1_apply, blk3_apply, blk4_apply, blk5_apply, blk6_apply]
  rfl

/-! ## The state array -/

/-- After every point the state's staging buffer holds the cell of the point's blocks. -/
theorem state_at (t : Fin cfg0.N) :
    (outsAt0 V c t.val t.isLt).1 = k0_pay6 (F := Ideal) (iblk0 V c 0 t) (iblk0 V c 1 t) (iblk0 V c 3 t) (iblk0 V c 4 t) (iblk0 V c 5 t) (iblk0 V c 6 t) := by
  by_cases h : t.val % 16 = 0
  · rw [outsAt0_A V c t h]
    dsimp only
    exact piece_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk0 V c 0 t) (iblk0 V c 1 t) (iblk0 V c 2 t) (iblk0 V c 3 t) (iblk0 V c 4 t) (iblk0 V c 5 t) (iblk0 V c 6 t)
  · rw [outsAt0_B V c t h]
    dsimp only
    exact piece_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h' => h ((hcond0_0 t).mp h')) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2

/-- The state array's contents after the pass. -/
abbrev G7 : S65536x256.Idx → EReal := fun i => hAll V c (i 0) (i 1)

/-- Every point writes back its block of the state. -/
theorem flushed7 (t : Fin cfg0.N) :
    (dat0 V c).flushed 7 t = ((cfg0.win 7).blk t).view.read (Elt Ideal) (G7 V c) := by
  show (cfg0.win 7).cut (grid0.coords t) ((dat0 V c).after 7 t) = _
  rw [after0_7, state_at V c t]
  funext y
  obtain ⟨r, j, rfl⟩ : ∃ (r : Fin 2048) (j : Fin 256), y = ix2 r j := ⟨y 0, y 1, eq_ix2 y⟩
  show k0_pay6 (F := Ideal) (iblk0 V c 0 t) (iblk0 V c 1 t) (iblk0 V c 3 t) (iblk0 V c 4 t) (iblk0 V c 5 t) (iblk0 V c 6 t) (ix2 r j) = G7 V c (((cfg0.win 7).blk t).view.emb (ix2 r j))
  rw [emb7]
  exact cell_blk V c t r j

/-- The blocks tile the state array: row b is in block b / 2048. -/
theorem cover7 (i : S65536x256.Idx) :
    ∃ t : Fin cfg0.N, (cfg0.win 7).flush t = true ∧ i ∈ ((cfg0.win 7).blk t).view.set := by
  have hN : cfg0.N = 32 := N_0
  have hi0 : (i 0).val < 65536 := (i 0).isLt
  have hi1 : (i 1).val < 256 := (i 1).isLt
  have ht : (i 0).val / 2048 < cfg0.N := by omega
  refine ⟨⟨(i 0).val / 2048, ht⟩, flush0_7 _, ?_⟩
  show i ∈ ((View.whole main_v15_0).slice (win0_7.rect ⟨(i 0).val / 2048, ht⟩)).set
  rw [View.set_slice_whole, Rect.mem_set_unit]
  obtain ⟨-, -, -, -, -, -, e0, e1⟩ := idx_rows ⟨(i 0).val / 2048, ht⟩
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [e0]; dsimp only; omega
  | ⟨1, _⟩ =>
    show win0_7.index ⟨(i 0).val / 2048, ht⟩ (1 : Fin 2) * 256 ≤ (i 1).val ∧ (i 1).val < win0_7.index ⟨(i 0).val / 2048, ht⟩ (1 : Fin 2) * 256 + 256
    rw [e1]; omega

/-- The state array after the pass: the cell on n_h and the previous state, row by row. -/
theorem out_h (b : Fin 65536) (j : Fin 256) :
    ((dat0 V c).arrAt 7 cfg0.N : S65536x256.Idx → EReal) (ix2 b j)
      = RegionSpec.pass1_h (mat (V c main_arg1 : S65536x256.Idx → EReal)) (mat (V c main_arg0 : S65536x256.Idx → EReal))
          (mat (V c main_v1 : S256x256.Idx → EReal)) (mat (V c main_v10 : S1x256.Idx → EReal))
          (mat (V c main_v7 : S256x256.Idx → EReal)) (mat (V c main_v13 : S1x256.Idx → EReal)) b j :=
  congrFun ((dat0 V c).arrAt_eq_of_cover 7 (G7 V c) (fun t _ => flushed7 V c t) (fun i => cover7 i)) (ix2 b j)

end Cert.KernelIdeal.Pass1
-- ==== Proof.Pass1Sums.lean ====
/-
  The two per-core totals the kernel's first pass leaves: each core's partial squared norm of n_r and its partial Gram
  matrix of n_r against the new state.

  A total is reset at the core's first block (a stored zero plus the block's contribution) and every later block adds
  its contribution to what the block before left; it is written back after the core's sixteenth block. On the extended
  reals the ordered chain 0 + p₀ + p₁ + … + p₁₅ is the sum of the sixteen contributions, and block 16·q + i of core q
  holds rows 2048·(16·q + i) … of the arrays.
-/
import proofs.«152349_j35390530519886_2_alg».proof.Proof.Pass1

set_option maxRecDepth 16384

noncomputable section

namespace Cert.KernelIdeal.Pass1

open Cert.KernelIdeal Cert.KernelIdeal.Gen Idealize.ShloMosaic Idealize.ShloMosaic.TcCoe Idealize.SL.Sem
open Idealize.ShloMosaic.ValueIdx
open Idealize.ShloMosaic.Pipeline (Dat)
open Spec (mat)

variable (V : (c : Dev nD) → (b : Ref sig .tc) → Buf (Elt Ideal) ((c : Thread nD τ).loc b)) (c : Dev nD)

/-! ## The per-core squared norm -/

/-- The only index of a [1,1,1] block. -/
theorem idx111 (i : S1x1x1.Idx) : i = ix3 0 0 0 := by
  funext a
  apply Fin.ext
  match a with
  | ⟨0, _⟩ => have : (i 0).val < 1 := (i 0).isLt; show (i 0).val = 0; omega
  | ⟨1, _⟩ => have : (i 1).val < 1 := (i 1).isLt; show (i 1).val = 0; omega
  | ⟨2, _⟩ => have : (i 2).val < 1 := (i 2).isLt; show (i 2).val = 0; omega

/-- A block's sum of squares. -/
def sqOf (a : Vec Ideal S2048x256 .f32) : EReal := ∑ r : Fin 2048, ∑ k : Fin 256, a (ix2 r k) * a (ix2 r k)

/-- Block n's sum of squares of n_r (zero past the grid). -/
def sqAt (n : ℕ) : EReal := if h : n < cfg0.N then sqOf (iblk0 V c 2 ⟨n, h⟩) else 0

/-- The running squared norm after point n, as a function on the one-point type. -/
def sqRun (n : ℕ) (h : n < cfg0.N) : Unit → EReal := fun _ => ((outsAt0 V c n h).2.2 : Vec Ideal S1x1x1 .f32) (ix3 0 0 0)

/-- A core's first point stores zero plus its block's sum of squares. -/
theorem sq_reset (n : ℕ) (h : n < cfg0.N) (h0 : n % 16 = 0) : sqRun V c n h = fun _ => 0 + sqAt V c n := by
  funext u
  unfold sqRun
  rw [outsAt0_A V c ⟨n, h⟩ h0]
  dsimp only
  refine (congrFun (piece_A_9 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩)) (ix3 0 0 0)).trans ?_
  refine (pay2_apply (iblk0 V c 2 ⟨n, h⟩) (k0_pay4 (F := Ideal))).trans ?_
  rw [pay4_apply]
  unfold sqAt
  rw [dif_pos h]
  rfl

/-- Every other point adds its block's sum of squares to what the point before left. -/
theorem sq_step (n : ℕ) (h : n + 1 < cfg0.N) (h0 : ¬(n + 1) % 16 = 0) :
    sqRun V c (n + 1) h = fun u => sqRun V c n (Nat.lt_of_succ_lt h) u + sqAt V c (n + 1) := by
  funext u
  unfold sqRun
  rw [outsAt0_B V c ⟨n + 1, h⟩ h0]
  dsimp only
  refine (congrFun (piece_B_9 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun h' => h0 ((hcond0_0 ⟨n + 1, h⟩).mp h')) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (outsAt0 V c n (Nat.lt_of_succ_lt h)).2.1 (outsAt0 V c n (Nat.lt_of_succ_lt h)).2.2) (ix3 0 0 0)).trans ?_
  refine (pay2_apply (iblk0 V c 2 ⟨n + 1, h⟩) (outsAt0 V c n (Nat.lt_of_succ_lt h)).2.2).trans ?_
  unfold sqAt
  rw [dif_pos h]
  rfl

/-- So after point t the running squared norm is the sum of the contributions of its core's points up to t. -/
theorem sq_chain (t : Fin cfg0.N) :
    ((outsAt0 V c t.val t.isLt).2.2 : Vec Ideal S1x1x1 .f32) (ix3 0 0 0)
      = 0 + ∑ s ∈ Finset.range (t.val % 16 + 1), sqAt V c (16 * (t.val / 16) + s) := by
  have hN : cfg0.N = 32 := N_0
  have h' : 16 * (t.val / 16) + t.val % 16 < cfg0.N := by have := t.isLt; omega
  have e := Pipeline.eq_accAt_of_mod (N := cfg0.N) (sqRun V c) 16
    (fun n _ => fun _ => 0 + sqAt V c n) (fun n _ acc => fun u => acc u + sqAt V c n)
    (fun n h h0 => sq_reset V c n h h0) (fun n h h0 => sq_step V c n h h0) (by decide) t.val t.isLt h'
  refine (congrFun e ()).trans ?_
  exact Pipeline.accAt_add_apply (N := cfg0.N) (fun n _ => fun _ => 0 + sqAt V c n) (fun n _ acc => fun u => acc u + sqAt V c n)
    (fun _ => 0) (fun n _ => sqAt V c n) (16 * (t.val / 16)) 15 (fun _ _ => rfl) (fun _ _ _ _ _ _ => rfl)
    (t.val % 16) (by omega) h' ()

/-- The squared-norm array's contents after the pass. -/
abbrev G9 : S2x1x1.Idx → EReal := fun i => RegionSpec.sumsqPart (i 0) (mat (V c main_arg2 : S65536x256.Idx → EReal))

/-- A core's last point writes back the core's partial squared norm. -/
theorem flushed9 (t : Fin cfg0.N) (hf : (cfg0.win 9).flush t = true) :
    (dat0 V c).flushed 9 t = ((cfg0.win 9).blk t).view.read (Elt Ideal) (G9 V c) := by
  have hN : cfg0.N = 32 := N_0
  have ht : t.val < 32 := hN ▸ t.isLt
  have h15 : t.val % 16 = 15 := (flush0_9 t).mp hf
  show (cfg0.win 9).cut (grid0.coords t) ((dat0 V c).after 9 t) = _
  rw [after0_9]
  funext y
  obtain rfl := idx111 y
  show ((outsAt0 V c t.val t.isLt).2.2 : Vec Ideal S1x1x1 .f32) (ix3 0 0 0) = G9 V c (((cfg0.win 9).blk t).view.emb (ix3 0 0 0))
  rw [emb9 t ⟨t.val / 16, by omega⟩ rfl, sq_chain V c t, h15, zero_add, Finset.sum_range]
  show _ = ∑ i : Fin 16, ∑ r : Fin 2048, ∑ k : Fin 256, _
  refine Finset.sum_congr rfl fun s _ => ?_
  have hs : 16 * (t.val / 16) + s.val < cfg0.N := by have := s.isLt; omega
  unfold sqAt
  rw [dif_pos hs]
  unfold sqOf
  refine Finset.sum_congr rfl fun r _ => Finset.sum_congr rfl fun k _ => ?_
  rw [blk2_apply]
  rfl

/-- Each core's entry of the squared-norm array is covered by the core's last point. -/
theorem cover9 (i : S2x1x1.Idx) :
    ∃ t : Fin cfg0.N, (cfg0.win 9).flush t = true ∧ i ∈ ((cfg0.win 9).blk t).view.set := by
  have hN : cfg0.N = 32 := N_0
  have hi0 : (i 0).val < 2 := (i 0).isLt
  have hi1 : (i 1).val < 1 := (i 1).isLt
  have hi2 : (i 2).val < 1 := (i 2).isLt
  have ht : 16 * (i 0).val + 15 < cfg0.N := by omega
  refine ⟨⟨16 * (i 0).val + 15, ht⟩, (flush0_9 _).mpr (by dsimp only; omega), ?_⟩
  show i ∈ ((View.whole main_v15_2).slice (win0_9.rect ⟨16 * (i 0).val + 15, ht⟩)).set
  rw [View.set_slice_whole, Rect.mem_set_unit]
  obtain ⟨-, -, -, e0, e1, e2⟩ := idx_core ⟨16 * (i 0).val + 15, ht⟩
  intro a
  match a with
  | ⟨0, _⟩ =>
    show win0_9.index ⟨16 * (i 0).val + 15, ht⟩ (0 : Fin 3) * 1 ≤ (i 0).val ∧ (i 0).val < win0_9.index ⟨16 * (i 0).val + 15, ht⟩ (0 : Fin 3) * 1 + 1
    rw [e0]; dsimp only; omega
  | ⟨1, _⟩ =>
    show win0_9.index ⟨16 * (i 0).val + 15, ht⟩ (1 : Fin 3) * 1 ≤ (i 1).val ∧ (i 1).val < win0_9.index ⟨16 * (i 0).val + 15, ht⟩ (1 : Fin 3) * 1 + 1
    rw [e1]; omega
  | ⟨2, _⟩ =>
    show win0_9.index ⟨16 * (i 0).val + 15, ht⟩ (2 : Fin 3) * 1 ≤ (i 2).val ∧ (i 2).val < win0_9.index ⟨16 * (i 0).val + 15, ht⟩ (2 : Fin 3) * 1 + 1
    rw [e2]; omega

/-- The squared-norm array after the pass: per core, the squared norm of its 16 blocks of n_r. -/
theorem out_S (q : Fin 2) :
    ((dat0 V c).arrAt 9 cfg0.N : S2x1x1.Idx → EReal) (ix3 q 0 0)
      = RegionSpec.sumsqPart q (mat (V c main_arg2 : S65536x256.Idx → EReal)) :=
  congrFun ((dat0 V c).arrAt_eq_of_cover 9 (G9 V c) (fun t hf => flushed9 V c t hf) (fun i => cover9 i)) (ix3 q 0 0)

/-! ## The per-core Gram matrix -/

/-- The indices of a [1,256,256] block. -/
theorem idx1kj (i : S1x256x256.Idx) : ∃ (k j : Fin 256), i = ix3 0 k j :=
  ⟨i 1, i 2, funext fun a => Fin.ext (by
    match a with
    | ⟨0, _⟩ => have : (i 0).val < 1 := (i 0).isLt; show (i 0).val = 0; omega
    | ⟨1, _⟩ => rfl
    | ⟨2, _⟩ => rfl)⟩

/-- A block's rows of one matrix against the same rows of another. -/
def gramOf (a : Vec Ideal S2048x256 .f32) (hrow : Fin 2048 → Fin 256 → EReal) (p : Fin 256 × Fin 256) : EReal :=
  ∑ r : Fin 2048, a (ix2 r p.1) * hrow r p.2

/-- The block's contribution to the Gram matrix, over the arrays: rows 2048·t … of n_r against the same rows of the state. -/
theorem gram_blk (t : Fin cfg0.N) (k j : Fin 256) :
    k0_pay7 (F := Ideal) (iblk0 V c 0 t) (iblk0 V c 1 t) (iblk0 V c 2 t) (iblk0 V c 3 t) (iblk0 V c 4 t) (iblk0 V c 5 t) (iblk0 V c 6 t) (ix2 k j)
      = gramOf (iblk0 V c 2 t) (fun r j => hAll V c (rowOf t r) j) (k, j) := by
  refine (pay7_apply (iblk0 V c 0 t) (iblk0 V c 1 t) (iblk0 V c 2 t) (iblk0 V c 3 t) (iblk0 V c 4 t) (iblk0 V c 5 t) (iblk0 V c 6 t) k j).trans ?_
  unfold gramOf
  exact Finset.sum_congr rfl fun r _ => by rw [cell_blk V c t r j]

/-- Block n's contribution to the Gram matrix (zero past the grid). -/
def gramAt (n : ℕ) (p : Fin 256 × Fin 256) : EReal :=
  if h : n < cfg0.N then gramOf (iblk0 V c 2 ⟨n, h⟩) (fun r j => hAll V c (rowOf ⟨n, h⟩ r) j) p else 0

/-- The running Gram matrix after point n, entry by entry. -/
def gramRun (n : ℕ) (h : n < cfg0.N) : Fin 256 × Fin 256 → EReal :=
  fun p => ((outsAt0 V c n h).2.1 : Vec Ideal S1x256x256 .f32) (ix3 0 p.1 p.2)

/-- A core's first point stores zero plus its block's contribution. -/
theorem gram_reset (n : ℕ) (h : n < cfg0.N) (h0 : n % 16 = 0) : gramRun V c n h = fun p => 0 + gramAt V c n p := by
  funext p
  unfold gramRun
  rw [outsAt0_A V c ⟨n, h⟩ h0]
  dsimp only
  refine (congrFun (piece_A_8 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩)) (ix3 0 p.1 p.2)).trans ?_
  refine (pay1_apply (k0_pay7 (F := Ideal) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩)) (k0_pay8 (F := Ideal) (k0_pay3 (F := Ideal))) p.1 p.2).trans ?_
  rw [pay8_eq, pay3_apply, gram_blk V c ⟨n, h⟩ p.1 p.2]
  unfold gramAt
  rw [dif_pos h]

/-- Every other point adds its block's contribution to what the point before left. -/
theorem gram_step (n : ℕ) (h : n + 1 < cfg0.N) (h0 : ¬(n + 1) % 16 = 0) :
    gramRun V c (n + 1) h = fun p => gramRun V c n (Nat.lt_of_succ_lt h) p + gramAt V c (n + 1) p := by
  funext p
  unfold gramRun
  rw [outsAt0_B V c ⟨n + 1, h⟩ h0]
  dsimp only
  refine (congrFun (piece_B_8 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun h' => h0 ((hcond0_0 ⟨n + 1, h⟩).mp h')) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (outsAt0 V c n (Nat.lt_of_succ_lt h)).2.1 (outsAt0 V c n (Nat.lt_of_succ_lt h)).2.2) (ix3 0 p.1 p.2)).trans ?_
  refine (pay1_apply (k0_pay7 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩)) (k0_pay8 (F := Ideal) (outsAt0 V c n (Nat.lt_of_succ_lt h)).2.1) p.1 p.2).trans ?_
  rw [pay8_eq, gram_blk V c ⟨n + 1, h⟩ p.1 p.2]
  unfold gramAt
  rw [dif_pos h]

/-- So after point t the running Gram matrix is the sum of the contributions of its core's points up to t. -/
theorem gram_chain (t : Fin cfg0.N) (p : Fin 256 × Fin 256) :
    ((outsAt0 V c t.val t.isLt).2.1 : Vec Ideal S1x256x256 .f32) (ix3 0 p.1 p.2)
      = 0 + ∑ s ∈ Finset.range (t.val % 16 + 1), gramAt V c (16 * (t.val / 16) + s) p := by
  have hN : cfg0.N = 32 := N_0
  have h' : 16 * (t.val / 16) + t.val % 16 < cfg0.N := by have := t.isLt; omega
  have e := Pipeline.eq_accAt_of_mod (N := cfg0.N) (gramRun V c) 16
    (fun n _ => fun p => 0 + gramAt V c n p) (fun n _ acc => fun p => acc p + gramAt V c n p)
    (fun n h h0 => gram_reset V c n h h0) (fun n h h0 => gram_step V c n h h0) (by decide) t.val t.isLt h'
  refine (congrFun e p).trans ?_
  exact Pipeline.accAt_add_apply (N := cfg0.N) (fun n _ => fun p => 0 + gramAt V c n p) (fun n _ acc => fun p => acc p + gramAt V c n p)
    (fun _ => 0) (fun n p => gramAt V c n p) (16 * (t.val / 16)) 15 (fun _ _ => rfl) (fun _ _ _ _ _ _ => rfl)
    (t.val % 16) (by omega) h' p

/-- The Gram array's contents after the pass. -/
abbrev G8 : S2x256x256.Idx → EReal :=
  fun i => RegionSpec.gramPart (i 0) (mat (V c main_arg2 : S65536x256.Idx → EReal)) (hAll V c) (i 1) (i 2)

/-- A core's last point writes back the core's partial Gram matrix. -/
theorem flushed8 (t : Fin cfg0.N) (hf : (cfg0.win 8).flush t = true) :
    (dat0 V c).flushed 8 t = ((cfg0.win 8).blk t).view.read (Elt Ideal) (G8 V c) := by
  have hN : cfg0.N = 32 := N_0
  have ht : t.val < 32 := hN ▸ t.isLt
  have h15 : t.val % 16 = 15 := (flush0_8 t).mp hf
  show (cfg0.win 8).cut (grid0.coords t) ((dat0 V c).after 8 t) = _
  rw [after0_8]
  funext y
  obtain ⟨k, j, rfl⟩ := idx1kj y
  show ((outsAt0 V c t.val t.isLt).2.1 : Vec Ideal S1x256x256 .f32) (ix3 0 k j) = G8 V c (((cfg0.win 8).blk t).view.emb (ix3 0 k j))
  rw [emb8 t ⟨t.val / 16, by omega⟩ rfl k j]
  refine (gram_chain V c t (k, j)).trans ?_
  rw [h15, zero_add, Finset.sum_range]
  show _ = ∑ i : Fin 16, ∑ r : Fin 2048, _
  refine Finset.sum_congr rfl fun s _ => ?_
  have hs : 16 * (t.val / 16) + s.val < cfg0.N := by have := s.isLt; omega
  unfold gramAt
  rw [dif_pos hs]
  unfold gramOf
  refine Finset.sum_congr rfl fun r _ => ?_
  rw [blk2_apply]
  rfl

/-- Each core's block of the Gram array is covered by the core's last point. -/
theorem cover8 (i : S2x256x256.Idx) :
    ∃ t : Fin cfg0.N, (cfg0.win 8).flush t = true ∧ i ∈ ((cfg0.win 8).blk t).view.set := by
  have hN : cfg0.N = 32 := N_0
  have hi0 : (i 0).val < 2 := (i 0).isLt
  have hi1 : (i 1).val < 256 := (i 1).isLt
  have hi2 : (i 2).val < 256 := (i 2).isLt
  have ht : 16 * (i 0).val + 15 < cfg0.N := by omega
  refine ⟨⟨16 * (i 0).val + 15, ht⟩, (flush0_8 _).mpr (by dsimp only; omega), ?_⟩
  show i ∈ ((View.whole main_v15_1).slice (win0_8.rect ⟨16 * (i 0).val + 15, ht⟩)).set
  rw [View.set_slice_whole, Rect.mem_set_unit]
  obtain ⟨e0, e1, e2, -⟩ := idx_core ⟨16 * (i 0).val + 15, ht⟩
  intro a
  match a with
  | ⟨0, _⟩ =>
    show win0_8.index ⟨16 * (i 0).val + 15, ht⟩ (0 : Fin 3) * 1 ≤ (i 0).val ∧ (i 0).val < win0_8.index ⟨16 * (i 0).val + 15, ht⟩ (0 : Fin 3) * 1 + 1
    rw [e0]; dsimp only; omega
  | ⟨1, _⟩ =>
    show win0_8.index ⟨16 * (i 0).val + 15, ht⟩ (1 : Fin 3) * 256 ≤ (i 1).val ∧ (i 1).val < win0_8.index ⟨16 * (i 0).val + 15, ht⟩ (1 : Fin 3) * 256 + 256
    rw [e1]; omega
  | ⟨2, _⟩ =>
    show win0_8.index ⟨16 * (i 0).val + 15, ht⟩ (2 : Fin 3) * 256 ≤ (i 2).val ∧ (i 2).val < win0_8.index ⟨16 * (i 0).val + 15, ht⟩ (2 : Fin 3) * 256 + 256
    rw [e2]; omega

/-- The Gram array after the pass: per core, the Gram matrix of its 16 blocks of n_r against the same rows of the state. -/
theorem out_M (q : Fin 2) (k j : Fin 256) :
    ((dat0 V c).arrAt 8 cfg0.N : S2x256x256.Idx → EReal) (ix3 q k j)
      = RegionSpec.gramPart q (mat (V c main_arg2 : S65536x256.Idx → EReal))
          (RegionSpec.pass1_h (mat (V c main_arg1 : S65536x256.Idx → EReal)) (mat (V c main_arg0 : S65536x256.Idx → EReal))
            (mat (V c main_v1 : S256x256.Idx → EReal)) (mat (V c main_v10 : S1x256.Idx → EReal))
            (mat (V c main_v7 : S256x256.Idx → EReal)) (mat (V c main_v13 : S1x256.Idx → EReal))) k j :=
  congrFun ((dat0 V c).arrAt_eq_of_cover 8 (G8 V c) (fun t hf => flushed8 V c t hf) (fun i => cover8 i)) (ix3 q k j)

end Cert.KernelIdeal.Pass1
-- ==== Proof.Pass2Pieces.lean ====
/-
  The second pass, case by case: what one grid point leaves in each of its three output buffers, as the body's
  arithmetic applied to the blocks it loads. The state's block is the narrowed new state in both cases; each
  accumulator is its block's contribution added to the stored zero at a resetting point, and to what the buffer
  already held at any other point. Stated for every float instance.
-/
import proofs.«152349_j35390530519886_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Pass2

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

/-- The zero offsets of a rank-2 and of a rank-3 rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The new state's block before it is narrowed for the store: the cell on the block of n_r and the projected state,
    as one term over the blocks the body loads. -/
abbrev newState (x0 : Vec F S2048x256 .bf16) (x1 : Vec F S2048x256 .f32) (x3 : Vec F S256x256 .f32) (x4 : Vec F S1x1 .f32)
    (x5 : Vec F S256x256 .bf16) (x6 : Vec F S1x256 .f32) (x7 : Vec F S256x256 .bf16) (x8 : Vec F S1x256 .f32) :
    FVec F S2048x256 .f32 :=
  k1_pay1 (k1_pay7 x7) (k1_pay8 x8) (k1_pay9 x1 x5 x6) (k1_pay10 x0 x1 x3 x4) (constant S2048x256 .f32 0x00000000#32)

section Pieces
variable (c : Dev nD) (i : grid1.Coords)
  (a2 : Memref sig .tc .vmem S2048x256 .bf16) (h2 : a2.IsWhole) (a3 : Memref sig .tc .vmem S2048x256 .f32) (h3 : a3.IsWhole)
  (a4 : Memref sig .tc .vmem S2048x256 .f32) (h4 : a4.IsWhole) (a5 : Memref sig .tc .vmem S256x256 .f32) (h5 : a5.IsWhole)
  (a6 : Memref sig .tc .vmem S1x1 .f32) (h6 : a6.IsWhole) (a7 : Memref sig .tc .vmem S256x256 .bf16) (h7 : a7.IsWhole)
  (a8 : Memref sig .tc .vmem S1x256 .f32) (h8 : a8.IsWhole) (a9 : Memref sig .tc .vmem S256x256 .bf16) (h9 : a9.IsWhole)
  (a10 : Memref sig .tc .vmem S1x256 .f32) (h10 : a10.IsWhole) (a11 : Memref sig .tc .vmem S2048x256 .bf16) (h11 : a11.IsWhole)
  (a12 : Memref sig .tc .vmem S1x256x256 .f32) (h12 : a12.IsWhole) (a13 : Memref sig .tc .vmem S1x1x1 .f32) (h13 : a13.IsWhole)
  (x0 : Vec F S2048x256 .bf16) (x1 : Vec F S2048x256 .f32) (x2 : Vec F S2048x256 .f32) (x3 : Vec F S256x256 .f32)
  (x4 : Vec F S1x1 .f32) (x5 : Vec F S256x256 .bf16) (x6 : Vec F S1x256 .f32) (x7 : Vec F S256x256 .bf16) (x8 : Vec F S1x256 .f32)  (xo10 : Vec F S1x256x256 .f32) (xo11 : Vec F S1x1x1 .f32)

/-- The state's block, when the accumulators are reset first: the narrowed new state. -/
theorem stateA (hc : cond1_0 i) : out1_A_9 c i a2 h2 a3 h3 a4 h4 a5 h5 a6 h6 a7 h7 a8 h8 a9 h9 a10 h10 a11 h11 a12 h12 a13 h13 hc x0 x1 x2 x3 x4 x5 x6 x7 x8
    = truncf .bf16 (newState x0 x1 x3 x4 x5 x6 x7 x8) bitsLt_bf16_f32 := by
  unfold out1_A_9
  rw [View.read_writes_eq_canon _ _ _ (cover1_A_9 c i a2 h2 a3 h3 a4 h4 a5 h5 a6 h6 a7 h7 a8 h8 a9 h9 a10 h10 a11 h11 a12 h12 a13 h13 hc x0 x1 x2 x3 x4 x5 x6 x7 x8)]
  unfold kernelRun1_A
  dsimp only
  sl_unfold_words
  rw [View.canon_unit_zero hz2]
  simp only [View.readAt_eq_ld, h2.read_unread, h3.read_unread, h5.read_unread, h6.read_unread, h7.read_unread, h8.read_unread,
    h9.read_unread, h10.read_unread, View.ld_unit_zero (S := S2048x256) hz2, View.ld_unit_zero (S := S256x256) hz2,
    View.ld_unit_zero (S := S1x256) hz2, View.ld_unit_zero (S := S1x1) hz2]
  rfl

/-- The state's block at a point that does not reset: the same. -/
theorem stateB (hc : ¬cond1_0 i) : out1_B_9 c i a2 h2 a3 h3 a4 h4 a5 h5 a6 h6 a7 h7 a8 h8 a9 h9 a10 h10 a11 h11 a12 h12 a13 h13 hc x0 x1 x2 x3 x4 x5 x6 x7 x8 xo10 xo11
    = truncf .bf16 (newState x0 x1 x3 x4 x5 x6 x7 x8) bitsLt_bf16_f32 := by
  unfold out1_B_9
  rw [View.read_writes_eq_canon _ _ _ (cover1_B_9 c i a2 h2 a3 h3 a4 h4 a5 h5 a6 h6 a7 h7 a8 h8 a9 h9 a10 h10 a11 h11 a12 h12 a13 h13 hc x0 x1 x2 x3 x4 x5 x6 x7 x8 xo10 xo11)]
  unfold kernelRun1_B
  dsimp only
  sl_unfold_words
  rw [View.canon_unit_zero hz2]
  simp only [View.readAt_eq_ld, h2.read_unread, h3.read_unread, h5.read_unread, h6.read_unread, h7.read_unread, h8.read_unread,
    h9.read_unread, h10.read_unread, View.ld_unit_zero (S := S2048x256) hz2, View.ld_unit_zero (S := S256x256) hz2,
    View.ld_unit_zero (S := S1x256) hz2, View.ld_unit_zero (S := S1x1) hz2]
  rfl

/-- The Gram accumulator after a resetting point: the block's contribution added to the stored zero. -/
theorem gramA (hc : cond1_0 i) : out1_A_10 c i a2 h2 a3 h3 a4 h4 a5 h5 a6 h6 a7 h7 a8 h8 a9 h9 a10 h10 a11 h11 a12 h12 a13 h13 hc x0 x1 x2 x3 x4 x5 x6 x7 x8
    = k1_pay3 x2 (k1_pay7 x7) (k1_pay8 x8) (k1_pay9 x1 x5 x6) (k1_pay10 x0 x1 x3 x4) (constant S2048x256 .f32 0x00000000#32) k1_pay5 := by
  unfold out1_A_10
  rw [View.read_writes_eq_canon _ _ _ (cover1_A_10 c i a2 h2 a3 h3 a4 h4 a5 h5 a6 h6 a7 h7 a8 h8 a9 h9 a10 h10 a11 h11 a12 h12 a13 h13 hc x0 x1 x2 x3 x4 x5 x6 x7 x8)]
  unfold kernelRun1_A
  dsimp only
  sl_unfold_words
  rw [View.canon_cons_unit_zero (S := S1x256x256) hz3, View.readCov_unit_zero (S := S1x256x256) _ hz3]
  simp only [View.readAt_eq_ld, h2.read_unread, h3.read_unread, h4.read_unread, h5.read_unread, h6.read_unread, h7.read_unread, h8.read_unread,
    h9.read_unread, h10.read_unread, View.ld_unit_zero (S := S2048x256) hz2, View.ld_unit_zero (S := S256x256) hz2,
    View.ld_unit_zero (S := S1x256) hz2, View.ld_unit_zero (S := S1x1) hz2]

/-- The Gram accumulator after any other point: the block's contribution added to what the buffer held. -/
theorem gramB (hc : ¬cond1_0 i) : out1_B_10 c i a2 h2 a3 h3 a4 h4 a5 h5 a6 h6 a7 h7 a8 h8 a9 h9 a10 h10 a11 h11 a12 h12 a13 h13 hc x0 x1 x2 x3 x4 x5 x6 x7 x8 xo10 xo11
    = k1_pay3 x2 (k1_pay7 x7) (k1_pay8 x8) (k1_pay9 x1 x5 x6) (k1_pay10 x0 x1 x3 x4) (constant S2048x256 .f32 0x00000000#32) xo10 := by
  unfold out1_B_10
  rw [View.read_writes_eq_canon _ _ _ (cover1_B_10 c i a2 h2 a3 h3 a4 h4 a5 h5 a6 h6 a7 h7 a8 h8 a9 h9 a10 h10 a11 h11 a12 h12 a13 h13 hc x0 x1 x2 x3 x4 x5 x6 x7 x8 xo10 xo11)]
  unfold kernelRun1_B
  dsimp only
  sl_unfold_words
  rw [View.canon_unit_zero hz3]
  simp only [View.readAt_eq_ld, h2.read_unread, h3.read_unread, h4.read_unread, h5.read_unread, h6.read_unread, h7.read_unread, h8.read_unread,
    h9.read_unread, h10.read_unread, h12.read_unread, View.ld_unit_zero (S := S2048x256) hz2, View.ld_unit_zero (S := S256x256) hz2,
    View.ld_unit_zero (S := S1x256) hz2, View.ld_unit_zero (S := S1x1) hz2, View.ld_unit_zero (S := S1x256x256) hz3]

/-- The squared-norm accumulator after a resetting point. -/
theorem normA (hc : cond1_0 i) : out1_A_11 c i a2 h2 a3 h3 a4 h4 a5 h5 a6 h6 a7 h7 a8 h8 a9 h9 a10 h10 a11 h11 a12 h12 a13 h13 hc x0 x1 x2 x3 x4 x5 x6 x7 x8 = k1_pay4 x2 k1_pay6 := by
  unfold out1_A_11
  rw [View.read_writes_eq_canon _ _ _ (cover1_A_11 c i a2 h2 a3 h3 a4 h4 a5 h5 a6 h6 a7 h7 a8 h8 a9 h9 a10 h10 a11 h11 a12 h12 a13 h13 hc x0 x1 x2 x3 x4 x5 x6 x7 x8)]
  unfold kernelRun1_A
  dsimp only
  sl_unfold_words
  rw [View.canon_cons_unit_zero (S := S1x1x1) hz3, View.readCov_unit_zero (S := S1x1x1) _ hz3]
  simp only [View.readAt_eq_ld, h4.read_unread, View.ld_unit_zero (S := S2048x256) hz2]

/-- The squared-norm accumulator after any other point. -/
theorem normB (hc : ¬cond1_0 i) : out1_B_11 c i a2 h2 a3 h3 a4 h4 a5 h5 a6 h6 a7 h7 a8 h8 a9 h9 a10 h10 a11 h11 a12 h12 a13 h13 hc x0 x1 x2 x3 x4 x5 x6 x7 x8 xo10 xo11 = k1_pay4 x2 xo11 := by
  unfold out1_B_11
  rw [View.read_writes_eq_canon _ _ _ (cover1_B_11 c i a2 h2 a3 h3 a4 h4 a5 h5 a6 h6 a7 h7 a8 h8 a9 h9 a10 h10 a11 h11 a12 h12 a13 h13 hc x0 x1 x2 x3 x4 x5 x6 x7 x8 xo10 xo11)]
  unfold kernelRun1_B
  dsimp only
  sl_unfold_words
  rw [View.canon_unit_zero hz3]
  simp only [View.readAt_eq_ld, h4.read_unread, h13.read_unread, View.ld_unit_zero (S := S2048x256) hz2,
    View.ld_unit_zero (S := S1x1x1) hz3]

end Pieces

end Cert.KernelIdeal.Pass2
-- ==== Proof.Pass2Pay.lean ====
/-
  The second pass's arithmetic read entry by entry over the extended reals, where a change of float format is the
  identity and a matmul into the zero accumulator is the plain sum of products: the two contractions the body uses
  (rows times a square matrix; the transpose of a block times a block), the projection of the state's block, and the
  new state's block as the cell on the block of n_r and the projected block.
-/
import proofs.«152349_j35390530519886_2_alg».proof.Proof.Pass2Pieces
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.KernelIdeal.Pass2

open Idealize.ShloMosaic Idealize.ShloMosaic.TcCoe Idealize.SL.Sem
open Idealize.ShloMosaic.Pipeline (Dat)
open Idealize.ShloMosaic.ValueIdx
open Cert.KernelIdeal Cert.KernelIdeal.Gen

/-! ## The two matmuls at an index -/

/-- In the row-times-matrix contraction the left operand keeps the output's row, -/
theorem rowL0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
/-- and the right operand the output's column. -/
theorem rowR1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- Rows times a square matrix, into the zero accumulator: entry (p, j) is the sum over k of l (p, k) r (k, j). -/
theorem mm_rows {φ₁ φ₂ : FTy} (l : FVec Ideal S2048x256 φ₁) (r : FVec Ideal S256x256 φ₂) (p : Fin 2048) (j : Fin 256) :
    matmul dot_S2048x256_S256x256_S2048x256_1_0_0_1_n_n none l r (constant S2048x256 .f32 0x00000000#32) (ix2 p j)
      = ∑ k : Fin 256, l (ix2 p k) * r (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p j) ((contrEquiv1 dot_S2048x256_S256x256_S2048x256_1_0_0_1_n_n 256 rfl rfl).symm k) = ix2 p k :=
    funext fun a => Fin.ext (by
      match a with
      | ⟨0, _⟩ => exact rowL0 _ _
      | ⟨1, _⟩ => exact (dot_S2048x256_S256x256_S2048x256_1_0_0_1_n_n.lhsIdx_val_of_single rfl _ _).trans hk)
  have er : dot_S2048x256_S256x256_S2048x256_1_0_0_1_n_n.rhsIdx (ix2 p j) ((contrEquiv1 dot_S2048x256_S256x256_S2048x256_1_0_0_1_n_n 256 rfl rfl).symm k) = ix2 k j :=
    funext fun a => Fin.ext (by
      match a with
      | ⟨0, _⟩ => exact (dot_S2048x256_S256x256_S2048x256_1_0_0_1_n_n.rhsIdx_val_of_single rfl _ _).trans hk
      | ⟨1, _⟩ => exact rowR1 _ _)
  rw [el, er]

/-- In the Gram contraction (the rows are summed) the left operand keeps the output's first coordinate as its column, -/
theorem gramL1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl
/-- and the right operand the output's second coordinate as its column. -/
theorem gramR1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- The transpose of a block times a block, into the zero accumulator: entry (k, j) is the sum over the 2048 rows p of
    l (p, k) r (p, j). -/
theorem mm_gram {φ₁ φ₂ : FTy} (l : FVec Ideal S2048x256 φ₁) (r : FVec Ideal S2048x256 φ₂) (k : Fin 256) (j : Fin 256) :
    matmul dot_S2048x256_S2048x256_S256x256_0_0_1_1_n_n none l r (constant S256x256 .f32 0x00000000#32) (ix2 k j)
      = ∑ p : Fin 2048, l (ix2 p k) * r (ix2 p j) := by
  simp only [matmul]
  rw [Ideal.matmul_constant_zero_apply, ← Equiv.sum_comp (contrEquiv1 dot_S2048x256_S2048x256_S256x256_0_0_1_1_n_n 2048 rfl rfl).symm]
  refine Finset.sum_congr rfl fun p _ => ?_
  have hp := contrEquiv1_symm_val dot_S2048x256_S2048x256_S256x256_0_0_1_1_n_n 2048 rfl rfl p
  have el : dot_S2048x256_S2048x256_S256x256_0_0_1_1_n_n.lhsIdx (ix2 k j) ((contrEquiv1 dot_S2048x256_S2048x256_S256x256_0_0_1_1_n_n 2048 rfl rfl).symm p) = ix2 p k :=
    funext fun a => Fin.ext (by
      match a with
      | ⟨0, _⟩ => exact (dot_S2048x256_S2048x256_S256x256_0_0_1_1_n_n.lhsIdx_val_of_single rfl _ _).trans hp
      | ⟨1, _⟩ => exact gramL1 _ _)
  have er : dot_S2048x256_S2048x256_S256x256_0_0_1_1_n_n.rhsIdx (ix2 k j) ((contrEquiv1 dot_S2048x256_S2048x256_S256x256_0_0_1_1_n_n 2048 rfl rfl).symm p) = ix2 p j :=
    funext fun a => Fin.ext (by
      match a with
      | ⟨0, _⟩ => exact (dot_S2048x256_S2048x256_S256x256_0_0_1_1_n_n.rhsIdx_val_of_single rfl _ _).trans hp
      | ⟨1, _⟩ => exact gramR1 _ _)
  rw [el, er]

/-! ## The body's arithmetic at an index -/

/-- The reciprocal of the squared norm, broadcast from its one entry to the block. -/
theorem recip_apply (x4 : Vec Ideal S1x1 .f32) (h : S1x1.Broadcasts S2048x256) (p : Fin 2048) (k : Fin 256) :
    broadcastTo S2048x256 (divf (broadcast S1x1 (Scalar.ofBits (F := Ideal) .f32 0x3F800000#32)) x4) h (ix2 p k)
      = Ideal.div 1 (x4 (ix2 0 0)) := by
  refine (broadcastTo_apply _ h (ix2 p k) (ix2 (0 : Fin 1) (0 : Fin 1)) fun a => ?_).trans ?_
  · match a with
    | ⟨0, _⟩ => show 0 = if (1 : Nat) = 1 then 0 else p.val; rw [if_pos rfl]
    | ⟨1, _⟩ => show 0 = if (1 : Nat) = 1 then 0 else k.val; rw [if_pos rfl]
  · show Ideal.div (Ideal.ofBits .f32 0x3F800000#32) (x4 (ix2 0 0)) = _
    rw [Ideal.ofBits_one_f32]

section Reads
variable (x0 : Vec Ideal S2048x256 .bf16) (x1 x2 : Vec Ideal S2048x256 .f32) (x3 : Vec Ideal S256x256 .f32)
  (x4 : Vec Ideal S1x1 .f32) (x5 : Vec Ideal S256x256 .bf16) (x6 : Vec Ideal S1x256 .f32)
  (x7 : Vec Ideal S256x256 .bf16) (x8 : Vec Ideal S1x256 .f32)

/-- The block of n_r through its weight and bias. -/
theorem lin_apply (p : Fin 2048) (j : Fin 256) :
    k1_pay9 x1 x5 x6 (ix2 p j) = (∑ k : Fin 256, x1 (ix2 p k) * x5 (ix2 k j)) + x6 (ix2 0 j) := by
  unfold k1_pay9
  simp only [shapeCast_self]
  show matmul (F := Ideal) dot_S2048x256_S256x256_S2048x256_1_0_0_1_n_n none (truncf (F := Ideal) .bf16 x1 bitsLt_bf16_f32) x5 (constant S2048x256 .f32 0x00000000#32) (ix2 p j)
      + broadcastTo S2048x256 x6 broadcasts_S1x256_S2048x256 (ix2 p j) = _
  rw [mm_rows, broadcastTo_1b_ab_apply]
  rfl

/-- The state's block with the direction of n_r taken out. -/
theorem proj_apply (p : Fin 2048) (k : Fin 256) :
    k1_pay10 x0 x1 x3 x4 (ix2 p k)
      = x0 (ix2 p k) - (∑ k' : Fin 256, x1 (ix2 p k') * x3 (ix2 k' k)) * Ideal.div 1 (x4 (ix2 0 0)) := by
  unfold k1_pay10
  simp only [shapeCast_self]
  show x0 (ix2 p k) - matmul (F := Ideal) dot_S2048x256_S256x256_S2048x256_1_0_0_1_n_n none (truncf (F := Ideal) .bf16 x1 bitsLt_bf16_f32)
        (truncf (F := Ideal) .bf16 x3 bitsLt_bf16_f32) (constant S2048x256 .f32 0x00000000#32) (ix2 p k)
      * broadcastTo S2048x256 (divf (broadcast S1x1 (Scalar.ofBits (F := Ideal) .f32 0x3F800000#32)) x4) broadcasts_S1x1_S2048x256 (ix2 p k) = _
  rw [mm_rows, recip_apply]
  rfl

/-- The new state's block: the cell on the two. -/
theorem newState_apply (p : Fin 2048) (j : Fin 256) :
    newState x0 x1 x3 x4 x5 x6 x7 x8 (ix2 p j)
      = Ideal.tanh ((∑ k : Fin 256, x1 (ix2 p k) * x5 (ix2 k j)) + x6 (ix2 0 j))
        + Ideal.tanh ((∑ k : Fin 256, (x0 (ix2 p k) - (∑ k' : Fin 256, x1 (ix2 p k') * x3 (ix2 k' k)) * Ideal.div 1 (x4 (ix2 0 0))) * x7 (ix2 k j))
            + x8 (ix2 0 j)) := by
  unfold newState k1_pay1 k1_pay7 k1_pay8
  simp only [shapeCast_self]
  show Ideal.tanh (k1_pay9 x1 x5 x6 (ix2 p j))
      + Ideal.tanh (matmul (F := Ideal) dot_S2048x256_S256x256_S2048x256_1_0_0_1_n_n none (k1_pay10 x0 x1 x3 x4) x7 (constant S2048x256 .f32 0x00000000#32) (ix2 p j)
          + broadcastTo S2048x256 x8 broadcasts_S1x256_S2048x256 (ix2 p j)) = _
  rw [lin_apply, mm_rows, broadcastTo_1b_ab_apply]
  simp only [proj_apply]

end Reads

end Cert.KernelIdeal.Pass2
-- ==== Proof.Pass2State.lean ====
/-
  The second pass's state, read off the region's proof data: each input window's block at a point is the array's
  entries at that point's rows (the row-blocked arrays) or the whole array (the weights, biases, Gram matrix and
  squared norm); so the new state's block is the specification's state at the block's rows, the state's staging buffer
  holds it after every point, every point writes its block back, and the 32 blocks tile the array.
-/
import proofs.«152349_j35390530519886_2_alg».proof.Proof.Pass2Pay
import proofs.«152349_j35390530519886_2_alg».proof.Proof.RegionSpec
import proofs.«152349_j35390530519886_2_alg».proof.Proof.ArgsOf
import Idealize.ShloMosaic.Lib.Pipeline.Value
import Idealize.ShloMosaic.Lib.ValueLayout

set_option maxRecDepth 16384

noncomputable section

namespace Cert.KernelIdeal.Pass2

open Idealize.ShloMosaic Idealize.ShloMosaic.TcCoe Idealize.SL.Sem
open Idealize.ShloMosaic.Pipeline (Dat)
open Idealize.ShloMosaic.ValueIdx
open Cert.KernelIdeal Cert.KernelIdeal.Gen
open Spec RegionSpec

/-! ## The new state's block is the specification's, row by row -/

/-- When the loaded blocks are the arrays' entries at rows f p, the new state's block is the second pass's state at
    those rows. -/
theorem newState_spec (x0 : Vec Ideal S2048x256 .bf16) (x1 : Vec Ideal S2048x256 .f32) (x3 : Vec Ideal S256x256 .f32)
    (x4 : Vec Ideal S1x1 .f32) (x5 : Vec Ideal S256x256 .bf16) (x6 : Vec Ideal S1x256 .f32)
    (x7 : Vec Ideal S256x256 .bf16) (x8 : Vec Ideal S1x256 .f32)
    (H NR : Mat 65536 256) (M : Mat 256 256) (s : EReal) (WnrT : Mat 256 256) (bnr : Mat 1 256) (WhT : Mat 256 256) (bh : Mat 1 256)
    (f : Fin 2048 → Fin 65536)
    (e0 : ∀ p k, x0 (ix2 p k) = H (f p) k) (e1 : ∀ p k, x1 (ix2 p k) = NR (f p) k) (e3 : ∀ a b, x3 (ix2 a b) = M a b)
    (e4 : x4 (ix2 0 0) = s) (e5 : ∀ a b, x5 (ix2 a b) = WnrT a b) (e6 : ∀ b, x6 (ix2 0 b) = bnr 0 b)
    (e7 : ∀ a b, x7 (ix2 a b) = WhT a b) (e8 : ∀ b, x8 (ix2 0 b) = bh 0 b) (p : Fin 2048) (j : Fin 256) :
    newState x0 x1 x3 x4 x5 x6 x7 x8 (ix2 p j) = pass2_h H NR M s WnrT bnr WhT bh (f p) j := by
  rw [newState_apply]
  simp only [e0, e1, e3, e4, e5, e6, e7, e8]
  rfl

/-! ## The windows' blocks, read off the arrays -/

section Region
variable (V : (c : Dev nD) → (b : Ref sig .tc) → Buf (Elt Ideal) ((c : Thread nD τ).loc b)) (c : Dev nD)

theorem N32 : cfg1.N = 32 := N_1

/-- Row p of the block of point t: the blocks of 2048 rows follow the points. -/
def rowAt (t : Fin cfg1.N) (p : Fin 2048) : Fin 65536 :=
  ⟨2048 * t.val + p.val, by have := lt_of_lt_of_eq t.isLt N32; have := p.isLt; omega⟩

/-- The printed index maps, decided over the grid: the three row-blocked inputs and the state's output are at block
    t, the weights, biases, Gram matrix and squared norm at block 0, the two accumulators at the core's block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

theorem blk0 (t : Fin cfg1.N) (p : Fin 2048) (k : Fin 256) :
    (iblk1 V c 0 t : Vec Ideal S2048x256 .bf16) (ix2 p k) = mat (m := 65536) (n := 256) (V c main_v15_0) (rowAt t p) k := by
  have hi := (idx_facts t).1
  unfold iblk1
  rw [View.read_apply]
  show V c main_v15_0 _ = V c main_v15_0 _
  congr 1
  funext a
  apply Fin.ext
  match a with
  | ⟨0, _⟩ => show win1_0.index t 0 * 2048 + 1 * p.val = 2048 * t.val + p.val; rw [hi.1]; omega
  | ⟨1, _⟩ => show win1_0.index t 1 * 256 + 1 * k.val = k.val; rw [hi.2]; omega

theorem blk1 (t : Fin cfg1.N) (p : Fin 2048) (k : Fin 256) :
    (iblk1 V c 1 t : Vec Ideal S2048x256 .f32) (ix2 p k) = mat (m := 65536) (n := 256) (V c main_arg2) (rowAt t p) k := by
  have hi := (idx_facts t).2.1
  unfold iblk1
  rw [View.read_apply]
  show V c main_arg2 _ = V c main_arg2 _
  congr 1
  funext a
  apply Fin.ext
  match a with
  | ⟨0, _⟩ => show win1_1.index t 0 * 2048 + 1 * p.val = 2048 * t.val + p.val; rw [hi.1]; omega
  | ⟨1, _⟩ => show win1_1.index t 1 * 256 + 1 * k.val = k.val; rw [hi.2]; omega

theorem blk2 (t : Fin cfg1.N) (p : Fin 2048) (k : Fin 256) :
    (iblk1 V c 2 t : Vec Ideal S2048x256 .f32) (ix2 p k) = mat (m := 65536) (n := 256) (V c main_arg3) (rowAt t p) k := by
  have hi := (idx_facts t).2.2.1
  unfold iblk1
  rw [View.read_apply]
  show V c main_arg3 _ = V c main_arg3 _
  congr 1
  funext a
  apply Fin.ext
  match a with
  | ⟨0, _⟩ => show win1_2.index t 0 * 2048 + 1 * p.val = 2048 * t.val + p.val; rw [hi.1]; omega
  | ⟨1, _⟩ => show win1_2.index t 1 * 256 + 1 * k.val = k.val; rw [hi.2]; omega

theorem blk3 (t : Fin cfg1.N) (a b : Fin 256) :
    (iblk1 V c 3 t : Vec Ideal S256x256 .f32) (ix2 a b) = mat (m := 256) (n := 256) (V c main_v16) a b := by
  have hi := (idx_facts t).2.2.2.1
  unfold iblk1
  rw [View.read_apply]
  show V c main_v16 _ = V c main_v16 _
  congr 1
  funext d
  apply Fin.ext
  match d with
  | ⟨0, _⟩ => show win1_3.index t 0 * 256 + 1 * a.val = a.val; rw [hi.1]; omega
  | ⟨1, _⟩ => show win1_3.index t 1 * 256 + 1 * b.val = b.val; rw [hi.2]; omega

theorem blk5 (t : Fin cfg1.N) (a b : Fin 256) :
    (iblk1 V c 5 t : Vec Ideal S256x256 .bf16) (ix2 a b) = mat (m := 256) (n := 256) (V c main_v3) a b := by
  have hi := (idx_facts t).2.2.2.2.2.1
  unfold iblk1
  rw [View.read_apply]
  show V c main_v3 _ = V c main_v3 _
  congr 1
  funext d
  apply Fin.ext
  match d with
  | ⟨0, _⟩ => show win1_5.index t 0 * 256 + 1 * a.val = a.val; rw [hi.1]; omega
  | ⟨1, _⟩ => show win1_5.index t 1 * 256 + 1 * b.val = b.val; rw [hi.2]; omega

theorem blk7 (t : Fin cfg1.N) (a b : Fin 256) :
    (iblk1 V c 7 t : Vec Ideal S256x256 .bf16) (ix2 a b) = mat (m := 256) (n := 256) (V c main_v7) a b := by
  have hi := (idx_facts t).2.2.2.2.2.2.2.1
  unfold iblk1
  rw [View.read_apply]
  show V c main_v7 _ = V c main_v7 _
  congr 1
  funext d
  apply Fin.ext
  match d with
  | ⟨0, _⟩ => show win1_7.index t 0 * 256 + 1 * a.val = a.val; rw [hi.1]; omega
  | ⟨1, _⟩ => show win1_7.index t 1 * 256 + 1 * b.val = b.val; rw [hi.2]; omega

theorem blk6 (t : Fin cfg1.N) (b : Fin 256) :
    (iblk1 V c 6 t : Vec Ideal S1x256 .f32) (ix2 0 b) = mat (m := 1) (n := 256) (V c main_v11) 0 b := by
  have hi := (idx_facts t).2.2.2.2.2.2.1
  unfold iblk1
  rw [View.read_apply]
  show V c main_v11 _ = V c main_v11 _
  congr 1
  funext d
  apply Fin.ext
  match d with
  | ⟨0, _⟩ => show win1_6.index t 0 * 1 + 1 * 0 = 0; rw [hi.1]
  | ⟨1, _⟩ => show win1_6.index t 1 * 256 + 1 * b.val = b.val; rw [hi.2]; omega

theorem blk8 (t : Fin cfg1.N) (b : Fin 256) :
    (iblk1 V c 8 t : Vec Ideal S1x256 .f32) (ix2 0 b) = mat (m := 1) (n := 256) (V c main_v13) 0 b := by
  have hi := (idx_facts t).2.2.2.2.2.2.2.2.1
  unfold iblk1
  rw [View.read_apply]
  show V c main_v13 _ = V c main_v13 _
  congr 1
  funext d
  apply Fin.ext
  match d with
  | ⟨0, _⟩ => show win1_8.index t 0 * 1 + 1 * 0 = 0; rw [hi.1]
  | ⟨1, _⟩ => show win1_8.index t 1 * 256 + 1 * b.val = b.val; rw [hi.2]; omega

theorem blk4 (t : Fin cfg1.N) :
    (iblk1 V c 4 t : Vec Ideal S1x1 .f32) (ix2 0 0) = (V c main_v17 : S1x1.Idx → EReal) (ix2 0 0) := by
  have hi := (idx_facts t).2.2.2.2.1
  unfold iblk1
  rw [View.read_apply]
  show V c main_v17 _ = V c main_v17 _
  congr 1
  funext d
  apply Fin.ext
  match d with
  | ⟨0, _⟩ => show win1_4.index t 0 * 1 + 1 * 0 = 0; rw [hi.1]
  | ⟨1, _⟩ => show win1_4.index t 1 * 1 + 1 * 0 = 0; rw [hi.2]

/-! ## The state -/

/-- The second pass's state as the region's entry arrays give it: the whole output array's contents. -/
abbrev hOut : Mat 65536 256 := pass2_h (mat (m := 65536) (n := 256) (V c main_v15_0)) (mat (m := 65536) (n := 256) (V c main_arg2)) (mat (m := 256) (n := 256) (V c main_v16)) ((V c main_v17 : S1x1.Idx → EReal) (ix2 0 0)) (mat (m := 256) (n := 256) (V c main_v3)) (mat (m := 1) (n := 256) (V c main_v11)) (mat (m := 256) (n := 256) (V c main_v7)) (mat (m := 1) (n := 256) (V c main_v13))

/-- The new state's block at point t is the state at the block's rows. -/
theorem newState_at (t : Fin cfg1.N) (p : Fin 2048) (j : Fin 256) :
    (newState (iblk1 V c 0 t) (iblk1 V c 1 t) (iblk1 V c 3 t) (iblk1 V c 4 t) (iblk1 V c 5 t) (iblk1 V c 6 t) (iblk1 V c 7 t) (iblk1 V c 8 t)) (ix2 p j) = hOut V c (rowAt t p) j :=
  newState_spec (iblk1 V c 0 t) (iblk1 V c 1 t) (iblk1 V c 3 t) (iblk1 V c 4 t) (iblk1 V c 5 t) (iblk1 V c 6 t) (iblk1 V c 7 t) (iblk1 V c 8 t)
    _ _ _ _ _ _ _ _ (rowAt t)
    (fun p k => blk0 V c t p k) (fun p k => blk1 V c t p k) (fun a b => blk3 V c t a b) (blk4 V c t) (fun a b => blk5 V c t a b)
    (fun b => blk6 V c t b) (fun a b => blk7 V c t a b) (fun b => blk8 V c t b) p j

/-- What the state's staging buffer holds after point t, in either case: the narrowed new state. -/
theorem state_after (t : Fin cfg1.N) :
    (outsAt1 V c t.val t.isLt).1 = truncf .bf16 (newState (iblk1 V c 0 t) (iblk1 V c 1 t) (iblk1 V c 3 t) (iblk1 V c 4 t) (iblk1 V c 5 t) (iblk1 V c 6 t) (iblk1 V c 7 t) (iblk1 V c 8 t)) bitsLt_bf16_f32 := by
  by_cases h0 : t.val % 16 = 0
  · rw [outsAt1_A V c t h0]
    dsimp only
    exact stateA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) ((hcond1_0 t).mpr h0)
  · rw [outsAt1_B V c t h0]
    dsimp only
    exact stateB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) _ _ (fun h => h0 ((hcond1_0 t).mp h))

/-- What point t writes back of the state: block t of the whole array's contents. -/
theorem flushed_h (t : Fin cfg1.N) :
    (dat1 V c).flushed 9 t = ((cfg1.win 9).blk t).view.read (Elt Ideal) (fun i : S65536x256.Idx => hOut V c (i 0) (i 1)) := by
  show (cfg1.win 9).cut (grid1.coords t) ((dat1 V c).after 9 t) = _
  rw [after1_9, state_after]
  funext y
  obtain ⟨p, j, rfl⟩ : ∃ (p : Fin 2048) (j : Fin 256), y = ix2 p j := ⟨y 0, y 1, eq_ix2 y⟩
  rw [View.read_apply]
  refine (newState_at V c t p j).trans ?_
  have hi := (idx_facts t).2.2.2.2.2.2.2.2.2
  show hOut V c (rowAt t p) j = hOut V c ((((cfg1.win 9).blk t).view.emb (ix2 p j)) 0) ((((cfg1.win 9).blk t).view.emb (ix2 p j)) 1)
  congr 1
  · apply Fin.ext
    show 2048 * t.val + p.val = win1_9.index t 0 * 2048 + 1 * p.val
    rw [hi.1]; omega
  · apply Fin.ext
    show j.val = win1_9.index t 1 * 256 + 1 * j.val
    rw [hi.2]; omega

/-- An index of the state's array is in point t's block iff each coordinate is in the block's range. -/
theorem mem_blk_h (t : Fin cfg1.N) (i : S65536x256.Idx) :
    i ∈ ((cfg1.win 9).blk t).view.set ↔ ∀ a : Fin 2, win1_9.index t a * S2048x256.size a ≤ (i a).val ∧ (i a).val < win1_9.index t a * S2048x256.size a + S2048x256.size a := by
  show i ∈ ((View.whole main_v18_0).slice (win1_9.rect t)).set ↔ _
  rw [View.set_slice_whole, Rect.mem_set_unit]
  exact Iff.rfl

/-- THE STATE after the second pass. -/
theorem out_h (b : Fin 65536) (j : Fin 256) :
    ((dat1 V c).arrAt 9 cfg1.N : S65536x256.Idx → EReal) (ix2 b j) = pass2_h (mat (m := 65536) (n := 256) (V c main_v15_0)) (mat (m := 65536) (n := 256) (V c main_arg2)) (mat (m := 256) (n := 256) (V c main_v16)) ((V c main_v17 : S1x1.Idx → EReal) (ix2 0 0)) (mat (m := 256) (n := 256) (V c main_v3)) (mat (m := 1) (n := 256) (V c main_v11)) (mat (m := 256) (n := 256) (V c main_v7)) (mat (m := 1) (n := 256) (V c main_v13)) b j := by
  have e := (dat1 V c).arrAt_eq_of_cover 9 (fun i : S65536x256.Idx => hOut V c (i 0) (i 1)) (fun t _ => flushed_h V c t) fun i => by
    have hb : (i 0).val < 65536 := (i 0).isLt
    have hj : (i 1).val < 256 := (i 1).isLt
    refine ⟨⟨(i 0).val / 2048, by rw [N32]; omega⟩, flush1_9 _, ?_⟩
    rw [mem_blk_h]
    have hi := (idx_facts ⟨(i 0).val / 2048, by rw [N32]; omega⟩).2.2.2.2.2.2.2.2.2
    intro a
    match a with
    | ⟨0, _⟩ => show win1_9.index _ 0 * 2048 ≤ (i 0).val ∧ (i 0).val < win1_9.index _ 0 * 2048 + 2048; rw [hi.1]; dsimp only; omega
    | ⟨1, _⟩ => show win1_9.index _ 1 * 256 ≤ (i 1).val ∧ (i 1).val < win1_9.index _ 1 * 256 + 256; rw [hi.2]; omega
  exact congrFun e (ix2 b j)

end Region

end Cert.KernelIdeal.Pass2
-- ==== Proof.Pass2AccPay.lean ====
/-
  The second pass's two accumulator updates read entry by entry over the extended reals: the squared-norm
  accumulator's new contents are what it held plus the block's sum of squares (a lane sum, then a sum down the rows),
  the Gram accumulator's are what it held plus the transpose of the block of n_t times the new state's block; the
  stored zeros are zero.
-/
import proofs.«152349_j35390530519886_2_alg».proof.Proof.Pass2Pay
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.KernelIdeal.Pass2

open Idealize.ShloMosaic Idealize.ShloMosaic.TcCoe Idealize.SL.Sem
open Idealize.ShloMosaic.Pipeline (Dat)
open Idealize.ShloMosaic.ValueIdx
open Cert.KernelIdeal Cert.KernelIdeal.Gen

/-! ## The accumulators' arithmetic at an index -/

/-- A sum over the 256 lanes of a block's row. -/
theorem lane_sum (v : FVec Ideal S2048x256 .f32) (hφ : FKind.Formats .f32)
    (hacc : (0x00000000#32 : BitVec 32) = FKind.add.neutral .f32 hφ) (p : Fin 2048) :
    multiReduction .add [1] S2048 v 0x00000000#32 reduces_S2048x256_S2048 hφ hacc (ix1 p) = ∑ k : Fin 256, v (ix2 p k) := by
  refine (Ideal.multiReduction_add_single v _ reduces_S2048x256_S2048 hφ hacc (ix1 p)).trans ?_
  refine Finset.sum_congr rfl fun k _ => congrArg v ?_
  funext a
  apply Fin.ext
  match a with
  | ⟨0, _⟩ => rfl
  | ⟨1, _⟩ => rfl

/-- A sum down the 2048 rows of a one-column block. -/
theorem column_sum (v : FVec Ideal S2048x1 .f32) (hφ : FKind.Formats .f32)
    (hacc : (0x00000000#32 : BitVec 32) = FKind.add.neutral .f32 hφ) (w : Fin 1) :
    multiReduction .add [0] S1 v 0x00000000#32 reduces_S2048x1_S1 hφ hacc (ix1 w) = ∑ p : Fin 2048, v (ix2 p w) := by
  refine (Ideal.multiReduction_add_single v _ reduces_S2048x1_S1 hφ hacc (ix1 w)).trans ?_
  refine Finset.sum_congr rfl fun p _ => congrArg v ?_
  funext a
  apply Fin.ext
  match a with
  | ⟨0, _⟩ => rfl
  | ⟨1, _⟩ => rfl

/-- A vector viewed as one column reads, at (p, w), the vector at p. -/
theorem column_cast {α : Type} (x : S2048.Idx → α) (h : S2048.ShapeCasts S2048x1) (p : Fin 2048) (w : Fin 1) :
    shapeCast S2048x1 x h (ix2 p w) = x (ix1 p) :=
  shapeCast_apply x h _ _ (by
    have hw : w.val = 0 := by omega
    rw [Shape.rowMajor_val_two, Shape.rowMajor_val_one]
    show p.val = p.val * 1 + w.val
    omega)

/-- The squared-norm accumulator's new contents: what it held plus the block's sum of squares. -/
theorem norm_apply (x2 : Vec Ideal S2048x256 .f32) (acc : Vec Ideal S1x1x1 .f32) (u v w : Fin 1) :
    k1_pay4 x2 acc (ix3 u v w) = acc (ix3 u v w) + ∑ p : Fin 2048, ∑ k : Fin 256, x2 (ix2 p k) * x2 (ix2 p k) := by
  unfold k1_pay4
  simp only [shapeCast_self]
  refine congrArg (acc (ix3 u v w) + ·) ?_
  refine (shapeCast_ab_1ab_apply _ _ u v w).trans ?_
  refine (shapeCast_a_1a_apply _ _ v w).trans ?_
  refine (column_sum _ _ _ w).trans ?_
  refine Finset.sum_congr rfl fun p _ => ?_
  refine (column_cast _ _ p w).trans ?_
  exact lane_sum _ _ _ p

/-- The Gram accumulator's new contents: what it held plus the block's Gram matrix of n_t against the new state. -/
theorem gram_apply (x2 : Vec Ideal S2048x256 .f32) (v25 : FVec Ideal S256x256 .bf16) (v27 : FVec Ideal S1x256 .f32)
    (v31 : FVec Ideal S2048x256 .f32) (v32 : FVec Ideal S2048x256 .bf16) (cst : FVec Ideal S2048x256 .f32)
    (acc : Vec Ideal S1x256x256 .f32) (u : Fin 1) (k j : Fin 256) :
    k1_pay3 x2 v25 v27 v31 v32 cst acc (ix3 u k j)
      = acc (ix3 u k j) + ∑ p : Fin 2048, x2 (ix2 p k) * k1_pay1 v25 v27 v31 v32 cst (ix2 p j) := by
  unfold k1_pay3
  simp only [shapeCast_self]
  refine congrArg (acc (ix3 u k j) + ·) ?_
  refine (shapeCast_ab_1ab_apply _ _ u k j).trans ?_
  exact mm_gram _ _ k j

/-- The stored zeros. -/
theorem zeroM_apply (i : S1x256x256.Idx) : k1_pay5 (F := Ideal) i = 0 := Ideal.ofBits_zero_f32
theorem zeroS_apply (i : S1x1x1.Idx) : k1_pay6 (F := Ideal) i = 0 := Ideal.ofBits_zero_f32

end Cert.KernelIdeal.Pass2
-- ==== Proof.Pass2Steps.lean ====
/-
  One grid point's step on the second pass's two accumulators, over the extended reals: a point that resets leaves
  its block's contribution (the stored zero plus it), any other point adds its block's contribution to what the
  buffer held after the point before. The contributions are the block's sum of squares of n_t and the block's Gram
  matrix of n_t against the new state, both written over the arrays' rows.
-/
import proofs.«152349_j35390530519886_2_alg».proof.Proof.Pass2State
import proofs.«152349_j35390530519886_2_alg».proof.Proof.Pass2AccPay

set_option maxRecDepth 16384

noncomputable section

namespace Cert.KernelIdeal.Pass2

open Idealize.ShloMosaic Idealize.ShloMosaic.TcCoe Idealize.SL.Sem
open Idealize.ShloMosaic.Pipeline (Dat)
open Idealize.ShloMosaic.ValueIdx
open Cert.KernelIdeal Cert.KernelIdeal.Gen
open Spec RegionSpec

/-! ## One point's step on the two accumulators -/

section Region
variable (V : (c : Dev nD) → (b : Ref sig .tc) → Buf (Elt Ideal) ((c : Thread nD τ).loc b)) (c : Dev nD)

/-- The block of n_t at point t: its sum of squares, -/
def sqAt (t : Fin cfg1.N) : EReal := ∑ p : Fin 2048, ∑ k : Fin 256, (mat (m := 65536) (n := 256) (V c main_arg3)) (rowAt t p) k * (mat (m := 65536) (n := 256) (V c main_arg3)) (rowAt t p) k
/-- and its Gram matrix against the new state's block. -/
def gramAt (t : Fin cfg1.N) (k j : Fin 256) : EReal := ∑ p : Fin 2048, (mat (m := 65536) (n := 256) (V c main_arg3)) (rowAt t p) k * hOut V c (rowAt t p) j

/-- What the accumulators' buffers held before point t. -/
abbrev prevM (t : Fin cfg1.N) : Vec Ideal S1x256x256 .f32 := (outsAt1 V c (t.val - 1) (Nat.lt_of_le_of_lt (Nat.sub_le _ _) t.isLt)).2.1
abbrev prevS (t : Fin cfg1.N) : Vec Ideal S1x1x1 .f32 := (outsAt1 V c (t.val - 1) (Nat.lt_of_le_of_lt (Nat.sub_le _ _) t.isLt)).2.2

/-- Sums over a block whose entries are an array's at rows f p are sums over those rows. -/
theorem sq_of (x2 : Vec Ideal S2048x256 .f32) (A : Mat 65536 256) (f : Fin 2048 → Fin 65536) (e : ∀ p k, x2 (ix2 p k) = A (f p) k) :
    (∑ p : Fin 2048, ∑ k : Fin 256, x2 (ix2 p k) * x2 (ix2 p k)) = ∑ p : Fin 2048, ∑ k : Fin 256, A (f p) k * A (f p) k := by
  simp only [e]
theorem gram_of (x2 : Vec Ideal S2048x256 .f32) (y : FVec Ideal S2048x256 .f32) (A Hh : Mat 65536 256) (f : Fin 2048 → Fin 65536)
    (e2 : ∀ p k, x2 (ix2 p k) = A (f p) k) (ey : ∀ p j, y (ix2 p j) = Hh (f p) j) (k j : Fin 256) :
    (∑ p : Fin 2048, x2 (ix2 p k) * y (ix2 p j)) = ∑ p : Fin 2048, A (f p) k * Hh (f p) j := by
  simp only [e2, ey]

/-- A resetting point leaves the block's sum of squares; -/
theorem normStepA (t : Fin cfg1.N) (h0 : t.val % 16 = 0) (u v w : Fin 1) :
    (outsAt1 V c t.val t.isLt).2.2 (ix3 u v w) = sqAt V c t := by
  rw [outsAt1_A V c t h0]
  dsimp only
  refine (congrFun (normA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) ((hcond1_0 t).mpr h0)) (ix3 u v w)).trans ?_
  refine (norm_apply (iblk1 V c 2 t) _ u v w).trans ?_
  rw [zeroS_apply, zero_add]
  exact sq_of (iblk1 V c 2 t) (mat (m := 65536) (n := 256) (V c main_arg3)) (rowAt t) (fun p k => blk2 V c t p k)

/-- any other point adds it to what the buffer held. -/
theorem normStepB (t : Fin cfg1.N) (h0 : ¬t.val % 16 = 0) (u v w : Fin 1) :
    (outsAt1 V c t.val t.isLt).2.2 (ix3 u v w) = prevS V c t (ix3 u v w) + sqAt V c t := by
  rw [outsAt1_B V c t h0]
  dsimp only
  refine (congrFun (normB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h))) (ix3 u v w)).trans ?_
  refine (norm_apply (iblk1 V c 2 t) _ u v w).trans ?_
  exact congrArg (_ + ·) (sq_of (iblk1 V c 2 t) (mat (m := 65536) (n := 256) (V c main_arg3)) (rowAt t) (fun p k => blk2 V c t p k))

/-- A resetting point leaves the block's Gram matrix; -/
theorem gramStepA (t : Fin cfg1.N) (h0 : t.val % 16 = 0) (u : Fin 1) (k j : Fin 256) :
    (outsAt1 V c t.val t.isLt).2.1 (ix3 u k j) = gramAt V c t k j := by
  rw [outsAt1_A V c t h0]
  dsimp only
  refine (congrFun (gramA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) ((hcond1_0 t).mpr h0)) (ix3 u k j)).trans ?_
  refine (gram_apply (iblk1 V c 2 t) _ _ _ _ _ _ u k j).trans ?_
  rw [zeroM_apply, zero_add]
  exact gram_of (iblk1 V c 2 t) (newState (iblk1 V c 0 t) (iblk1 V c 1 t) (iblk1 V c 3 t) (iblk1 V c 4 t) (iblk1 V c 5 t) (iblk1 V c 6 t) (iblk1 V c 7 t) (iblk1 V c 8 t)) (mat (m := 65536) (n := 256) (V c main_arg3)) (hOut V c) (rowAt t) (fun p k => blk2 V c t p k) (fun p j => newState_at V c t p j) k j

/-- any other point adds it to what the buffer held. -/
theorem gramStepB (t : Fin cfg1.N) (h0 : ¬t.val % 16 = 0) (u : Fin 1) (k j : Fin 256) :
    (outsAt1 V c t.val t.isLt).2.1 (ix3 u k j) = prevM V c t (ix3 u k j) + gramAt V c t k j := by
  rw [outsAt1_B V c t h0]
  dsimp only
  refine (congrFun (gramB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h))) (ix3 u k j)).trans ?_
  refine (gram_apply (iblk1 V c 2 t) _ _ _ _ _ _ u k j).trans ?_
  exact congrArg (_ + ·) (gram_of (iblk1 V c 2 t) (newState (iblk1 V c 0 t) (iblk1 V c 1 t) (iblk1 V c 3 t) (iblk1 V c 4 t) (iblk1 V c 5 t) (iblk1 V c 6 t) (iblk1 V c 7 t) (iblk1 V c 8 t)) (mat (m := 65536) (n := 256) (V c main_arg3)) (hOut V c) (rowAt t) (fun p k => blk2 V c t p k) (fun p j => newState_at V c t p j) k j)

end Region

end Cert.KernelIdeal.Pass2
-- ==== Proof.Pass2.lean ====
/-
  The second pass's per-core squared norms, and with the imported modules its state: after point i of a core the
  squared-norm accumulator holds the sum of squares of the core's blocks 0 … i (the stored zero, then one block's
  contribution per point, in point order: on the extended reals that chain is the finite sum), so after the core's
  last point it holds the core's partial squared norm; only that point's write-back reaches the array, at the core's
  entry, and the two entries are the array. The state (out_h) is in the imported Pass2State.
-/
import proofs.«152349_j35390530519886_2_alg».proof.Proof.Gen.KernelIdeal.Frame
import proofs.«152349_j35390530519886_2_alg».proof.Proof.RegionSpec
import proofs.«152349_j35390530519886_2_alg».proof.Proof.ArgsOf
import proofs.«152349_j35390530519886_2_alg».proof.Proof.Pass2Steps

set_option maxRecDepth 16384

noncomputable section

namespace Cert.KernelIdeal.Pass2

open Idealize.ShloMosaic Idealize.ShloMosaic.TcCoe Idealize.SL.Sem
open Idealize.ShloMosaic.Pipeline (Dat)
open Idealize.ShloMosaic.ValueIdx
open Cert.KernelIdeal Cert.KernelIdeal.Gen
open Spec RegionSpec

/-! ## The squared norm, core by core -/

section Region
variable (V : (c : Dev nD) → (b : Ref sig .tc) → Buf (Elt Ideal) ((c : Thread nD τ).loc b)) (c : Dev nD)

/-- Point i of core q. -/
def pt (q : Fin 2) (i : Fin 16) : Fin cfg1.N :=
  ⟨16 * q.val + i.val, by rw [N32]; have := q.isLt; have := i.isLt; omega⟩

/-- What the buffers hold after a point depends on the point's number only. -/
theorem outs_congr {n n' : ℕ} (e : n = n') (h : n < cfg1.N) (h' : n' < cfg1.N) : outsAt1 V c n h = outsAt1 V c n' h' := by
  subst e; rfl

/-- After point i of core q the squared-norm accumulator holds the sum of squares of the core's blocks 0 … i: the
    stored zero, then one block's contribution per point, in point order. -/
theorem norm_upto (q : Fin 2) : ∀ (i : ℕ) (hi : i < 16) (u v w : Fin 1),
    (outsAt1 V c (16 * q.val + i) (by rw [N32]; have := q.isLt; omega)).2.2 (ix3 u v w)
      = ∑ i' ∈ Finset.range (i + 1), (if h : i' < 16 then sqAt V c (pt q ⟨i', h⟩) else 0)
  | 0, hi, u, v, w => by
    have hA := normStepA V c (pt q ⟨0, hi⟩) (by show (16 * q.val + 0) % 16 = 0; omega) u v w
    rw [Finset.sum_range_one, dif_pos hi]
    exact hA
  | i + 1, hi, u, v, w => by
    have hB := normStepB V c (pt q ⟨i + 1, hi⟩) (by show ¬(16 * q.val + (i + 1)) % 16 = 0; omega) u v w
    rw [Finset.sum_range_succ, dif_pos hi, ← norm_upto q i (by omega) u v w]
    refine hB.trans (congrArg (· + _) ?_)
    exact congrFun (congrArg (fun o => o.2.2)
      (outs_congr V c (show 16 * q.val + (i + 1) - 1 = 16 * q.val + i by omega) _ _)) (ix3 u v w)

/-- After its last point a core's squared-norm accumulator holds the core's partial squared norm. -/
theorem norm_core (q : Fin 2) (u v w : Fin 1) :
    (outsAt1 V c (16 * q.val + 15) (by rw [N32]; have := q.isLt; omega)).2.2 (ix3 u v w) = sumsqPart q (mat (m := 65536) (n := 256) (V c main_arg3)) := by
  have e := norm_upto V c q 15 (by omega) u v w
  rw [show (15 + 1 : ℕ) = 16 from rfl, Finset.sum_range] at e
  refine e.trans ?_
  unfold sumsqPart
  refine Finset.sum_congr rfl fun i _ => ?_
  rw [dif_pos i.isLt]
  rfl

/-- The accumulators' blocks are the core's. -/
theorem idx_facts_acc : ∀ t : Fin cfg1.N,
    (win1_10.index t (0 : Fin 3) = t.val / 16 ∧ win1_10.index t (1 : Fin 3) = 0 ∧ win1_10.index t (2 : Fin 3) = 0)
    ∧ (win1_11.index t (0 : Fin 3) = t.val / 16 ∧ win1_11.index t (1 : Fin 3) = 0 ∧ win1_11.index t (2 : Fin 3) = 0) :=
  (by decide +kernel : ∀ t : Fin grid1.N, _)

/-- The per-core partial squared norms, as the contents of their array. -/
abbrev sOut : S2x1x1.Idx → EReal := fun i => sumsqPart (i 0) (mat (m := 65536) (n := 256) (V c main_arg3))

/-- What a core's last point writes back of the squared norm: the core's entry. -/
theorem flushed_S (t : Fin cfg1.N) (hf : (cfg1.win 11).flush t = true) :
    (dat1 V c).flushed 11 t = ((cfg1.win 11).blk t).view.read (Elt Ideal) (sOut V c) := by
  have h15 : t.val % 16 = 15 := (flush1_11 t).mp hf
  have hN : t.val < 32 := lt_of_lt_of_eq t.isLt N32
  show (cfg1.win 11).cut (grid1.coords t) ((dat1 V c).after 11 t) = _
  rw [after1_11]
  funext y
  obtain ⟨u, v, w, rfl⟩ : ∃ (u v w : Fin 1), y = ix3 u v w := ⟨y 0, y 1, y 2, eq_ix3 y⟩
  rw [View.read_apply]
  have hi := (idx_facts_acc t).2
  have e1 : (outsAt1 V c t.val t.isLt).2.2 (ix3 u v w) = sumsqPart (⟨t.val / 16, by omega⟩ : Fin 2) (mat (m := 65536) (n := 256) (V c main_arg3)) :=
    (congrFun (congrArg (fun o => o.2.2)
      (outs_congr V c (show t.val = 16 * (t.val / 16) + 15 by omega) t.isLt (by have := N32; omega))) (ix3 u v w)).trans
      (norm_core V c ⟨t.val / 16, by omega⟩ u v w)
  refine e1.trans ?_
  show sumsqPart (⟨t.val / 16, by omega⟩ : Fin 2) (mat (m := 65536) (n := 256) (V c main_arg3)) = sumsqPart ((((cfg1.win 11).blk t).view.emb (ix3 u v w)) 0) (mat (m := 65536) (n := 256) (V c main_arg3))
  congr 1
  apply Fin.ext
  show t.val / 16 = win1_11.index t 0 * 1 + 1 * u.val
  rw [hi.1]; omega

/-- An index of the squared norms' array is in point t's block iff each coordinate is in the block's range. -/
theorem mem_blk_S (t : Fin cfg1.N) (i : S2x1x1.Idx) :
    i ∈ ((cfg1.win 11).blk t).view.set ↔ ∀ a : Fin 3, win1_11.index t a * S1x1x1.size a ≤ (i a).val ∧ (i a).val < win1_11.index t a * S1x1x1.size a + S1x1x1.size a := by
  show i ∈ ((View.whole main_v18_2).slice (win1_11.rect t)).set ↔ _
  rw [View.set_slice_whole, Rect.mem_set_unit]
  exact Iff.rfl

/-- THE PER-CORE SQUARED NORMS after the second pass. -/
theorem out_S (q : Fin 2) :
    ((dat1 V c).arrAt 11 cfg1.N : S2x1x1.Idx → EReal) (ix3 q 0 0) = sumsqPart q (mat (m := 65536) (n := 256) (V c main_arg3)) := by
  have e := (dat1 V c).arrAt_eq_of_cover 11 (sOut V c) (fun t hf => flushed_S V c t hf) fun i => by
    have h0 : (i 0).val < 2 := (i 0).isLt
    have h1 : (i 1).val < 1 := (i 1).isLt
    have h2 : (i 2).val < 1 := (i 2).isLt
    refine ⟨⟨16 * (i 0).val + 15, by rw [N32]; omega⟩, (flush1_11 _).mpr (by dsimp only; omega), ?_⟩
    rw [mem_blk_S]
    have hi := (idx_facts_acc ⟨16 * (i 0).val + 15, by rw [N32]; omega⟩).2
    intro a
    match a with
    | ⟨0, _⟩ => show win1_11.index _ 0 * 1 ≤ (i 0).val ∧ (i 0).val < win1_11.index _ 0 * 1 + 1; rw [hi.1]; dsimp only; omega
    | ⟨1, _⟩ => show win1_11.index _ 1 * 1 ≤ (i 1).val ∧ (i 1).val < win1_11.index _ 1 * 1 + 1; rw [hi.2.1]; omega
    | ⟨2, _⟩ => show win1_11.index _ 2 * 1 ≤ (i 2).val ∧ (i 2).val < win1_11.index _ 2 * 1 + 1; rw [hi.2.2]; omega
  exact congrFun e (ix3 q 0 0)

end Region

end Cert.KernelIdeal.Pass2
-- ==== Proof.Pass2Chain.lean ====
/-
  A running total that is reset at every sixteenth point.

  Take a sequence of totals `a 0, a 1, …` and of contributions `b 0, b 1, …` such that at a point divisible by 16 the
  total is that point's contribution alone, and at any other point it is the total before plus the point's
  contribution. Then the total at a point is the sum of the contributions from the last reset up to the point; at the
  last point `16 q + 15` of a run of sixteen it is the sum of the sixteen contributions `b (16 q), …, b (16 q + 15)`.
  In any commutative additive monoid, so in particular on the extended reals.
-/
import Mathlib.Algebra.BigOperators.Fin
import Mathlib.Algebra.BigOperators.Intervals

namespace Cert.KernelIdeal.Pass2Acc

variable {M : Type*} [AddCommMonoid M] {N : ℕ}

/-- The total at point `n`: the contributions since the last reset. -/
theorem chain_sum (a : (n : ℕ) → n < N → M) (b : ℕ → M)
    (hA : ∀ n (h : n < N), n % 16 = 0 → a n h = b n)
    (hB : ∀ n (h : n < N), ¬n % 16 = 0 → a n h = a (n - 1) (Nat.lt_of_le_of_lt (Nat.sub_le _ _) h) + b n) :
    ∀ n (h : n < N), a n h = ∑ i ∈ Finset.range (n % 16 + 1), b (n - n % 16 + i)
  | 0, h => by
    rw [hA 0 h rfl]
    simp
  | n + 1, h => by
    by_cases h0 : (n + 1) % 16 = 0
    · rw [hA _ h h0, h0]
      simp
    · have ih := chain_sum a b hA hB n (Nat.lt_of_succ_lt h)
      rw [hB _ h h0]
      have e1 : (n + 1) % 16 = n % 16 + 1 := by omega
      have e2 : n + 1 - (n % 16 + 1) = n - n % 16 := by omega
      have e3 : n - n % 16 + (n % 16 + 1) = n + 1 := by omega
      rw [e1, Finset.sum_range_succ, e2, e3]
      exact congrArg (· + b (n + 1)) ih

/-- The total at the last point of the run `16 q, …, 16 q + 15`: the sixteen contributions. -/
theorem chain_last (a : (n : ℕ) → n < N → M) (b : ℕ → M)
    (hA : ∀ n (h : n < N), n % 16 = 0 → a n h = b n)
    (hB : ∀ n (h : n < N), ¬n % 16 = 0 → a n h = a (n - 1) (Nat.lt_of_le_of_lt (Nat.sub_le _ _) h) + b n)
    (q : ℕ) (h : 16 * q + 15 < N) : a (16 * q + 15) h = ∑ i : Fin 16, b (16 * q + i.val) := by
  rw [chain_sum a b hA hB _ h]
  have e1 : (16 * q + 15) % 16 = 15 := by omega
  have e2 : 16 * q + 15 - 15 = 16 * q := by omega
  rw [e1, e2]
  show ∑ i ∈ Finset.range 16, b (16 * q + i) = _
  exact Finset.sum_range fun i => b (16 * q + i)

end Cert.KernelIdeal.Pass2Acc
-- ==== Proof.Pass2Acc.lean ====
/-
  What the second pass leaves in its Gram accumulator.

  The pass walks 32 blocks of 2048 rows, 16 per core. At block `t` it adds to the core's running Gram total the block's
  contribution: entry `(k, j)` is the sum over the block's rows of `n_t` at `(row, k)` times the pass's new state at
  `(row, j)`. The total is reset at each core's first block and written back after its last, into the core's block of
  the accumulator array. So after the pass, block `q` of that array is the sum of core `q`'s sixteen contributions:
  the partial Gram matrix of `n_t` against the new state over the core's rows.
-/
import proofs.«152349_j35390530519886_2_alg».proof.Proof.Pass2Steps
import proofs.«152349_j35390530519886_2_alg».proof.Proof.Pass2Chain

set_option maxRecDepth 16384

noncomputable section

namespace Cert.KernelIdeal.Pass2Acc

open Idealize.ShloMosaic Idealize.ShloMosaic.TcCoe Idealize.SL.Sem
open Idealize.ShloMosaic.Pipeline (Dat)
open Idealize.ShloMosaic.ValueIdx
open Cert.KernelIdeal Cert.KernelIdeal.Gen
open Spec RegionSpec

variable (V : (c : Dev nD) → (b : Ref sig .tc) → Buf (Elt Ideal) ((c : Thread nD τ).loc b)) (c : Dev nD)

/-! ## The total after a core's last block -/

/-- Block `n`'s contribution, for any natural `n` (zero past the grid). -/
def contrib (k j : Fin 256) (n : ℕ) : EReal := if h : n < cfg1.N then Pass2.gramAt V c ⟨n, h⟩ k j else 0

theorem contrib_of_lt (k j : Fin 256) (n : ℕ) (h : n < cfg1.N) : contrib V c k j n = Pass2.gramAt V c ⟨n, h⟩ k j := by
  unfold contrib
  exact dif_pos h

/-- After the last block `16 q + 15` of core `q` the total is the sum of the core's sixteen contributions. -/
theorem total_last (u : Fin 1) (k j : Fin 256) (q n : ℕ) (hn : n < cfg1.N) (e : n = 16 * q + 15) :
    ((outsAt1 V c n hn).2.1 : Vec Ideal S1x256x256 .f32) (ix3 u k j) = ∑ i : Fin 16, contrib V c k j (16 * q + i.val) := by
  subst e
  exact chain_last (fun n h => ((outsAt1 V c n h).2.1 : Vec Ideal S1x256x256 .f32) (ix3 u k j)) (contrib V c k j)
    (fun n h h0 => (Pass2.gramStepA V c ⟨n, h⟩ h0 u k j).trans (contrib_of_lt V c k j n h).symm)
    (fun n h h0 => (Pass2.gramStepB V c ⟨n, h⟩ h0 u k j).trans (congrArg (_ + ·) (contrib_of_lt V c k j n h).symm)) q hn

/-- A core's sixteen contributions add up to its partial Gram matrix. -/
theorem sum_contrib (q : Fin 2) (k j : Fin 256) :
    ∑ i : Fin 16, contrib V c k j (16 * q.val + i.val)
      = gramPart q (mat (m := 65536) (n := 256) (V c main_arg3)) (Pass2.hOut V c) k j := by
  unfold gramPart
  refine Finset.sum_congr rfl fun i _ => ?_
  have hlt : 16 * q.val + i.val < cfg1.N := by rw [Pass2.N32]; omega
  rw [contrib_of_lt V c k j _ hlt]
  unfold Pass2.gramAt
  refine Finset.sum_congr rfl fun p _ => ?_
  have er : Pass2.rowAt ⟨16 * q.val + i.val, hlt⟩ p = row q i p := Fin.ext rfl
  rw [er]

/-! ## The accumulator array -/

/-- The accumulator array after the pass: block `q` is core `q`'s partial Gram matrix. -/
abbrev arrM : S2x256x256.Idx → EReal :=
  fun i => gramPart (i 0) (mat (m := 65536) (n := 256) (V c main_arg3)) (Pass2.hOut V c) (i 1) (i 2)

/-- The accumulator's window sits on block `t / 16` of its array at point `t`. -/
theorem idx10 : ∀ t : Fin cfg1.N,
    win1_10.index t (0 : Fin 3) = t.val / 16 ∧ win1_10.index t (1 : Fin 3) = 0 ∧ win1_10.index t (2 : Fin 3) = 0 :=
  (by decide +kernel : ∀ t : Fin grid1.N, _)

/-- A core's last point writes back the core's block of the array. -/
theorem flushed_M (t : Fin cfg1.N) (hf : (cfg1.win 10).flush t = true) :
    (dat1 V c).flushed 10 t = ((cfg1.win 10).blk t).view.read (Elt Ideal) (arrM V c) := by
  have h15 : t.val % 16 = 15 := (flush1_10 t).mp hf
  have hN : cfg1.N = 32 := Pass2.N32
  have hq : t.val / 16 < 2 := by have := t.isLt; omega
  obtain ⟨e0, e1, e2⟩ := idx10 t
  show (cfg1.win 10).cut (grid1.coords t) ((dat1 V c).after 10 t) = _
  rw [after1_10]
  funext y
  obtain ⟨u, k, j, rfl⟩ : ∃ (u : Fin 1) (k j : Fin 256), y = ix3 u k j := ⟨y 0, y 1, y 2, eq_ix3 y⟩
  rw [View.read_apply]
  refine (total_last V c u k j (t.val / 16) t.val t.isLt (by omega)).trans ?_
  refine (sum_contrib V c ⟨t.val / 16, hq⟩ k j).trans ?_
  show arrM V c (ix3 (⟨t.val / 16, hq⟩ : Fin 2) k j) = arrM V c (((cfg1.win 10).blk t).view.emb (ix3 u k j))
  refine congrArg (arrM V c) (funext fun a => Fin.ext ?_)
  match a with
  | ⟨0, _⟩ => show t.val / 16 = win1_10.index t (0 : Fin 3) * 1 + 1 * u.val; rw [e0]; omega
  | ⟨1, _⟩ => show k.val = win1_10.index t (1 : Fin 3) * 256 + 1 * k.val; rw [e1]; omega
  | ⟨2, _⟩ => show j.val = win1_10.index t (2 : Fin 3) * 256 + 1 * j.val; rw [e2]; omega

/-- An index of the accumulator array is in point `t`'s block iff each coordinate is in the block's range. -/
theorem mem_blk_M (t : Fin cfg1.N) (i : S2x256x256.Idx) :
    i ∈ ((cfg1.win 10).blk t).view.set ↔ ∀ a : Fin 3, win1_10.index t a * S1x256x256.size a ≤ (i a).val ∧ (i a).val < win1_10.index t a * S1x256x256.size a + S1x256x256.size a := by
  show i ∈ ((View.whole main_v18_1).slice (win1_10.rect t)).set ↔ _
  rw [View.set_slice_whole, Rect.mem_set_unit]
  exact Iff.rfl

/-- Block `q` of the array is written back by core `q`'s last point, `16 q + 15`. -/
theorem cover_M (i : S2x256x256.Idx) : ∃ t : Fin cfg1.N, (cfg1.win 10).flush t = true ∧ i ∈ ((cfg1.win 10).blk t).view.set := by
  have hN : cfg1.N = 32 := Pass2.N32
  have hi0 : (i 0).val < 2 := (i 0).isLt
  have hi1 : (i 1).val < 256 := (i 1).isLt
  have hi2 : (i 2).val < 256 := (i 2).isLt
  have ht : 16 * (i 0).val + 15 < cfg1.N := by omega
  obtain ⟨e0, e1, e2⟩ := idx10 ⟨16 * (i 0).val + 15, ht⟩
  refine ⟨⟨16 * (i 0).val + 15, ht⟩, (flush1_10 _).mpr (by dsimp only; omega), ?_⟩
  rw [mem_blk_M]
  intro a
  match a with
  | ⟨0, _⟩ => show win1_10.index ⟨16 * (i 0).val + 15, ht⟩ (0 : Fin 3) * 1 ≤ (i 0).val ∧ (i 0).val < win1_10.index ⟨16 * (i 0).val + 15, ht⟩ (0 : Fin 3) * 1 + 1; rw [e0]; dsimp only; omega
  | ⟨1, _⟩ => show win1_10.index ⟨16 * (i 0).val + 15, ht⟩ (1 : Fin 3) * 256 ≤ (i 1).val ∧ (i 1).val < win1_10.index ⟨16 * (i 0).val + 15, ht⟩ (1 : Fin 3) * 256 + 256; rw [e1]; omega
  | ⟨2, _⟩ => show win1_10.index ⟨16 * (i 0).val + 15, ht⟩ (2 : Fin 3) * 256 ≤ (i 2).val ∧ (i 2).val < win1_10.index ⟨16 * (i 0).val + 15, ht⟩ (2 : Fin 3) * 256 + 256; rw [e2]; omega

/-- The accumulator array after the pass. -/
theorem final_M : (dat1 V c).arrAt 10 cfg1.N = arrM V c :=
  (dat1 V c).arrAt_eq_of_cover 10 (arrM V c) (fun t hf => flushed_M V c t hf) cover_M

/-- THE GRAM ACCUMULATOR after the second pass: core `q`'s partial Gram matrix of `n_t` against the pass's new state. -/
theorem out_M (q : Fin 2) (k j : Fin 256) :
    ((dat1 V c).arrAt 10 cfg1.N : S2x256x256.Idx → EReal) (ix3 q k j)
      = gramPart q (mat (V c main_arg3)) (pass2_h (mat (V c main_v15_0)) (mat (V c main_arg2)) (mat (V c main_v16)) (V c main_v17 (ix2 0 0)) (mat (V c main_v3)) (mat (V c main_v11)) (mat (V c main_v7)) (mat (V c main_v13))) k j := by
  rw [final_M]

end Cert.KernelIdeal.Pass2Acc

end
-- ==== Proof.Pass3Blocks.lean ====
/-
  The third pass's windows, block by block.

  The pass runs over 32 grid points. The two row-indexed inputs (the previous state and `n_t`) and the two results are
  cut into blocks of 2048 rows, block `t` at point `t`; the Gram matrix, the squared norm, the weights and the biases
  are each one block, the whole array, at every point. Here the printed index maps are decided once over the grid, and
  each input window's block at a point is read off the array the pass finds: the whole array, or rows
  `2048 t … 2048 t + 2047` of it.
-/
import proofs.«152349_j35390530519886_2_alg».proof.Proof.Gen.KernelIdeal.Frame
import Idealize.ShloMosaic.Lib.Pipeline.Value
import Idealize.ShloMosaic.Lib.ValueIdx

set_option maxRecDepth 16384

noncomputable section

namespace Cert.KernelIdeal.Pass3

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The index maps, over the grid -/

/-- Window 0 moves down the rows with the point: block `t` at point `t`, its one block of columns. -/
theorem idx0 : ∀ t : Fin cfg2.N, win2_0.index t (0 : Fin 2) = t.val ∧ win2_0.index t (1 : Fin 2) = 0 :=
  (by decide +kernel : ∀ t : Fin grid2.N, _)
/-- Window 1 moves down the rows with the point: block `t` at point `t`, its one block of columns. -/
theorem idx1 : ∀ t : Fin cfg2.N, win2_1.index t (0 : Fin 2) = t.val ∧ win2_1.index t (1 : Fin 2) = 0 :=
  (by decide +kernel : ∀ t : Fin grid2.N, _)
/-- Window 10 moves down the rows with the point: block `t` at point `t`, its one block of columns. -/
theorem idx10 : ∀ t : Fin cfg2.N, win2_10.index t (0 : Fin 2) = t.val ∧ win2_10.index t (1 : Fin 2) = 0 :=
  (by decide +kernel : ∀ t : Fin grid2.N, _)
/-- Window 11 moves down the rows with the point: block `t` at point `t`, its one block of columns. -/
theorem idx11 : ∀ t : Fin cfg2.N, win2_11.index t (0 : Fin 2) = t.val ∧ win2_11.index t (1 : Fin 2) = 0 :=
  (by decide +kernel : ∀ t : Fin grid2.N, _)

/-- Window 2 stays on its one block, the whole array. -/
theorem idx2 : ∀ t : Fin cfg2.N, win2_2.index t (0 : Fin 2) = 0 ∧ win2_2.index t (1 : Fin 2) = 0 :=
  (by decide +kernel : ∀ t : Fin grid2.N, _)
/-- Window 3 stays on its one block, the whole array. -/
theorem idx3 : ∀ t : Fin cfg2.N, win2_3.index t (0 : Fin 2) = 0 ∧ win2_3.index t (1 : Fin 2) = 0 :=
  (by decide +kernel : ∀ t : Fin grid2.N, _)
/-- Window 4 stays on its one block, the whole array. -/
theorem idx4 : ∀ t : Fin cfg2.N, win2_4.index t (0 : Fin 2) = 0 ∧ win2_4.index t (1 : Fin 2) = 0 :=
  (by decide +kernel : ∀ t : Fin grid2.N, _)
/-- Window 5 stays on its one block, the whole array. -/
theorem idx5 : ∀ t : Fin cfg2.N, win2_5.index t (0 : Fin 2) = 0 ∧ win2_5.index t (1 : Fin 2) = 0 :=
  (by decide +kernel : ∀ t : Fin grid2.N, _)
/-- Window 6 stays on its one block, the whole array. -/
theorem idx6 : ∀ t : Fin cfg2.N, win2_6.index t (0 : Fin 2) = 0 ∧ win2_6.index t (1 : Fin 2) = 0 :=
  (by decide +kernel : ∀ t : Fin grid2.N, _)
/-- Window 7 stays on its one block, the whole array. -/
theorem idx7 : ∀ t : Fin cfg2.N, win2_7.index t (0 : Fin 2) = 0 ∧ win2_7.index t (1 : Fin 2) = 0 :=
  (by decide +kernel : ∀ t : Fin grid2.N, _)
/-- Window 8 stays on its one block, the whole array. -/
theorem idx8 : ∀ t : Fin cfg2.N, win2_8.index t (0 : Fin 2) = 0 ∧ win2_8.index t (1 : Fin 2) = 0 :=
  (by decide +kernel : ∀ t : Fin grid2.N, _)
/-- Window 9 stays on its one block, the whole array. -/
theorem idx9 : ∀ t : Fin cfg2.N, win2_9.index t (0 : Fin 2) = 0 ∧ win2_9.index t (1 : Fin 2) = 0 :=
  (by decide +kernel : ∀ t : Fin grid2.N, _)

/-! ## The input blocks, read off their arrays -/

/-- Row `p` of window 0's block at point `t` is row `2048 t + p` of its array. -/
theorem blk0_row (c : Dev nD) (t : Fin cfg2.N) (p : Fin 2048) (r : Fin 65536) (hr : r.val = 2048 * t.val + p.val) (k : Fin 256) :
    (iblk2 V c 0 t : Vec Ideal S2048x256 .bf16) (ix2 p k) = (V c main_v18_0 : S65536x256.Idx → EReal) (ix2 r k) := by
  obtain ⟨e0, e1⟩ := idx0 t
  unfold iblk2
  rw [View.read_apply]
  show V c main_v18_0 _ = V c main_v18_0 (ix2 r k)
  congr 1
  funext a
  apply Fin.ext
  match a with
  | ⟨0, _⟩ => show win2_0.index t (0 : Fin 2) * 2048 + 1 * p.val = r.val; rw [e0, hr]; omega
  | ⟨1, _⟩ => show win2_0.index t (1 : Fin 2) * 256 + 1 * k.val = k.val; rw [e1]; omega

/-- Row `p` of window 1's block at point `t` is row `2048 t + p` of its array. -/
theorem blk1_row (c : Dev nD) (t : Fin cfg2.N) (p : Fin 2048) (r : Fin 65536) (hr : r.val = 2048 * t.val + p.val) (k : Fin 256) :
    (iblk2 V c 1 t : Vec Ideal S2048x256 .f32) (ix2 p k) = (V c main_arg3 : S65536x256.Idx → EReal) (ix2 r k) := by
  obtain ⟨e0, e1⟩ := idx1 t
  unfold iblk2
  rw [View.read_apply]
  show V c main_arg3 _ = V c main_arg3 (ix2 r k)
  congr 1
  funext a
  apply Fin.ext
  match a with
  | ⟨0, _⟩ => show win2_1.index t (0 : Fin 2) * 2048 + 1 * p.val = r.val; rw [e0, hr]; omega
  | ⟨1, _⟩ => show win2_1.index t (1 : Fin 2) * 256 + 1 * k.val = k.val; rw [e1]; omega

/-- Window 2's block is its whole array at every point. -/
theorem blk2_eq (c : Dev nD) (t : Fin cfg2.N) : (iblk2 V c 2 t : Vec Ideal S256x256 .f32) = (V c main_v19 : S256x256.Idx → EReal) := by
  obtain ⟨e0, e1⟩ := idx2 t
  funext y
  unfold iblk2
  rw [View.read_apply]
  show V c main_v19 _ = V c main_v19 y
  congr 1
  funext a
  apply Fin.ext
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- Window 3's block is its whole array at every point. -/
theorem blk3_eq (c : Dev nD) (t : Fin cfg2.N) : (iblk2 V c 3 t : Vec Ideal S1x1 .f32) = (V c main_v20 : S1x1.Idx → EReal) := by
  obtain ⟨e0, e1⟩ := idx3 t
  funext y
  unfold iblk2
  rw [View.read_apply]
  show V c main_v20 _ = V c main_v20 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 1 + 1 * (y 1).val = (y 1).val; rw [e1]; omega

/-- Window 4's block is its whole array at every point. -/
theorem blk4_eq (c : Dev nD) (t : Fin cfg2.N) : (iblk2 V c 4 t : Vec Ideal S256x256 .bf16) = (V c main_v5 : S256x256.Idx → EReal) := by
  obtain ⟨e0, e1⟩ := idx4 t
  funext y
  unfold iblk2
  rw [View.read_apply]
  show V c main_v5 _ = V c main_v5 y
  congr 1
  funext a
  apply Fin.ext
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- Window 5's block is its whole array at every point. -/
theorem blk5_eq (c : Dev nD) (t : Fin cfg2.N) : (iblk2 V c 5 t : Vec Ideal S1x256 .f32) = (V c main_v12 : S1x256.Idx → EReal) := by
  obtain ⟨e0, e1⟩ := idx5 t
  funext y
  unfold iblk2
  rw [View.read_apply]
  show V c main_v12 _ = V c main_v12 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 256 + 1 * (y 1).val = (y 1).val; rw [e1]; omega

/-- Window 6's block is its whole array at every point. -/
theorem blk6_eq (c : Dev nD) (t : Fin cfg2.N) : (iblk2 V c 6 t : Vec Ideal S256x256 .bf16) = (V c main_v7 : S256x256.Idx → EReal) := by
  obtain ⟨e0, e1⟩ := idx6 t
  funext y
  unfold iblk2
  rw [View.read_apply]
  show V c main_v7 _ = V c main_v7 y
  congr 1
  funext a
  apply Fin.ext
  match a with
  | ⟨0, _⟩ => show win2_6.index t (0 : Fin 2) * 256 + 1 * (y 0).val = (y 0).val; rw [e0]; omega
  | ⟨1, _⟩ => show win2_6.index t (1 : Fin 2) * 256 + 1 * (y 1).val = (y 1).val; rw [e1]; omega

/-- Window 7's block is its whole array at every point. -/
theorem blk7_eq (c : Dev nD) (t : Fin cfg2.N) : (iblk2 V c 7 t : Vec Ideal S1x256 .f32) = (V c main_v13 : S1x256.Idx → EReal) := by
  obtain ⟨e0, e1⟩ := idx7 t
  funext y
  unfold iblk2
  rw [View.read_apply]
  show V c main_v13 _ = V c main_v13 y
  congr 1
  funext a
  apply Fin.ext
  match a with
  | ⟨0, _⟩ => show win2_7.index t (0 : Fin 2) * 1 + 1 * (y 0).val = (y 0).val; rw [e0]; omega
  | ⟨1, _⟩ => show win2_7.index t (1 : Fin 2) * 256 + 1 * (y 1).val = (y 1).val; rw [e1]; omega

/-- Window 8's block is its whole array at every point. -/
theorem blk8_eq (c : Dev nD) (t : Fin cfg2.N) : (iblk2 V c 8 t : Vec Ideal S256x128 .bf16) = (V c main_v9 : S256x128.Idx → EReal) := by
  obtain ⟨e0, e1⟩ := idx8 t
  funext y
  unfold iblk2
  rw [View.read_apply]
  show V c main_v9 _ = V c main_v9 y
  congr 1
  funext a
  apply Fin.ext
  match a with
  | ⟨0, _⟩ => show win2_8.index t (0 : Fin 2) * 256 + 1 * (y 0).val = (y 0).val; rw [e0]; omega
  | ⟨1, _⟩ => show win2_8.index t (1 : Fin 2) * 128 + 1 * (y 1).val = (y 1).val; rw [e1]; omega

/-- Window 9's block is its whole array at every point. -/
theorem blk9_eq (c : Dev nD) (t : Fin cfg2.N) : (iblk2 V c 9 t : Vec Ideal S1x128 .f32) = (V c main_v14 : S1x128.Idx → EReal) := by
  obtain ⟨e0, e1⟩ := idx9 t
  funext y
  unfold iblk2
  rw [View.read_apply]
  show V c main_v14 _ = V c main_v14 y
  congr 1
  funext a
  apply Fin.ext
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega

end Cert.KernelIdeal.Pass3

end
-- ==== Proof.Pass3Lin.lean ====
/-
  The third pass's arithmetic at one entry of a block.

  The body of the third pass reads a block of 2048 rows of the previous state `h` and of `n_t`, the finished Gram
  matrix `M`, the squared norm `s` and the transposed weights and one-row biases, and stores two blocks. Here each
  matrix product of the body is read at an entry as the sum over the shared axis, each broadcast row as the row's entry,
  and the body's stored values are identified, entry by entry, with the cell on `n_t` and the projected state, and with
  `tanh` of the last linear layer. A change of float format is the identity on extended reals.
-/
import proofs.«152349_j35390530519886_2_alg».proof.Proof.Gen.KernelIdeal.Skeleton
import proofs.«152349_j35390530519886_2_alg».proof.Proof.RegionSpec
import proofs.«152349_j35390530519886_2_alg».proof.Proof.ArgsOf
import Idealize.ShloMosaic.Lib.Pipeline.Value
import Idealize.ShloMosaic.Lib.ValueIdx
import Idealize.ShloMosaic.PureOps.Ideal.Laws

noncomputable section

namespace Cert.KernelIdeal.Pass3

open Cert.KernelIdeal Cert.KernelIdeal.Gen
open Idealize.ShloMosaic Idealize.ShloMosaic.ValueIdx
open Spec

/-- A 2048×256 block times a 256×256 matrix, accumulated from zero, at entry `(p, q)`: the sum over the shared axis. -/
theorem mm256 (l : FVec Ideal S2048x256 .bf16) (r : FVec Ideal S256x256 .bf16) (p : Fin 2048) (q : Fin 256) :
    matmul dot_S2048x256_S256x256_S2048x256_1_0_0_1_n_n none l r (constant S2048x256 .f32 0x00000000#32) (ix2 p q)
      = ∑ k : Fin 256, l (ix2 p k) * r (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ =>
      show (dot_S2048x256_S256x256_S2048x256_1_0_0_1_n_n.lhsIdx (ix2 p q) _ 0).val = p.val
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl
    | ⟨1, _⟩ => exact (dot_S2048x256_S256x256_S2048x256_1_0_0_1_n_n.lhsIdx_val_of_single rfl (ix2 p q) _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (dot_S2048x256_S256x256_S2048x256_1_0_0_1_n_n.rhsIdx_val_of_single rfl (ix2 p q) _).trans hk
    | ⟨1, _⟩ =>
      show (dot_S2048x256_S256x256_S2048x256_1_0_0_1_n_n.rhsIdx (ix2 p q) _ 1).val = q.val
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
  rw [el, er]

/-- A 2048×256 block times a 256×128 matrix, accumulated from zero, at entry `(p, q)`: the sum over the shared axis. -/
theorem mm128 (l : FVec Ideal S2048x256 .bf16) (r : FVec Ideal S256x128 .bf16) (p : Fin 2048) (q : Fin 128) :
    matmul dot_S2048x256_S256x128_S2048x128_1_0_0_1_n_n none l r (constant S2048x128 .f32 0x00000000#32) (ix2 p q)
      = ∑ k : Fin 256, l (ix2 p k) * r (ix2 k q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ =>
      show (dot_S2048x256_S256x128_S2048x128_1_0_0_1_n_n.lhsIdx (ix2 p q) _ 0).val = p.val
      unfold DotDims.lhsIdx
      rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
      rfl
    | ⟨1, _⟩ => exact (dot_S2048x256_S256x128_S2048x128_1_0_0_1_n_n.lhsIdx_val_of_single rfl (ix2 p q) _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (dot_S2048x256_S256x128_S2048x128_1_0_0_1_n_n.rhsIdx_val_of_single rfl (ix2 p q) _).trans hk
    | ⟨1, _⟩ =>
      show (dot_S2048x256_S256x128_S2048x128_1_0_0_1_n_n.rhsIdx (ix2 p q) _ 1).val = q.val
      unfold DotDims.rhsIdx
      rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
      rfl)
  rw [el, er]

/-- A one-row matrix of 256 columns broadcast down 2048 rows reads the row's entry. -/
theorem bc256 (x : FVec Ideal S1x256 .f32) (p : Fin 2048) (q : Fin 256) :
    broadcastTo S2048x256 x broadcasts_S1x256_S2048x256 (ix2 p q) = x (ix2 0 q) :=
  broadcastTo_apply x broadcasts_S1x256_S2048x256 (ix2 p q) (ix2 0 q) (fun a => by
    match a with
    | ⟨0, _⟩ => rfl
    | ⟨1, _⟩ => rfl)

/-- A one-row matrix of 128 columns broadcast down 2048 rows reads the row's entry. -/
theorem bc128 (x : FVec Ideal S1x128 .f32) (p : Fin 2048) (q : Fin 128) :
    broadcastTo S2048x128 x broadcasts_S1x128_S2048x128 (ix2 p q) = x (ix2 0 q) :=
  broadcastTo_apply x broadcasts_S1x128_S2048x128 (ix2 p q) (ix2 0 q) (fun a => by
    match a with
    | ⟨0, _⟩ => rfl
    | ⟨1, _⟩ => rfl)

/-- A one-entry matrix broadcast to 2048×256 reads that entry. -/
theorem bc11 (x : FVec Ideal S1x1 .f32) (p : Fin 2048) (q : Fin 256) :
    broadcastTo S2048x256 x broadcasts_S1x1_S2048x256 (ix2 p q) = x (ix2 0 0) :=
  broadcastTo_apply x broadcasts_S1x1_S2048x256 (ix2 p q) (ix2 0 0) (fun a => by
    match a with
    | ⟨0, _⟩ => rfl
    | ⟨1, _⟩ => rfl)

end Cert.KernelIdeal.Pass3

end
-- ==== Proof.Pass3Pay.lean ====
/-
  The third pass's stored values at one entry of a block.

  The body's stored values are, entry by entry: the first, the cell on `n_t` and the previous state with `n_t`
  projected out (through the finished Gram matrix and squared norm); the second, `tanh` of the last linear layer of the
  first. Each is read through the body's intermediate values: the two linear layers, the projected state and the
  broadcast bias.
-/
import proofs.«152349_j35390530519886_2_alg».proof.Proof.Pass3Lin
import Idealize.ShloMosaic.Lib.IdealHost

noncomputable section

namespace Cert.KernelIdeal.Pass3

open Cert.KernelIdeal Cert.KernelIdeal.Gen
open Idealize.ShloMosaic Idealize.ShloMosaic.ValueIdx
open Spec

/-- The linear layer on `n_t`: block times transposed weight plus the bias row. -/
theorem lin_nt (x1 : Vec Ideal S2048x256 .f32) (x4 : Vec Ideal S256x256 .bf16) (x5 : Vec Ideal S1x256 .f32) (p : Fin 2048) (q : Fin 256) :
    k2_pay5 x1 x4 x5 (ix2 p q) = RegionSpec.linT (mat x1) (mat x4) (mat x5) p q := by
  unfold k2_pay5
  simp only [shapeCast_self]
  rw [addf_apply, mm256, bc256]
  rfl

/-- The bias row of the state's linear layer, broadcast down the block. -/
theorem bias_h (x7 : Vec Ideal S1x256 .f32) (p : Fin 2048) (q : Fin 256) :
    k2_pay7 x7 (ix2 p q) = x7 (ix2 0 q) := by
  unfold k2_pay7
  simp only [shapeCast_self]
  exact bc256 x7 p q

/-- The state with `n_t` projected out, times the state's transposed weight. -/
theorem lin_proj (x0 : Vec Ideal S2048x256 .bf16) (x1 : Vec Ideal S2048x256 .f32) (x2 : Vec Ideal S256x256 .f32) (x3 : Vec Ideal S1x1 .f32)
    (x6 : Vec Ideal S256x256 .bf16) (p : Fin 2048) (q : Fin 256) :
    k2_pay6 x0 x1 x2 x3 x6 (ix2 p q)
      = ∑ k : Fin 256, RegionSpec.projT (mat x1) (mat x0) (mat x2) (x3 (ix2 0 0)) p k * x6 (ix2 k q) := by
  unfold k2_pay6
  simp only [shapeCast_self]
  rw [mm256]
  refine Finset.sum_congr rfl fun k _ => ?_
  refine congrArg (· * x6 (ix2 k q)) ?_
  rw [truncf_apply, subf_apply, mulf_apply, extf_apply, mm256, bc11, divf_apply, broadcast_apply]
  show (x0 (ix2 p k) : EReal) - (∑ k' : Fin 256, (x1 (ix2 p k') : EReal) * (x2 (ix2 k' k) : EReal)) * Ideal.div (Ideal.ofBits .f32 0x3F800000#32) (x3 (ix2 0 0)) = _
  rw [Ideal.ofBits_one_f32]
  rfl

/-- The first stored value at an entry, from the body's three intermediate values there. -/
theorem store_h_apply (v31 v33 v34 : FVec Ideal S2048x256 .f32) (i : S2048x256.Idx) :
    k2_pay1 v31 v33 v34 i = Ideal.tanh (v31 i) + Ideal.tanh (v33 i + v34 i) := rfl

/-- THE FIRST STORED BLOCK at entry `(p, q)`: the cell on `n_t` and the projected state. -/
theorem store_h (x0 : Vec Ideal S2048x256 .bf16) (x1 : Vec Ideal S2048x256 .f32) (x2 : Vec Ideal S256x256 .f32) (x3 : Vec Ideal S1x1 .f32)
    (x4 : Vec Ideal S256x256 .bf16) (x5 : Vec Ideal S1x256 .f32) (x6 : Vec Ideal S256x256 .bf16) (x7 : Vec Ideal S1x256 .f32)
    (p : Fin 2048) (q : Fin 256) :
    k2_pay1 (k2_pay5 x1 x4 x5) (k2_pay6 x0 x1 x2 x3 x6) (k2_pay7 x7) (ix2 p q)
      = RegionSpec.cellT (mat x1) (mat x4) (mat x5) (RegionSpec.projT (mat x1) (mat x0) (mat x2) (x3 (ix2 0 0))) (mat x6) (mat x7) p q := by
  rw [store_h_apply, lin_nt, lin_proj, bias_h]
  rfl

/-- The second stored value at an entry, from the first stored block, the last transposed weight and its bias row. -/
theorem store_b_apply (v25 : FVec Ideal S256x128 .bf16) (v27 : FVec Ideal S1x128 .f32) (v31 v33 v34 : FVec Ideal S2048x256 .f32)
    (p : Fin 2048) (o : Fin 128) :
    k2_pay2 v25 v27 v31 v33 v34 (ix2 p o)
      = Ideal.tanh ((∑ k : Fin 256, k2_pay1 v31 v33 v34 (ix2 p k) * v25 (ix2 k o)) + v27 (ix2 0 o)) := by
  unfold k2_pay2
  refine congrArg Ideal.tanh ?_
  rw [addf_apply, mm128, bc128]
  rfl

/-- THE SECOND STORED BLOCK at entry `(p, o)`: `tanh` of the last linear layer of the first stored block's row. -/
theorem store_b (x0 : Vec Ideal S2048x256 .bf16) (x1 : Vec Ideal S2048x256 .f32) (x2 : Vec Ideal S256x256 .f32) (x3 : Vec Ideal S1x1 .f32)
    (x4 : Vec Ideal S256x256 .bf16) (x5 : Vec Ideal S1x256 .f32) (x6 : Vec Ideal S256x256 .bf16) (x7 : Vec Ideal S1x256 .f32)
    (x8 : Vec Ideal S256x128 .bf16) (x9 : Vec Ideal S1x128 .f32) (p : Fin 2048) (o : Fin 128) :
    k2_pay2 (k2_pay3 x8) (k2_pay4 x9) (k2_pay5 x1 x4 x5) (k2_pay6 x0 x1 x2 x3 x6) (k2_pay7 x7) (ix2 p o)
      = Ideal.tanh ((∑ k : Fin 256,
          RegionSpec.cellT (mat x1) (mat x4) (mat x5) (RegionSpec.projT (mat x1) (mat x0) (mat x2) (x3 (ix2 0 0))) (mat x6) (mat x7) p k
            * x8 (ix2 k o)) + x9 (ix2 0 o)) := by
  rw [store_b_apply]
  unfold k2_pay3 k2_pay4
  simp only [shapeCast_self]
  refine congrArg (fun z => Ideal.tanh (z + x9 (ix2 0 o))) ?_
  exact Finset.sum_congr rfl fun k _ => by rw [store_h]

end Cert.KernelIdeal.Pass3

end
-- ==== Proof.Pass3Rows.lean ====
/-
  The third pass's stored blocks against the whole arrays.

  An entry of the cell, of the projection and of a linear layer depends on the row-indexed arrays (`n_t`, the previous
  state) only through the entry's own row. So a block of 2048 rows of those two arrays, together with the whole Gram
  matrix, squared norm, weights and biases, determines the same rows of the pass's two results: the body's stored values
  at a block entry are the results' entries at the array row the block row sits at.
-/
import proofs.«152349_j35390530519886_2_alg».proof.Proof.Pass3Pay

noncomputable section

namespace Cert.KernelIdeal.Pass3

open Cert.KernelIdeal Cert.KernelIdeal.Gen
open Idealize.ShloMosaic Idealize.ShloMosaic.ValueIdx
open Spec

open RegionSpec

section Rows
variable {B B' I H J K : ℕ}

/-- A linear layer's entry reads its input only in the entry's row. -/
theorem linT_row (x : Mat B K) (x' : Mat B' K) (WT : Mat K J) (bias : Mat 1 J) (b : Fin B) (b' : Fin B')
    (hx : ∀ k, x b k = x' b' k) (j : Fin J) : linT x WT bias b j = linT x' WT bias b' j := by
  unfold linT
  rw [Finset.sum_congr rfl fun k _ => by rw [hx k]]

/-- The projection's entry reads the two row-indexed arrays only in the entry's row. -/
theorem projT_row (a : Mat B I) (a' : Mat B' I) (h : Mat B H) (h' : Mat B' H) (M : Mat I H) (s : EReal) (b : Fin B) (b' : Fin B')
    (ha : ∀ k, a b k = a' b' k) (hh : ∀ j, h b j = h' b' j) (j : Fin H) : projT a h M s b j = projT a' h' M s b' j := by
  unfold projT
  rw [hh j, Finset.sum_congr rfl fun k _ => by rw [ha k]]

/-- The cell's entry reads its input and its state only in the entry's row. -/
theorem cellT_row (x : Mat B I) (x' : Mat B' I) (WxT : Mat I H) (bx : Mat 1 H) (h : Mat B H) (h' : Mat B' H) (WhT : Mat H H) (bh : Mat 1 H)
    (b : Fin B) (b' : Fin B') (hx : ∀ k, x b k = x' b' k) (hh : ∀ k, h b k = h' b' k) (j : Fin H) :
    cellT x WxT bx h WhT bh b j = cellT x' WxT bx h' WhT bh b' j := by
  unfold cellT
  rw [linT_row x x' WxT bx b b' hx j, linT_row h h' WhT bh b b' hh j]

end Rows

/-- The pass's first result as one function of the arrays it reads, index by index. -/
def resH (A0 A1 : S65536x256.Idx → EReal) (A2 : S256x256.Idx → EReal) (A3 : S1x1.Idx → EReal) (A4 : S256x256.Idx → EReal)
    (A5 : S1x256.Idx → EReal) (A6 : S256x256.Idx → EReal) (A7 : S1x256.Idx → EReal) : S65536x256.Idx → EReal :=
  fun i => pass3_h (mat A0) (mat A1) (mat A2) (A3 (ix2 0 0)) (mat A4) (mat A5) (mat A6) (mat A7) (i 0) (i 1)

/-- The pass's second result as one function of the arrays it reads, index by index. -/
def resB (A0 A1 : S65536x256.Idx → EReal) (A2 : S256x256.Idx → EReal) (A3 : S1x1.Idx → EReal) (A4 : S256x256.Idx → EReal)
    (A5 : S1x256.Idx → EReal) (A6 : S256x256.Idx → EReal) (A7 : S1x256.Idx → EReal) (A8 : S256x128.Idx → EReal) (A9 : S1x128.Idx → EReal) :
    S65536x128.Idx → EReal :=
  fun i => pass3_b (pass3_h (mat A0) (mat A1) (mat A2) (A3 (ix2 0 0)) (mat A4) (mat A5) (mat A6) (mat A7)) (mat A8) (mat A9) (i 0) (i 1)

/-- A row of the cell computed from a block is the row of the first result it sits at. -/
theorem cell_rows (x0 : Vec Ideal S2048x256 .bf16) (x1 : Vec Ideal S2048x256 .f32) (A0 A1 : S65536x256.Idx → EReal)
    (A2 : S256x256.Idx → EReal) (A3 : S1x1.Idx → EReal) (A4 : S256x256.Idx → EReal) (A5 : S1x256.Idx → EReal)
    (A6 : S256x256.Idx → EReal) (A7 : S1x256.Idx → EReal) (p : Fin 2048) (r : Fin 65536)
    (h0 : ∀ k : Fin 256, x0 (ix2 p k) = A0 (ix2 r k)) (h1 : ∀ k : Fin 256, x1 (ix2 p k) = A1 (ix2 r k)) (q : Fin 256) :
    cellT (mat x1) (mat A4) (mat A5) (projT (mat x1) (mat x0) (mat A2) (A3 (ix2 0 0))) (mat A6) (mat A7) p q
      = pass3_h (mat A0) (mat A1) (mat A2) (A3 (ix2 0 0)) (mat A4) (mat A5) (mat A6) (mat A7) r q := by
  unfold pass3_h
  exact cellT_row _ _ _ _ _ _ _ _ p r (fun k => h1 k)
    (fun k => projT_row _ _ _ _ _ _ p r (fun k' => h1 k') (fun k' => h0 k') k) q

/-- THE FIRST STORED BLOCK at an entry is the first result at the array index the entry sits at: rows of the block are
    rows of the two row-indexed arrays (`h0`, `h1`), the other blocks are their whole arrays, and the column is kept. -/
theorem store_h_rows (x0 : Vec Ideal S2048x256 .bf16) (x1 : Vec Ideal S2048x256 .f32) (x2 : Vec Ideal S256x256 .f32) (x3 : Vec Ideal S1x1 .f32)
    (x4 : Vec Ideal S256x256 .bf16) (x5 : Vec Ideal S1x256 .f32) (x6 : Vec Ideal S256x256 .bf16) (x7 : Vec Ideal S1x256 .f32)
    (A0 A1 : S65536x256.Idx → EReal) (A2 : S256x256.Idx → EReal) (A3 : S1x1.Idx → EReal) (A4 : S256x256.Idx → EReal)
    (A5 : S1x256.Idx → EReal) (A6 : S256x256.Idx → EReal) (A7 : S1x256.Idx → EReal)
    (y : S2048x256.Idx) (i : S65536x256.Idx)
    (h0 : ∀ k : Fin 256, x0 (ix2 (y 0) k) = A0 (ix2 (i 0) k)) (h1 : ∀ k : Fin 256, x1 (ix2 (y 0) k) = A1 (ix2 (i 0) k))
    (h2 : x2 = A2) (h3 : x3 = A3) (h4 : x4 = A4) (h5 : x5 = A5) (h6 : x6 = A6) (h7 : x7 = A7) (hq : (y 1).val = (i 1).val) :
    k2_pay1 (k2_pay5 x1 x4 x5) (k2_pay6 x0 x1 x2 x3 x6) (k2_pay7 x7) y = resH A0 A1 A2 A3 A4 A5 A6 A7 i := by
  subst h2 h3 h4 h5 h6 h7
  obtain ⟨p, q, rfl⟩ : ∃ (p : Fin 2048) (q : Fin 256), y = ix2 p q := ⟨y 0, y 1, eq_ix2 y⟩
  obtain ⟨r, q', rfl⟩ : ∃ (r : Fin 65536) (q' : Fin 256), i = ix2 r q' := ⟨i 0, i 1, eq_ix2 i⟩
  obtain rfl : q = q' := Fin.ext hq
  rw [store_h]
  exact cell_rows x0 x1 A0 A1 x2 x3 x4 x5 x6 x7 p r h0 h1 q

/-- THE SECOND STORED BLOCK at an entry is the second result at the array index the entry sits at. -/
theorem store_b_rows (x0 : Vec Ideal S2048x256 .bf16) (x1 : Vec Ideal S2048x256 .f32) (x2 : Vec Ideal S256x256 .f32) (x3 : Vec Ideal S1x1 .f32)
    (x4 : Vec Ideal S256x256 .bf16) (x5 : Vec Ideal S1x256 .f32) (x6 : Vec Ideal S256x256 .bf16) (x7 : Vec Ideal S1x256 .f32)
    (x8 : Vec Ideal S256x128 .bf16) (x9 : Vec Ideal S1x128 .f32)
    (A0 A1 : S65536x256.Idx → EReal) (A2 : S256x256.Idx → EReal) (A3 : S1x1.Idx → EReal) (A4 : S256x256.Idx → EReal)
    (A5 : S1x256.Idx → EReal) (A6 : S256x256.Idx → EReal) (A7 : S1x256.Idx → EReal) (A8 : S256x128.Idx → EReal) (A9 : S1x128.Idx → EReal)
    (y : S2048x128.Idx) (i : S65536x128.Idx)
    (h0 : ∀ k : Fin 256, x0 (ix2 (y 0) k) = A0 (ix2 (i 0) k)) (h1 : ∀ k : Fin 256, x1 (ix2 (y 0) k) = A1 (ix2 (i 0) k))
    (h2 : x2 = A2) (h3 : x3 = A3) (h4 : x4 = A4) (h5 : x5 = A5) (h6 : x6 = A6) (h7 : x7 = A7) (h8 : x8 = A8) (h9 : x9 = A9)
    (hq : (y 1).val = (i 1).val) :
    k2_pay2 (k2_pay3 x8) (k2_pay4 x9) (k2_pay5 x1 x4 x5) (k2_pay6 x0 x1 x2 x3 x6) (k2_pay7 x7) y
      = resB A0 A1 A2 A3 A4 A5 A6 A7 A8 A9 i := by
  subst h2 h3 h4 h5 h6 h7 h8 h9
  obtain ⟨p, o, rfl⟩ : ∃ (p : Fin 2048) (o : Fin 128), y = ix2 p o := ⟨y 0, y 1, eq_ix2 y⟩
  obtain ⟨r, o', rfl⟩ : ∃ (r : Fin 65536) (o' : Fin 128), i = ix2 r o' := ⟨i 0, i 1, eq_ix2 i⟩
  obtain rfl : o = o' := Fin.ext hq
  rw [store_b]
  show Ideal.tanh ((∑ k : Fin 256, _ * x8 (ix2 k o)) + x9 (ix2 0 o)) = Ideal.tanh ((∑ k : Fin 256, _ * x8 (ix2 k o)) + x9 (ix2 0 o))
  refine congrArg (fun z => Ideal.tanh (z + x9 (ix2 0 o))) ?_
  exact Finset.sum_congr rfl fun k _ => by rw [cell_rows x0 x1 A0 A1 x2 x3 x4 x5 x6 x7 p r h0 h1 k]

end Cert.KernelIdeal.Pass3

end
-- ==== Proof.Pass3.lean ====
/-
  What the third pass leaves in its two result arrays.

  At every grid point the body's two stores are whole-block stores, so the block a point writes back is the body's
  stored values of the point's input blocks; entry by entry these are the two results at the array index the entry sits
  at (the rows of a block are rows `2048 t …` of the row-indexed arrays, the other windows are whole arrays). Point
  `t` writes back rows `2048 t … 2048 t + 2047`, so the 32 points cover every row, and each result array ends holding
  its function of the arrays the pass reads.
-/
import proofs.«152349_j35390530519886_2_alg».proof.Proof.Pass3Blocks
import proofs.«152349_j35390530519886_2_alg».proof.Proof.Pass3Rows

set_option maxRecDepth 16384

noncomputable section

namespace Cert.KernelIdeal.Pass3

open Cert.KernelIdeal Cert.KernelIdeal.Gen
open Idealize.ShloMosaic Idealize.ShloMosaic.TcCoe Idealize.SL.Sem
open Idealize.ShloMosaic.Pipeline (Dat)
open Idealize.ShloMosaic.ValueIdx
open Spec

variable (V : (c : Dev nD) → (b : Ref sig .tc) → Buf (Elt Ideal) ((c : Thread nD τ).loc b))

theorem hz : (![0, 0] : Fin 2 → Nat) = fun _ => 0 := funext fun a => by fin_cases a <;> rfl

/-- The first result as a function of the arrays the pass finds. -/
abbrev arrH (c : Dev nD) : S65536x256.Idx → EReal := resH (V c main_v18_0) (V c main_arg3) (V c main_v19) (V c main_v20) (V c main_v5) (V c main_v12) (V c main_v7) (V c main_v13)

/-- The second result as a function of the arrays the pass finds. -/
abbrev arrB (c : Dev nD) : S65536x128.Idx → EReal := resB (V c main_v18_0) (V c main_arg3) (V c main_v19) (V c main_v20) (V c main_v5) (V c main_v12) (V c main_v7) (V c main_v13) (V c main_v9) (V c main_v14)

/-! ## What a point writes back -/

/-- Point `t` writes back block `t` of the first result. -/
theorem flushed_h (c : Dev nD) (t : Fin cfg2.N) :
    (dat2 V c).flushed 10 t = ((cfg2.win 10).blk t).view.read (Elt Ideal) (arrH V c) := by
  show (cfg2.win 10).cut (grid2.coords t) ((dat2 V c).after 10 t) = _
  rw [after2_10]
  unfold out2_10
  rw [View.canon_unit_zero hz]
  simp only [View.ld_unit_zero (S := S2048x256) hz, View.ld_unit_zero (S := S256x256) hz, View.ld_unit_zero (S := S1x1) hz,
    View.ld_unit_zero (S := S1x256) hz]
  obtain ⟨e0, e1⟩ := idx10 t
  funext j
  show k2_pay1 (k2_pay5 (iblk2 V c 1 t) (iblk2 V c 4 t) (iblk2 V c 5 t))
      (k2_pay6 (iblk2 V c 0 t) (iblk2 V c 1 t) (iblk2 V c 2 t) (iblk2 V c 3 t) (iblk2 V c 6 t)) (k2_pay7 (iblk2 V c 7 t)) j
    = arrH V c (((cfg2.win 10).blk t).view.emb j)
  have hr : ((((cfg2.win 10).blk t).view.emb j) 0).val = 2048 * t.val + (j 0).val := by
    show win2_10.index t (0 : Fin 2) * 2048 + 1 * (j 0).val = _
    rw [e0]; omega
  have hq : (j 1).val = ((((cfg2.win 10).blk t).view.emb j) 1).val := by
    show _ = win2_10.index t (1 : Fin 2) * 256 + 1 * (j 1).val
    rw [e1]; omega
  exact store_h_rows (iblk2 V c 0 t) (iblk2 V c 1 t) (iblk2 V c 2 t) (iblk2 V c 3 t) (iblk2 V c 4 t) (iblk2 V c 5 t) (iblk2 V c 6 t) (iblk2 V c 7 t)
    (V c main_v18_0) (V c main_arg3) (V c main_v19) (V c main_v20) (V c main_v5) (V c main_v12) (V c main_v7) (V c main_v13)
    j (((cfg2.win 10).blk t).view.emb j)
    (fun k => blk0_row V c t (j 0) ((((cfg2.win 10).blk t).view.emb j) 0) hr k)
    (fun k => blk1_row V c t (j 0) ((((cfg2.win 10).blk t).view.emb j) 0) hr k)
    (blk2_eq V c t) (blk3_eq V c t) (blk4_eq V c t) (blk5_eq V c t) (blk6_eq V c t) (blk7_eq V c t) hq

/-- Point `t` writes back block `t` of the second result. -/
theorem flushed_b (c : Dev nD) (t : Fin cfg2.N) :
    (dat2 V c).flushed 11 t = ((cfg2.win 11).blk t).view.read (Elt Ideal) (arrB V c) := by
  show (cfg2.win 11).cut (grid2.coords t) ((dat2 V c).after 11 t) = _
  rw [after2_11]
  unfold out2_11
  rw [View.canon_unit_zero hz]
  simp only [View.ld_unit_zero (S := S2048x256) hz, View.ld_unit_zero (S := S256x256) hz, View.ld_unit_zero (S := S1x1) hz,
    View.ld_unit_zero (S := S1x256) hz, View.ld_unit_zero (S := S256x128) hz, View.ld_unit_zero (S := S1x128) hz]
  obtain ⟨e0, e1⟩ := idx11 t
  funext j
  show k2_pay2 (k2_pay3 (iblk2 V c 8 t)) (k2_pay4 (iblk2 V c 9 t)) (k2_pay5 (iblk2 V c 1 t) (iblk2 V c 4 t) (iblk2 V c 5 t))
      (k2_pay6 (iblk2 V c 0 t) (iblk2 V c 1 t) (iblk2 V c 2 t) (iblk2 V c 3 t) (iblk2 V c 6 t)) (k2_pay7 (iblk2 V c 7 t)) j
    = arrB V c (((cfg2.win 11).blk t).view.emb j)
  have hr : ((((cfg2.win 11).blk t).view.emb j) 0).val = 2048 * t.val + (j 0).val := by
    show win2_11.index t (0 : Fin 2) * 2048 + 1 * (j 0).val = _
    rw [e0]; omega
  have hq : (j 1).val = ((((cfg2.win 11).blk t).view.emb j) 1).val := by
    show _ = win2_11.index t (1 : Fin 2) * 128 + 1 * (j 1).val
    rw [e1]; omega
  exact store_b_rows (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    (V c main_v18_0) (V c main_arg3) (V c main_v19) (V c main_v20) (V c main_v5) (V c main_v12) (V c main_v7) (V c main_v13) (V c main_v9) (V c main_v14)
    j (((cfg2.win 11).blk t).view.emb j)
    (fun k => blk0_row V c t (j 0) ((((cfg2.win 11).blk t).view.emb j) 0) hr k)
    (fun k => blk1_row V c t (j 0) ((((cfg2.win 11).blk t).view.emb j) 0) hr k)
    (blk2_eq V c t) (blk3_eq V c t) (blk4_eq V c t) (blk5_eq V c t) (blk6_eq V c t) (blk7_eq V c t) (blk8_eq V c t) (blk9_eq V c t) hq

/-! ## The blocks cover the arrays -/

/-- An index of the first result array is in point `t`'s block iff each coordinate is in the block's range. -/
theorem mem_blk_h (t : Fin cfg2.N) (i : S65536x256.Idx) :
    i ∈ ((cfg2.win 10).blk t).view.set ↔ ∀ a : Fin 2, win2_10.index t a * S2048x256.size a ≤ (i a).val ∧ (i a).val < win2_10.index t a * S2048x256.size a + S2048x256.size a := by
  show i ∈ ((View.whole main_v21_0).slice (win2_10.rect t)).set ↔ _
  rw [View.set_slice_whole, Rect.mem_set_unit]
  exact Iff.rfl

/-- An index of the second result array is in point `t`'s block iff each coordinate is in the block's range. -/
theorem mem_blk_b (t : Fin cfg2.N) (i : S65536x128.Idx) :
    i ∈ ((cfg2.win 11).blk t).view.set ↔ ∀ a : Fin 2, win2_11.index t a * S2048x128.size a ≤ (i a).val ∧ (i a).val < win2_11.index t a * S2048x128.size a + S2048x128.size a := by
  show i ∈ ((View.whole main_v21_1).slice (win2_11.rect t)).set ↔ _
  rw [View.set_slice_whole, Rect.mem_set_unit]
  exact Iff.rfl

/-- Row `r` of the first result is in the block of point `r / 2048`. -/
theorem cover_h (i : S65536x256.Idx) : ∃ t : Fin cfg2.N, (cfg2.win 10).flush t = true ∧ i ∈ ((cfg2.win 10).blk t).view.set := by
  have hi0 : (i 0).val < 65536 := (i 0).isLt
  have hi1 : (i 1).val < 256 := (i 1).isLt
  have hN : cfg2.N = 32 := rfl
  let t : Fin cfg2.N := ⟨(i 0).val / 2048, by rw [hN]; omega⟩
  obtain ⟨e0, e1⟩ := idx10 t
  have ht : t.val = (i 0).val / 2048 := rfl
  refine ⟨t, flush2_10 t, ?_⟩
  rw [mem_blk_h]
  intro a
  match a with
  | ⟨0, _⟩ => show win2_10.index t (0 : Fin 2) * 2048 ≤ (i 0).val ∧ (i 0).val < win2_10.index t (0 : Fin 2) * 2048 + 2048; rw [e0, ht]; omega
  | ⟨1, _⟩ => show win2_10.index t (1 : Fin 2) * 256 ≤ (i 1).val ∧ (i 1).val < win2_10.index t (1 : Fin 2) * 256 + 256; rw [e1]; omega

/-- Row `r` of the second result is in the block of point `r / 2048`. -/
theorem cover_b (i : S65536x128.Idx) : ∃ t : Fin cfg2.N, (cfg2.win 11).flush t = true ∧ i ∈ ((cfg2.win 11).blk t).view.set := by
  have hi0 : (i 0).val < 65536 := (i 0).isLt
  have hi1 : (i 1).val < 128 := (i 1).isLt
  have hN : cfg2.N = 32 := rfl
  let t : Fin cfg2.N := ⟨(i 0).val / 2048, by rw [hN]; omega⟩
  obtain ⟨e0, e1⟩ := idx11 t
  have ht : t.val = (i 0).val / 2048 := rfl
  refine ⟨t, flush2_11 t, ?_⟩
  rw [mem_blk_b]
  intro a
  match a with
  | ⟨0, _⟩ => show win2_11.index t (0 : Fin 2) * 2048 ≤ (i 0).val ∧ (i 0).val < win2_11.index t (0 : Fin 2) * 2048 + 2048; rw [e0, ht]; omega
  | ⟨1, _⟩ => show win2_11.index t (1 : Fin 2) * 128 ≤ (i 1).val ∧ (i 1).val < win2_11.index t (1 : Fin 2) * 128 + 128; rw [e1]; omega

/-! ## The result arrays -/

/-- The first result array after the pass. -/
theorem final_h (c : Dev nD) : (dat2 V c).arrAt 10 cfg2.N = arrH V c :=
  (dat2 V c).arrAt_eq_of_cover 10 (arrH V c) (fun t _ => flushed_h V c t) cover_h

/-- The second result array after the pass. -/
theorem final_b (c : Dev nD) : (dat2 V c).arrAt 11 cfg2.N = arrB V c :=
  (dat2 V c).arrAt_eq_of_cover 11 (arrB V c) (fun t _ => flushed_b V c t) cover_b

/-- THE FIRST RESULT, entry by entry: the cell on `n_t` and the previous state with `n_t` projected out. -/
theorem out_h (c : Dev nD) (b : Fin 65536) (j : Fin 256) :
    ((dat2 V c).arrAt 10 cfg2.N : S65536x256.Idx → EReal) (ix2 b j)
      = RegionSpec.pass3_h (mat (V c main_v18_0)) (mat (V c main_arg3)) (mat (V c main_v19)) (V c main_v20 (ix2 0 0)) (mat (V c main_v5)) (mat (V c main_v12)) (mat (V c main_v7)) (mat (V c main_v13)) b j := by
  rw [final_h]
  rfl

/-- THE SECOND RESULT, entry by entry: `tanh` of the last linear layer of the first result. -/
theorem out_b (c : Dev nD) (b : Fin 65536) (o : Fin 128) :
    ((dat2 V c).arrAt 11 cfg2.N : S65536x128.Idx → EReal) (ix2 b o)
      = RegionSpec.pass3_b (RegionSpec.pass3_h (mat (V c main_v18_0)) (mat (V c main_arg3)) (mat (V c main_v19)) (V c main_v20 (ix2 0 0)) (mat (V c main_v5)) (mat (V c main_v12)) (mat (V c main_v7)) (mat (V c main_v13))) (mat (V c main_v9)) (mat (V c main_v14)) b o := by
  rw [final_b]
  rfl

end Cert.KernelIdeal.Pass3

end
-- ==== Proof.KValue.lean ====
/-
  The idealized kernel's two results, as the specification with the kernel's projection, of the launch contents of
  the fourteen arguments.
-/
import proofs.«152349_j35390530519886_2_alg».proof.Proof.KRun
import proofs.«152349_j35390530519886_2_alg».proof.Proof.KHost
import proofs.«152349_j35390530519886_2_alg».proof.Proof.ArgsOf
import proofs.«152349_j35390530519886_2_alg».proof.Proof.Compose
import proofs.«152349_j35390530519886_2_alg».proof.Proof.KIdx
import proofs.«152349_j35390530519886_2_alg».proof.Proof.Pass1
import proofs.«152349_j35390530519886_2_alg».proof.Proof.Pass1Sums
import proofs.«152349_j35390530519886_2_alg».proof.Proof.Pass2
import proofs.«152349_j35390530519886_2_alg».proof.Proof.Pass2Acc
import proofs.«152349_j35390530519886_2_alg».proof.Proof.Pass3

set_option maxRecDepth 16384

noncomputable section

namespace Cert.KernelIdeal.KValue

open Cert.KernelIdeal Cert.KernelIdeal.Gen Cert.KernelIdeal.Facts
open Idealize.ShloMosaic Idealize.ShloMosaic.TcCoe Idealize.ShloMosaic.ValueIdx
open Idealize.SL.Sem
open Spec RegionSpec Compose Cert.KernelIdeal.KHost Cert.KernelIdeal.KIdx

variable (m : (ℓ : Loc nD τ sig) → Buf (Elt Ideal) ℓ) (ρ : Dev nD → PrngReg) (c : Dev nD)

/-- The fourteen arguments' launch contents, as the specification's record. -/
def args : Spec.Args 65536 256 256 128 :=
  Spec.argsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

/-- The first result array: the next state, entry by entry. -/
def resH : Buf (Elt Ideal) ((c.tc : Thread nD τ).loc main_v21_0) :=
  fun i : S65536x256.Idx => Spec.hNext Spec.projK (args m c) (i 0) (i 1)

/-- The second result array. -/
def resB : Buf (Elt Ideal) ((c.tc : Thread nD τ).loc main_v21_1) :=
  fun i : S65536x128.Idx => Spec.bOut Spec.projK (args m c) (i 0) (i 1)

/-! ## Pass 1 -/

/-- Pass 1's state array holds the first state. -/
theorem state1 (b : Fin 65536) (j : Fin 256) :
    (V3 m ρ c main_v15_0 : S65536x256.Idx → EReal) (ix2 b j) = h0 (args m c) b j := by
  rw [v3_h m ρ c, Pass1.out_h (V1 m ρ) c b j, v1_arg1, v1_arg0, v1_WnhT, v1_bnh, v1_WhT, v1_bh, mat_trW, mat_rowB, mat_trW,
    mat_rowB]
  rfl

/-- The summed partial Gram matrices of pass 1. -/
theorem gram1 (k j : Fin 256) : (V3 m ρ c main_v16 : S256x256.Idx → EReal) (ix2 k j)
    = 0 + ∑ q : Fin 2, gramPart q (args m c).n_r (h0 (args m c)) k j := by
  rw [v3_M1 m ρ c, sum2_mat]
  refine congrArg _ (Finset.sum_congr rfl fun q _ => ?_)
  rw [Pass1.out_M (V1 m ρ) c q k j, v1_arg2, v1_arg1, v1_arg0, v1_WnhT, v1_bnh, v1_WhT, v1_bh, mat_trW, mat_rowB, mat_trW,
    mat_rowB]
  rfl

/-- The summed partial squared norms of pass 1. -/
theorem norm1 : (V3 m ρ c main_v17 : S1x1.Idx → EReal) (ix2 0 0) = 0 + ∑ q : Fin 2, sumsqPart q (args m c).n_r := by
  rw [v3_s1 m ρ c, sum2_one]
  refine congrArg _ (Finset.sum_congr rfl fun q _ => ?_)
  rw [Pass1.out_S (V1 m ρ) c q, v1_arg2]
  rfl

/-! ## Pass 2 -/

/-- Pass 2's state array holds the second state. -/
theorem state2 (b : Fin 65536) (j : Fin 256) :
    (V5 m ρ c main_v18_0 : S65536x256.Idx → EReal) (ix2 b j) = h1 projK (args m c) b j := by
  have e1 : mat (V3 m ρ c main_v15_0 : S65536x256.Idx → EReal) = h0 (args m c) :=
    funext fun b => funext fun j => state1 m ρ c b j
  rw [v5_h1 m ρ c, Pass2.out_h (V3 m ρ) c b j, e1, v3_nr, v3_WnrT, v3_bnr, v3_WhT, v3_bh, mat_trW, mat_rowB, mat_trW, mat_rowB]
  exact congrFun (congrFun (pass2_eq (args m c) (mat (V3 m ρ c main_v16 : S256x256.Idx → EReal))
    ((V3 m ρ c main_v17 : S1x1.Idx → EReal) (ix2 0 0)) (fun k j => gram1 m ρ c k j) (norm1 m ρ c)) b) j

/-- The summed partial Gram matrices of pass 2. -/
theorem gram2 (k j : Fin 256) : (V5 m ρ c main_v19 : S256x256.Idx → EReal) (ix2 k j)
    = 0 + ∑ q : Fin 2, gramPart q (args m c).n_t (h1 projK (args m c)) k j := by
  have e1 : mat (V3 m ρ c main_v15_0 : S65536x256.Idx → EReal) = h0 (args m c) :=
    funext fun b => funext fun j => state1 m ρ c b j
  rw [v5_M2 m ρ c, sum2_mat]
  refine congrArg _ (Finset.sum_congr rfl fun q _ => ?_)
  rw [Pass2Acc.out_M (V3 m ρ) c q k j, e1, v3_nt, v3_nr, v3_WnrT, v3_bnr, v3_WhT, v3_bh, mat_trW, mat_rowB, mat_trW, mat_rowB]
  exact congrArg (fun h => gramPart q (args m c).n_t h k j) (pass2_eq (args m c) (mat (V3 m ρ c main_v16 : S256x256.Idx → EReal))
    ((V3 m ρ c main_v17 : S1x1.Idx → EReal) (ix2 0 0)) (fun k j => gram1 m ρ c k j) (norm1 m ρ c))

/-- The summed partial squared norms of pass 2. -/
theorem norm2 : (V5 m ρ c main_v20 : S1x1.Idx → EReal) (ix2 0 0) = 0 + ∑ q : Fin 2, sumsqPart q (args m c).n_t := by
  rw [v5_s2 m ρ c, sum2_one]
  refine congrArg _ (Finset.sum_congr rfl fun q _ => ?_)
  rw [Pass2.out_S (V3 m ρ) c q, v3_nt]
  rfl

/-! ## Pass 3: the results -/

theorem hNext_val (b : Fin 65536) (j : Fin 256) :
    (W6 m ρ c (Proc.devRef .tc main_v21_0) : S65536x256.Idx → EReal) (ix2 b j) = hNext projK (args m c) b j := by
  have e2 : mat (V5 m ρ c main_v18_0 : S65536x256.Idx → EReal) = h1 projK (args m c) :=
    funext fun b => funext fun j => state2 m ρ c b j
  rw [w6_hNext m ρ c, Pass3.out_h (V5 m ρ) c b j, e2, v5_nt, v5_WntT, v5_bnt, v5_WhT, v5_bh, mat_trW, mat_rowB, mat_trW, mat_rowB]
  exact congrFun (congrFun (pass3_h_eq (args m c) (mat (V5 m ρ c main_v19 : S256x256.Idx → EReal))
    ((V5 m ρ c main_v20 : S1x1.Idx → EReal) (ix2 0 0)) (fun k j => gram2 m ρ c k j) (norm2 m ρ c)) b) j

theorem bOut_val (b : Fin 65536) (o : Fin 128) :
    (W6 m ρ c (Proc.devRef .tc main_v21_1) : S65536x128.Idx → EReal) (ix2 b o) = bOut projK (args m c) b o := by
  have e2 : mat (V5 m ρ c main_v18_0 : S65536x256.Idx → EReal) = h1 projK (args m c) :=
    funext fun b => funext fun j => state2 m ρ c b j
  rw [w6_bOut m ρ c, Pass3.out_b (V5 m ρ) c b o, e2, v5_nt, v5_WntT, v5_bnt, v5_WhT, v5_bh, v5_WbtT, v5_bbt, mat_trW, mat_rowB,
    mat_trW, mat_rowB, mat_trWo, mat_rowBo]
  exact congrArg (fun h => pass3_b h (Tr (args m c).W_bt) (Row (args m c).b_bt) b o)
    (pass3_h_eq (args m c) (mat (V5 m ρ c main_v19 : S256x256.Idx → EReal))
      ((V5 m ρ c main_v20 : S1x1.Idx → EReal) (ix2 0 0)) (fun k j => gram2 m ρ c k j) (norm2 m ρ c))

theorem resH_eq : W6 m ρ c (Proc.devRef .tc main_v21_0) = resH m c := by
  funext i
  rw [eq_ix2 i]
  exact hNext_val m ρ c (i 0) (i 1)

theorem resB_eq : W6 m ρ c (Proc.devRef .tc main_v21_1) = resB m c := by
  funext i
  rw [eq_ix2 i]
  exact bOut_val m ρ c (i 0) (i 1)

/-- The run: both results at the specification, the arguments unchanged. -/
theorem run : θ_run defs (onTc (τ := τ) (main (F := Ideal))) ⟨m, fun _ => 0, ρ⟩ (fun r => ∀ c : Dev nD,
      r.2.mem ((c.tc : Thread nD τ).loc main_v21_0) = resH m c
      ∧ r.2.mem ((c.tc : Thread nD τ).loc main_v21_1) = resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v21_0 (by decide))).trans (resH_eq m ρ c),
     (h c _ (mem_uc main_v21_1 (by decide))).trans (resB_eq m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩)
    (KRun.run_all m ρ)

end Cert.KernelIdeal.KValue
-- ==== Proof.RefSide.lean ====
/-
  The reference program's two results, read entry by entry, are the specification with the reference's projection.

  Each stage of the reference is read at a row and a column. A product with a transposed weight matrix is the row of the
  left factor against the row of the weight; a bias broadcast down the rows is the bias at the column; the norm is the
  square root of zero plus the sum of squares over every index, which is the double sum over rows and columns; a matrix
  divided by its norm, transposed and multiplied into the state, and multiplied back, is the reference's way of removing
  the matrix's direction from the state. Composing the stages in program order gives the first state, the first
  projection, the second state, the second projection, the next state, and the second result.
-/
import proofs.«152349_j35390530519886_2_alg».proof.Proof.Gen.ReferenceIdeal.Read
import proofs.«152349_j35390530519886_2_alg».proof.Proof.ArgsOf

noncomputable section

namespace Cert.ReferenceIdeal.RefSide

open Cert.ReferenceIdeal Cert.ReferenceIdeal.Read Idealize.ShloMosaic Idealize.ShloMosaic.ValueIdx Idealize.ShloMosaic.TcCoe
  Idealize.SL.Sem Idealize.ShloMosaic.StableHlo

/-- The contents of the batch-by-width arguments and states over the extended reals. -/
abbrev Big := (⟨S65536x256, .f32⟩ : BufTy).Contents (Elt Ideal)
/-- The contents of a square weight matrix. -/
abbrev Sq := (⟨S256x256, .f32⟩ : BufTy).Contents (Elt Ideal)
/-- The contents of a width-long bias. -/
abbrev V256 := (⟨S256, .f32⟩ : BufTy).Contents (Elt Ideal)
/-- The contents of the output weight matrix. -/
abbrev W128 := (⟨S128x256, .f32⟩ : BufTy).Contents (Elt Ideal)
/-- The contents of the output bias. -/
abbrev V128 := (⟨S128, .f32⟩ : BufTy).Contents (Elt Ideal)

/-! ## Stages that depend on one or two arguments -/

/-- The first cell's input bias, broadcast down the rows, is the bias at the column. -/
theorem bias_v3 (xb : V256) (b : Fin 65536) (j : Fin 256) :
    val_main_v3 (F := Ideal) xb (ix2 b j) = xb (ix1 j) := by
  rw [val_main_v3_apply, val_main_v2_apply]
  exact congrArg xb (funext fun a => by match a with | ⟨0, _⟩ => rfl)

/-- The first cell's state bias, broadcast down the rows, is the bias at the column. -/
theorem bias_v9 (xb : V256) (b : Fin 65536) (j : Fin 256) :
    val_main_v9 (F := Ideal) xb (ix2 b j) = xb (ix1 j) := by
  rw [val_main_v9_apply, val_main_v8_apply]
  exact congrArg xb (funext fun a => by match a with | ⟨0, _⟩ => rfl)

/-- The first cell's input product: a row of the input against a row of the weight. -/
theorem dot_v1 (x : Big) (W : Sq) (b : Fin 65536) (j : Fin 256) :
    val_main_v1 (F := Ideal) x W (ix2 b j) = ∑ k : Fin 256, x (ix2 b k) * W (ix2 j k) := by
  rw [val_main_v1_apply]
  refine Finset.sum_congr rfl fun k _ => ?_
  rw [val_main_v0_apply]
  have e1 : lidx_main_v1 (ix2 b j) k = ix2 b k := funext fun a => by match a with | ⟨0, _⟩ => rfl | ⟨1, _⟩ => rfl
  have e2 : idx_main_v0 (ridx_main_v1 (ix2 b j) k) = ix2 j k := funext fun a => by match a with | ⟨0, _⟩ => rfl | ⟨1, _⟩ => rfl
  rw [e1, e2]

/-- The first cell's state product: a row of the previous state against a row of the weight. -/
theorem dot_v7 (x : Big) (W : Sq) (b : Fin 65536) (j : Fin 256) :
    val_main_v7 (F := Ideal) x W (ix2 b j) = ∑ k : Fin 256, x (ix2 b k) * W (ix2 j k) := by
  rw [val_main_v7_apply]
  refine Finset.sum_congr rfl fun k _ => ?_
  rw [val_main_v6_apply]
  have e1 : lidx_main_v7 (ix2 b j) k = ix2 b k := funext fun a => by match a with | ⟨0, _⟩ => rfl | ⟨1, _⟩ => rfl
  have e2 : idx_main_v6 (ridx_main_v7 (ix2 b j) k) = ix2 j k := funext fun a => by match a with | ⟨0, _⟩ => rfl | ⟨1, _⟩ => rfl
  rw [e1, e2]

/-- The first norm: the square root of the sum of squares over every index, as the double sum over rows and columns. -/
theorem norm_v13 (x : Big) (i : S_.Idx) :
    val_main_v13 (F := Ideal) x i = Ideal.sqrt (Spec.sumsq (Spec.mat x)) := by
  rw [val_main_v13_apply, val_main_call0_v1_apply, val_main_call0_cst_apply, Ideal.hostUnary_sqrt_def, Ideal.ofBits_def,
    Ideal.ofBits_zero_f32, zero_add, sum_idx2]
  rfl

/-- The first projected-out matrix divided by its norm, entry by entry. -/
theorem unit_v15 (x : Big) (b : Fin 65536) (k : Fin 256) :
    val_main_v15 (F := Ideal) x (ix2 b k) = Ideal.div (x (ix2 b k)) (Ideal.sqrt (Spec.sumsq (Spec.mat x))) := by
  rw [val_main_v15_apply, val_main_v14_apply, norm_v13]
  rfl

/-- The second cell's input bias, broadcast down the rows, is the bias at the column. -/
theorem bias_v23 (xb : V256) (b : Fin 65536) (j : Fin 256) :
    val_main_v23 (F := Ideal) xb (ix2 b j) = xb (ix1 j) := by
  rw [val_main_v23_apply, val_main_v22_apply]
  exact congrArg xb (funext fun a => by match a with | ⟨0, _⟩ => rfl)

/-- The second cell's state bias, broadcast down the rows, is the bias at the column. -/
theorem bias_v29 (xb : V256) (b : Fin 65536) (j : Fin 256) :
    val_main_v29 (F := Ideal) xb (ix2 b j) = xb (ix1 j) := by
  rw [val_main_v29_apply, val_main_v28_apply]
  exact congrArg xb (funext fun a => by match a with | ⟨0, _⟩ => rfl)

/-- The third cell's input bias, broadcast down the rows, is the bias at the column. -/
theorem bias_v43 (xb : V256) (b : Fin 65536) (j : Fin 256) :
    val_main_v43 (F := Ideal) xb (ix2 b j) = xb (ix1 j) := by
  rw [val_main_v43_apply, val_main_v42_apply]
  exact congrArg xb (funext fun a => by match a with | ⟨0, _⟩ => rfl)

/-- The third cell's state bias, broadcast down the rows, is the bias at the column. -/
theorem bias_v49 (xb : V256) (b : Fin 65536) (j : Fin 256) :
    val_main_v49 (F := Ideal) xb (ix2 b j) = xb (ix1 j) := by
  rw [val_main_v49_apply, val_main_v48_apply]
  exact congrArg xb (funext fun a => by match a with | ⟨0, _⟩ => rfl)

/-- The output bias, broadcast down the rows, is the bias at the column. -/
theorem bias_v56 (xb : V128) (b : Fin 65536) (o : Fin 128) :
    val_main_v56 (F := Ideal) xb (ix2 b o) = xb (ix1 o) := by
  rw [val_main_v56_apply, val_main_v55_apply]
  exact congrArg xb (funext fun a => by match a with | ⟨0, _⟩ => rfl)

/-- The second cell's input product: a row of the input against a row of the weight. -/
theorem dot_v21 (x : Big) (W : Sq) (b : Fin 65536) (j : Fin 256) :
    val_main_v21 (F := Ideal) x W (ix2 b j) = ∑ k : Fin 256, x (ix2 b k) * W (ix2 j k) := by
  rw [val_main_v21_apply]
  refine Finset.sum_congr rfl fun k _ => ?_
  rw [val_main_v20_apply]
  have e1 : lidx_main_v21 (ix2 b j) k = ix2 b k := funext fun a => by match a with | ⟨0, _⟩ => rfl | ⟨1, _⟩ => rfl
  have e2 : idx_main_v20 (ridx_main_v21 (ix2 b j) k) = ix2 j k := funext fun a => by match a with | ⟨0, _⟩ => rfl | ⟨1, _⟩ => rfl
  rw [e1, e2]

/-- The third cell's input product: a row of the input against a row of the weight. -/
theorem dot_v41 (x : Big) (W : Sq) (b : Fin 65536) (j : Fin 256) :
    val_main_v41 (F := Ideal) x W (ix2 b j) = ∑ k : Fin 256, x (ix2 b k) * W (ix2 j k) := by
  rw [val_main_v41_apply]
  refine Finset.sum_congr rfl fun k _ => ?_
  rw [val_main_v40_apply]
  have e1 : lidx_main_v41 (ix2 b j) k = ix2 b k := funext fun a => by match a with | ⟨0, _⟩ => rfl | ⟨1, _⟩ => rfl
  have e2 : idx_main_v40 (ridx_main_v41 (ix2 b j) k) = ix2 j k := funext fun a => by match a with | ⟨0, _⟩ => rfl | ⟨1, _⟩ => rfl
  rw [e1, e2]

/-- The second norm: the square root of the sum of squares over every index, as the double sum over rows and columns. -/
theorem norm_v33 (x : Big) (i : S_.Idx) :
    val_main_v33 (F := Ideal) x i = Ideal.sqrt (Spec.sumsq (Spec.mat x)) := by
  rw [val_main_v33_apply, val_main_call1_v1_apply, val_main_call1_cst_apply, Ideal.hostUnary_sqrt_def, Ideal.ofBits_def,
    Ideal.ofBits_zero_f32, zero_add, sum_idx2]
  rfl

/-- The second projected-out matrix divided by its norm, entry by entry. -/
theorem unit_v35 (x : Big) (b : Fin 65536) (k : Fin 256) :
    val_main_v35 (F := Ideal) x (ix2 b k) = Ideal.div (x (ix2 b k)) (Ideal.sqrt (Spec.sumsq (Spec.mat x))) := by
  rw [val_main_v35_apply, val_main_v34_apply, norm_v33]
  rfl

/-! ## The stages in program order, over all fourteen arguments -/

variable (x0 x1 x2 x3 : Big) (x4 : Sq) (x5 : V256) (x6 : Sq) (x7 : V256) (x8 : Sq) (x9 : V256) (x10 : W128) (x11 : V128)
  (x12 : Sq) (x13 : V256)

/-- The fourteen arguments as the record the specification takes. -/
local notation "𝔸" => Spec.argsOf x0 x1 x2 x3 x4 x5 x6 x7 x8 x9 x10 x11 x12 x13

/-- The reference's first state is the specification's: the cell on the first input and the previous state. -/
theorem h0_ref (b : Fin 65536) (j : Fin 256) :
    val_main_v12 (F := Ideal) x0 x1 x4 x5 x12 x13 (ix2 b j) = Spec.h0 𝔸 b j := by
  rw [val_main_v12_apply, val_main_v5_apply, val_main_v4_apply, val_main_v11_apply, val_main_v10_apply, dot_v1, bias_v3,
    dot_v7, bias_v9]
  rfl

/-- The normalised second input, transposed, against the first state: a column of the one against a column of the other. -/
theorem gram_v17 (k : Fin 256) (j : Fin 256) :
    val_main_v17 (F := Ideal) x0 x1 x2 x4 x5 x12 x13 (ix2 k j)
      = ∑ b' : Fin 65536, Ideal.div (x2 (ix2 b' k)) (Ideal.sqrt (Spec.sumsq (Spec.mat x2))) * Spec.h0 𝔸 b' j := by
  rw [val_main_v17_apply]
  refine Finset.sum_congr rfl fun b' _ => ?_
  rw [val_main_v16_apply]
  have e1 : idx_main_v16 (lidx_main_v17 (ix2 k j) b') = ix2 b' k := funext fun a => by match a with | ⟨0, _⟩ => rfl | ⟨1, _⟩ => rfl
  have e2 : ridx_main_v17 (ix2 k j) b' = ix2 b' j := funext fun a => by match a with | ⟨0, _⟩ => rfl | ⟨1, _⟩ => rfl
  rw [e1, e2, unit_v15, h0_ref x0 x1 x2 x3 x4 x5 x6 x7 x8 x9 x10 x11 x12 x13]

/-- The normalised second input against that product. -/
theorem back_v18 (b : Fin 65536) (j : Fin 256) :
    val_main_v18 (F := Ideal) x0 x1 x2 x4 x5 x12 x13 (ix2 b j)
      = ∑ k : Fin 256, Ideal.div (x2 (ix2 b k)) (Ideal.sqrt (Spec.sumsq (Spec.mat x2)))
          * ∑ b' : Fin 65536, Ideal.div (x2 (ix2 b' k)) (Ideal.sqrt (Spec.sumsq (Spec.mat x2))) * Spec.h0 𝔸 b' j := by
  rw [val_main_v18_apply]
  refine Finset.sum_congr rfl fun k _ => ?_
  have e1 : lidx_main_v18 (ix2 b j) k = ix2 b k := funext fun a => by match a with | ⟨0, _⟩ => rfl | ⟨1, _⟩ => rfl
  have e2 : ridx_main_v18 (ix2 b j) k = ix2 k j := funext fun a => by match a with | ⟨0, _⟩ => rfl | ⟨1, _⟩ => rfl
  rw [e1, e2, unit_v15, gram_v17 x0 x1 x2 x3 x4 x5 x6 x7 x8 x9 x10 x11 x12 x13]

/-- The first state with the second input's direction removed, as the reference writes it. -/
theorem proj1_ref (b : Fin 65536) (j : Fin 256) :
    val_main_v19 (F := Ideal) x0 x1 x2 x4 x5 x12 x13 (ix2 b j) = Spec.projR (Spec.mat x2) (Spec.h0 𝔸) b j := by
  rw [val_main_v19_apply, h0_ref x0 x1 x2 x3 x4 x5 x6 x7 x8 x9 x10 x11 x12 x13, back_v18 x0 x1 x2 x3 x4 x5 x6 x7 x8 x9 x10 x11 x12 x13]
  rfl

/-- The second cell's state product: a row of the projected first state against a row of the weight. -/
theorem dot_v27 (b : Fin 65536) (j : Fin 256) :
    val_main_v27 (F := Ideal) x0 x1 x2 x4 x5 x12 x13 (ix2 b j) = ∑ k : Fin 256, Spec.projR (Spec.mat x2) (Spec.h0 𝔸) b k * x12 (ix2 j k) := by
  rw [val_main_v27_apply]
  refine Finset.sum_congr rfl fun k _ => ?_
  rw [val_main_v26_apply]
  have e1 : lidx_main_v27 (ix2 b j) k = ix2 b k := funext fun a => by match a with | ⟨0, _⟩ => rfl | ⟨1, _⟩ => rfl
  have e2 : idx_main_v26 (ridx_main_v27 (ix2 b j) k) = ix2 j k := funext fun a => by match a with | ⟨0, _⟩ => rfl | ⟨1, _⟩ => rfl
  rw [e1, e2, proj1_ref x0 x1 x2 x3 x4 x5 x6 x7 x8 x9 x10 x11 x12 x13]

/-- The reference's second state is the specification's: the cell on the second input and the projected first state. -/
theorem h1_ref (b : Fin 65536) (j : Fin 256) :
    val_main_v32 (F := Ideal) x0 x1 x2 x4 x5 x6 x7 x12 x13 (ix2 b j) = Spec.h1 Spec.projR 𝔸 b j := by
  rw [val_main_v32_apply, val_main_v25_apply, val_main_v24_apply, val_main_v31_apply, val_main_v30_apply, dot_v21, bias_v23,
    dot_v27 x0 x1 x2 x3 x4 x5 x6 x7 x8 x9 x10 x11 x12 x13, bias_v29]
  rfl

/-- The normalised third input, transposed, against the second state: a column of the one against a column of the other. -/
theorem gram_v37 (k : Fin 256) (j : Fin 256) :
    val_main_v37 (F := Ideal) x0 x1 x2 x3 x4 x5 x6 x7 x12 x13 (ix2 k j)
      = ∑ b' : Fin 65536, Ideal.div (x3 (ix2 b' k)) (Ideal.sqrt (Spec.sumsq (Spec.mat x3))) * Spec.h1 Spec.projR 𝔸 b' j := by
  rw [val_main_v37_apply]
  refine Finset.sum_congr rfl fun b' _ => ?_
  rw [val_main_v36_apply]
  have e1 : idx_main_v36 (lidx_main_v37 (ix2 k j) b') = ix2 b' k := funext fun a => by match a with | ⟨0, _⟩ => rfl | ⟨1, _⟩ => rfl
  have e2 : ridx_main_v37 (ix2 k j) b' = ix2 b' j := funext fun a => by match a with | ⟨0, _⟩ => rfl | ⟨1, _⟩ => rfl
  rw [e1, e2, unit_v35, h1_ref x0 x1 x2 x3 x4 x5 x6 x7 x8 x9 x10 x11 x12 x13]

/-- The normalised third input against that product. -/
theorem back_v38 (b : Fin 65536) (j : Fin 256) :
    val_main_v38 (F := Ideal) x0 x1 x2 x3 x4 x5 x6 x7 x12 x13 (ix2 b j)
      = ∑ k : Fin 256, Ideal.div (x3 (ix2 b k)) (Ideal.sqrt (Spec.sumsq (Spec.mat x3)))
          * ∑ b' : Fin 65536, Ideal.div (x3 (ix2 b' k)) (Ideal.sqrt (Spec.sumsq (Spec.mat x3))) * Spec.h1 Spec.projR 𝔸 b' j := by
  rw [val_main_v38_apply]
  refine Finset.sum_congr rfl fun k _ => ?_
  have e1 : lidx_main_v38 (ix2 b j) k = ix2 b k := funext fun a => by match a with | ⟨0, _⟩ => rfl | ⟨1, _⟩ => rfl
  have e2 : ridx_main_v38 (ix2 b j) k = ix2 k j := funext fun a => by match a with | ⟨0, _⟩ => rfl | ⟨1, _⟩ => rfl
  rw [e1, e2, unit_v35, gram_v37 x0 x1 x2 x3 x4 x5 x6 x7 x8 x9 x10 x11 x12 x13]

/-- The second state with the third input's direction removed, as the reference writes it. -/
theorem proj2_ref (b : Fin 65536) (j : Fin 256) :
    val_main_v39 (F := Ideal) x0 x1 x2 x3 x4 x5 x6 x7 x12 x13 (ix2 b j) = Spec.projR (Spec.mat x3) (Spec.h1 Spec.projR 𝔸) b j := by
  rw [val_main_v39_apply, h1_ref x0 x1 x2 x3 x4 x5 x6 x7 x8 x9 x10 x11 x12 x13, back_v38 x0 x1 x2 x3 x4 x5 x6 x7 x8 x9 x10 x11 x12 x13]
  rfl

/-- The third cell's state product: a row of the projected second state against a row of the weight. -/
theorem dot_v47 (b : Fin 65536) (j : Fin 256) :
    val_main_v47 (F := Ideal) x0 x1 x2 x3 x4 x5 x6 x7 x12 x13 (ix2 b j) = ∑ k : Fin 256, Spec.projR (Spec.mat x3) (Spec.h1 Spec.projR 𝔸) b k * x12 (ix2 j k) := by
  rw [val_main_v47_apply]
  refine Finset.sum_congr rfl fun k _ => ?_
  rw [val_main_v46_apply]
  have e1 : lidx_main_v47 (ix2 b j) k = ix2 b k := funext fun a => by match a with | ⟨0, _⟩ => rfl | ⟨1, _⟩ => rfl
  have e2 : idx_main_v46 (ridx_main_v47 (ix2 b j) k) = ix2 j k := funext fun a => by match a with | ⟨0, _⟩ => rfl | ⟨1, _⟩ => rfl
  rw [e1, e2, proj2_ref x0 x1 x2 x3 x4 x5 x6 x7 x8 x9 x10 x11 x12 x13]

/-- The reference's first result is the specification's next state, with the reference's projection. -/
theorem hNext_ref (b : Fin 65536) (j : Fin 256) :
    val_main_v52 (F := Ideal) x0 x1 x2 x3 x4 x5 x6 x7 x8 x9 x12 x13 (ix2 b j) = Spec.hNext Spec.projR 𝔸 b j := by
  rw [val_main_v52_apply, val_main_v45_apply, val_main_v44_apply, val_main_v51_apply, val_main_v50_apply, dot_v41, bias_v43,
    dot_v47 x0 x1 x2 x3 x4 x5 x6 x7 x8 x9 x10 x11 x12 x13, bias_v49]
  rfl

/-- The output product: a row of the next state against a row of the output weight. -/
theorem dot_v54 (b : Fin 65536) (o : Fin 128) :
    val_main_v54 (F := Ideal) x0 x1 x2 x3 x4 x5 x6 x7 x8 x9 x10 x12 x13 (ix2 b o) = ∑ k : Fin 256, Spec.hNext Spec.projR 𝔸 b k * x10 (ix2 o k) := by
  rw [val_main_v54_apply]
  refine Finset.sum_congr rfl fun k _ => ?_
  rw [val_main_v53_apply]
  have e1 : lidx_main_v54 (ix2 b o) k = ix2 b k := funext fun a => by match a with | ⟨0, _⟩ => rfl | ⟨1, _⟩ => rfl
  have e2 : idx_main_v53 (ridx_main_v54 (ix2 b o) k) = ix2 o k := funext fun a => by match a with | ⟨0, _⟩ => rfl | ⟨1, _⟩ => rfl
  rw [e1, e2, hNext_ref x0 x1 x2 x3 x4 x5 x6 x7 x8 x9 x10 x11 x12 x13]

/-- The reference's second result is the specification's, with the reference's projection. -/
theorem bOut_ref (b : Fin 65536) (o : Fin 128) :
    val_main_v58 (F := Ideal) x0 x1 x2 x3 x4 x5 x6 x7 x8 x9 x10 x11 x12 x13 (ix2 b o) = Spec.bOut Spec.projR 𝔸 b o := by
  rw [val_main_v58_apply, val_main_v57_apply, dot_v54 x0 x1 x2 x3 x4 x5 x6 x7 x8 x9 x10 x11 x12 x13, bias_v56]
  rfl

end Cert.ReferenceIdeal.RefSide
-- ==== Proof.LibRealEntries.lean ====
/-
  Extended reals that are real numbers, and the exact operations that keep them so.

  A law that holds on the real numbers but fails at an infinity (distributivity, cancelling a common factor, the shift
  invariance of a softmax) is applied to a program read over the extended reals by first showing that every quantity in
  sight is a real number. "Is a real number" is closed under sum, difference, product, negation, maximum and minimum, the
  exponential, the quotient by a nonzero real, finite sums (hence a contraction: a finite sum of products) and the running
  maximum of finitely many reals started from minus infinity (when there is at least one of them) or from a real. A
  family of such entries is the coercion of a real-valued family.
-/
import Mathlib.Data.EReal.Inv
import Mathlib.Algebra.BigOperators.Group.Finset.Basic
import Idealize.ShloMosaic.PureOps.Ideal

namespace LibRealEntries

open Idealize.ShloMosaic

/-- The extended real `x` is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

/-- A real number is neither infinity, and conversely. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The exact exponential of a real is a real. -/
theorem IsReal.exp {x : EReal} (hx : IsReal x) : IsReal (Ideal.exp x) := by
  obtain ⟨a, rfl⟩ := hx; exact ⟨Real.exp a, rfl⟩

/-- The exact quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact (isReal_coe a).mul (isReal_coe _)

/-- A finite sum of reals is a real. -/
theorem isReal_sum {ι : Type*} (P : Finset ι) (f : ι → EReal) (h : ∀ t ∈ P, IsReal (f t)) : IsReal (∑ t ∈ P, f t) := by
  classical
  induction P using Finset.induction_on with
  | empty => rw [Finset.sum_empty]; exact isReal_zero
  | insert a P ha ih =>
    rw [Finset.sum_insert ha]
    exact (h a (Finset.mem_insert_self a P)).add (ih fun t ht => h t (Finset.mem_insert_of_mem ht))

/-- A contraction of real entries — a finite sum of products — is a real. -/
theorem isReal_sum_mul {ι : Type*} (P : Finset ι) (f g : ι → EReal) (hf : ∀ t ∈ P, IsReal (f t)) (hg : ∀ t ∈ P, IsReal (g t)) :
    IsReal (∑ t ∈ P, f t * g t) :=
  isReal_sum P _ fun t ht => (hf t ht).mul (hg t ht)

/-- The running maximum of finitely many reals from a real start is a real. -/
theorem isReal_fold_max {ι : Type*} (P : Finset ι) (f : ι → EReal) (b : EReal) (hb : IsReal b) (h : ∀ t ∈ P, IsReal (f t)) :
    IsReal (P.fold max b f) := by
  classical
  induction P using Finset.induction_on with
  | empty => rw [Finset.fold_empty]; exact hb
  | insert a P ha ih =>
    rw [Finset.fold_insert ha]
    exact (h a (Finset.mem_insert_self a P)).max (ih fun t ht => h t (Finset.mem_insert_of_mem ht))

/-- The running maximum of finitely many reals, at least one, from minus infinity is a real. -/
theorem isReal_fold_max_bot {ι : Type*} (P : Finset ι) (hP : P.Nonempty) (f : ι → EReal) (h : ∀ t ∈ P, IsReal (f t)) :
    IsReal (P.fold max ⊥ f) := by
  classical
  obtain ⟨a, ha⟩ := hP
  rw [← Finset.insert_erase ha, Finset.fold_insert (Finset.notMem_erase a P)]
  have hrest : ∀ t ∈ P.erase a, IsReal (f t) := fun t ht => h t (Finset.mem_of_mem_erase ht)
  have hfa := h a ha
  -- the maximum of a real and the rest's running maximum from minus infinity: the rest's is a real or minus infinity
  have key : ∀ Q : Finset ι, (∀ t ∈ Q, IsReal (f t)) → IsReal (max (f a) (Q.fold max ⊥ f)) := by
    intro Q
    induction Q using Finset.induction_on with
    | empty => intro _; rw [Finset.fold_empty, max_eq_left bot_le]; exact hfa
    | insert c Q hc ih =>
      intro hQ
      rw [Finset.fold_insert hc, ← max_assoc, max_comm (f a) (f c), max_assoc]
      exact (hQ c (Finset.mem_insert_self c Q)).max (ih fun t ht => hQ t (Finset.mem_insert_of_mem ht))
  exact key _ hrest

/-- A family of real entries is the coercion of a real-valued family. -/
theorem exists_real_family {α : Type*} (f : α → EReal) (h : ∀ a, IsReal (f a)) : ∃ g : α → ℝ, ∀ a, f a = (g a : EReal) := by
  choose g hg using h
  exact ⟨g, hg⟩

end LibRealEntries
-- ==== Proof.PreDecode.lean ====
/-
  What the precondition gives the algebra.

  The precondition is a chain of "and"s, read at its one index: fourteen conjuncts saying that every entry of an argument
  has absolute value below plus infinity, then two saying that the sum of squares of the third and of the fourth
  argument exceeds zero. An entry whose absolute value is below plus infinity is neither infinity, so it is a real number;
  and the printed sum of squares, zero plus the sum over every index, is the double sum over rows and columns that the
  specification calls the squared Frobenius norm. Only the two matrices that are projected out are decoded here: their
  entries are real numbers and their squared norms are positive.
-/
import proofs.«152349_j35390530519886_2_alg».proof.Pre_finite_inputs
import proofs.«152349_j35390530519886_2_alg».proof.Proof.ArgsOf
import proofs.«152349_j35390530519886_2_alg».proof.Proof.LibRealEntries
import Idealize.ShloMosaic.Lib.ReduceAll
import Idealize.ShloMosaic.Lib.ValueIdx
import Idealize.ShloMosaic.PureOps.Ideal.Laws

namespace Cert.Pre_finite_inputs.Decode

open Idealize.ShloMosaic Idealize.ShloMosaic.ValueIdx

variable [Facts]

/-- The scalar shape has one index. -/
instance : Subsingleton S_.Idx := ⟨fun a b => funext fun d => d.elim0⟩

/-- An extended real whose absolute value is below plus infinity is a real number. -/
theorem isReal_of_abs_lt_inf (x : EReal)
    (h : Ideal.cmp .olt (max x (-x)) (Ideal.ofBits .f32 0x7F800000#32) = 1#1) : LibRealEntries.IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- "All entries have absolute value below plus infinity", for a rank-2 array: every entry is a real number. -/
theorem entries_real (x : FVec Ideal S65536x256 .f32)
    (h : Host.reduce IntOp.andi
        (cmpf .olt (Host.absf x) (broadcastInDim S65536x256 ![] Facts.bcast_S_S65536x256 (constant S_ .f32 0x7F800000#32)))
        (constantI S_ 1 1#1) Facts.reducesTo_S65536x256_S_d0_1 Facts.h_S_ ix0 = 1#1)
    (b : Fin 65536) (k : Fin 256) : LibRealEntries.IsReal (x (ix2 b k)) :=
  isReal_of_abs_lt_inf _ (Host.reduce_andi_all _ _ _ _ _ h (ix2 b k))

/-- The printed sum of squares — zero plus the sum over every index — is the double sum over rows and columns. -/
theorem sum_squares_eq (x : FVec Ideal S65536x256 .f32) :
    Host.reduceAdd (F := Ideal) (mulf x x) (constant S_ .f32 0x00000000#32) Facts.reducesTo_S65536x256_S_d0_1 Facts.h_S_ ix0
      = Spec.sumsq (Spec.mat x) := by
  simp only [Host.reduceAdd, Ideal.hostReduceAdd_def]
  rw [Ideal.hostReduceAdd_total Facts.reducesTo_S65536x256_S_d0_1 (fun b => b.elim0), constant_apply,
    Ideal.ofBits_zero_f32, zero_add, sum_idx2]
  rfl

/-- "The sum of squares exceeds zero": the squared Frobenius norm is positive. -/
theorem sumsq_pos (x : FVec Ideal S65536x256 .f32)
    (h : cmpf .ogt (Host.reduceAdd (mulf x x) (constant S_ .f32 0x00000000#32) Facts.reducesTo_S65536x256_S_d0_1 Facts.h_S_)
        (constant S_ .f32 0x00000000#32) ix0 = 1#1) : 0 < Spec.sumsq (Spec.mat x) := by
  rw [cmpf_apply, constant_apply, sum_squares_eq, Ideal.ofBits_zero_f32] at h
  have h' : Ideal.cmp .ogt (Spec.sumsq (Spec.mat x)) 0 = 1#1 := h
  by_contra hn
  simp [Ideal.cmp, hn] at h'

/-- From the precondition: the entries of the two projected-out matrices are real numbers, and their squared Frobenius
    norms are positive. -/
theorem of_pre
    (x0 x1 x2 x3 : FVec Ideal S65536x256 .f32) (x4 : FVec Ideal S256x256 .f32) (x5 : FVec Ideal S256 .f32)
    (x6 : FVec Ideal S256x256 .f32) (x7 : FVec Ideal S256 .f32) (x8 : FVec Ideal S256x256 .f32) (x9 : FVec Ideal S256 .f32)
    (x10 : FVec Ideal S128x256 .f32) (x11 : FVec Ideal S128 .f32) (x12 : FVec Ideal S256x256 .f32) (x13 : FVec Ideal S256 .f32)
    (h : fn (F := Ideal) x0 x1 x2 x3 x4 x5 x6 x7 x8 x9 x10 x11 x12 x13 = fun _ => 1#1) :
    (∀ b k, LibRealEntries.IsReal (x2 (ix2 b k))) ∧ (∀ b k, LibRealEntries.IsReal (x3 (ix2 b k)))
      ∧ 0 < Spec.sumsq (Spec.mat x2) ∧ 0 < Spec.sumsq (Spec.mat x3) := by
  have h0 := congrFun h ix0
  dsimp only [fn, fn_part1, fn_part2, fn_part3, fn_part4] at h0
  simp only [andi, IntOp.andi_eq_one] at h0
  obtain ⟨⟨⟨⟨⟨⟨⟨⟨⟨⟨⟨⟨⟨⟨⟨_, _⟩, h2⟩, h3⟩, _⟩, _⟩, _⟩, _⟩, _⟩, _⟩, _⟩, _⟩, _⟩, _⟩, hr⟩, ht⟩ := h0
  exact ⟨entries_real x2 h2, entries_real x3 h3, sumsq_pos x2 hr, sumsq_pos x3 ht⟩

end Cert.Pre_finite_inputs.Decode
-- ==== Proof.ProjLaw.lean ====
/-
  The one algebraic law that joins the two programs, over the real numbers.

  Projecting out the direction of a matrix `a` (rows `b`, columns `k`) from a column `t`:
  the reference normalises `a` by its Frobenius norm `√S` first and then contracts twice,
      ∑ₖ (a b k / √S) · ∑_b' (a b' k / √S) · t b',
  while the kernel contracts the unnormalised matrix twice and divides once by `S`,
      (∑ₖ a b k · ∑_b' a b' k · t b') / S.
  The two agree because `(√S)⁻¹ · (√S)⁻¹ = S⁻¹` for `0 ≤ S`.
-/
import Idealize.ShloMosaic.PureOps.Ideal

namespace ProjLaw

open Finset

/-- `(√S)⁻¹ · (√S)⁻¹ = S⁻¹` for a non-negative real. -/
theorem inv_sqrt_mul_inv_sqrt {S : ℝ} (hS : 0 ≤ S) : (Real.sqrt S)⁻¹ * (Real.sqrt S)⁻¹ = S⁻¹ := by
  rw [← mul_inv, Real.mul_self_sqrt hS]

/-- Normalise-then-contract-twice equals contract-twice-then-divide-by-the-squared-norm. -/
theorem normalised_eq_divided {B K : Type} [Fintype B] [Fintype K] (a : B → K → ℝ) (t : B → ℝ) {S : ℝ}
    (hS : 0 ≤ S) (b : B) :
    ∑ k, (a b k * (Real.sqrt S)⁻¹) * ∑ b', (a b' k * (Real.sqrt S)⁻¹) * t b'
      = (∑ k, a b k * ∑ b', a b' k * t b') * S⁻¹ := by
  rw [Finset.sum_mul]
  refine Finset.sum_congr rfl fun k _ => ?_
  have h1 : ∑ b', (a b' k * (Real.sqrt S)⁻¹) * t b' = (∑ b', a b' k * t b') * (Real.sqrt S)⁻¹ := by
    rw [Finset.sum_mul]; exact Finset.sum_congr rfl fun _ _ => by ring
  rw [h1]
  calc a b k * (Real.sqrt S)⁻¹ * ((∑ b', a b' k * t b') * (Real.sqrt S)⁻¹)
      = a b k * (∑ b', a b' k * t b') * ((Real.sqrt S)⁻¹ * (Real.sqrt S)⁻¹) := by ring
    _ = a b k * (∑ b', a b' k * t b') * S⁻¹ := by rw [inv_sqrt_mul_inv_sqrt hS]

end ProjLaw
-- ==== Proof.ProjLawE.lean ====
/-
  The projection law at the exact operations on the extended reals.

  With every entry of `a` and of `t` a real number and the squared norm `S` a positive real, the reference's
  normalise-then-contract-twice form and the kernel's contract-twice-then-scale-by-`1/S` form are one extended real:
      ∑ₖ (a b k / √S) · ∑_b' (a b' k / √S) · t b'  =  (∑ₖ a b k · ∑_b' a b' k · t b') · (1 / S).
  Finiteness is what lets the real-number law through: over the extended reals the two sides differ when `S = 0`
  (`0 / 0` on the left, `0 · (1 / 0)` on the right), which is why `S` is required positive.
-/
import proofs.«152349_j35390530519886_2_alg».proof.Proof.ProjLaw
import proofs.«152349_j35390530519886_2_alg».proof.Proof.LibRealEntries

namespace ProjLawE

open Idealize.ShloMosaic LibRealEntries

/-- The coercion of a finite real sum is the sum of the coercions. -/
theorem coe_sum {ι : Type*} (P : Finset ι) (g : ι → ℝ) : ((∑ t ∈ P, g t : ℝ) : EReal) = ∑ t ∈ P, (g t : EReal) := by
  classical
  induction P using Finset.induction_on with
  | empty => simp
  | insert a P ha ih => rw [Finset.sum_insert ha, Finset.sum_insert ha, EReal.coe_add, ih]

/-- The exact square root of a positive real is the coercion of its real square root, which is not zero. -/
theorem sqrt_pos_coe {s : ℝ} (hs : 0 < s) : Ideal.sqrt (s : EReal) = (Real.sqrt s : EReal) := by
  rw [Ideal.sqrt_coe, if_neg (not_lt.mpr hs.le)]

/-- The projection law, at the exact quotient and square root. -/
theorem normalised_eq_scaled {B K : Type} [Fintype B] [Fintype K] (a : B → K → EReal) (t : B → EReal) (S : EReal)
    (ha : ∀ b k, IsReal (a b k)) (ht : ∀ b, IsReal (t b)) (hS : IsReal S) (hpos : 0 < S) (b : B) :
    ∑ k, Ideal.div (a b k) (Ideal.sqrt S) * ∑ b', Ideal.div (a b' k) (Ideal.sqrt S) * t b'
      = (∑ k, a b k * ∑ b', a b' k * t b') * Ideal.div 1 S := by
  obtain ⟨ar, har⟩ : ∃ g : B → K → ℝ, ∀ b k, a b k = (g b k : EReal) := by
    choose g hg using ha; exact ⟨g, hg⟩
  obtain ⟨tr, htr⟩ := exists_real_family t ht
  obtain ⟨s, rfl⟩ := hS
  have hs : 0 < s := by exact_mod_cast hpos
  have hsq0 : Real.sqrt s ≠ 0 := (Real.sqrt_pos.mpr hs).ne'
  rw [sqrt_pos_coe hs]
  simp only [har, htr, Ideal.div_coe hsq0, Ideal.div_coe hs.ne', ← EReal.coe_one, ← EReal.coe_mul, ← coe_sum, one_div]
  refine congrArg _ ?_
  rw [one_mul]
  exact ProjLaw.normalised_eq_divided ar tr hs.le b

end ProjLawE
-- ==== Proof.SpecLaw.lean ====
/-
  The two projections agree where the projected-out matrix has real entries and a positive squared norm, so the two
  programs' results agree there.

  A cell's entries are always real numbers (a `tanh` is, even of an infinity), so the only finiteness needed is that
  of `n_r` and `n_t` themselves; the squared norms are then real, and they are assumed positive.
-/
import proofs.«152349_j35390530519886_2_alg».proof.Proof.Spec
import proofs.«152349_j35390530519886_2_alg».proof.Proof.ProjLawE

noncomputable section

namespace Spec

open Idealize.ShloMosaic LibRealEntries

variable {B I H O : ℕ}

/-- The exact hyperbolic tangent is a real number at every extended real. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- Every entry of a cell is a real number. -/
theorem isReal_cell (x : Mat B I) (Wx : Mat H I) (bx : Fin H → EReal) (h : Mat B H) (Wh : Mat H H) (bh : Fin H → EReal)
    (b : Fin B) (j : Fin H) : IsReal (cell x Wx bx h Wh bh b j) :=
  (isReal_tanh _).add (isReal_tanh _)

/-- The squared norm of a matrix of real entries is a real number. -/
theorem isReal_sumsq (a : Mat B I) (ha : ∀ b k, IsReal (a b k)) : IsReal (sumsq a) :=
  isReal_sum _ _ fun b _ => isReal_sum _ _ fun k _ => (ha b k).mul (ha b k)

/-- The two projections of a matrix of real entries agree when `a` has real entries and a positive squared norm. -/
theorem projR_eq_projK (a : Mat B I) (h : Mat B H) (ha : ∀ b k, IsReal (a b k)) (hh : ∀ b j, IsReal (h b j))
    (hpos : 0 < sumsq a) : projR a h = projK a h := by
  funext b j
  unfold projR projK gram
  rw [ProjLawE.normalised_eq_scaled a (fun b' => h b' j) (sumsq a) ha (fun b' => hh b' j) (isReal_sumsq a ha) hpos b]

variable (A : Args B I H O)

/-- Under real `n_r`, `n_t` of positive squared norm, the next state is the same under either projection. -/
theorem hNext_eq (hr : ∀ b k, IsReal (A.n_r b k)) (ht : ∀ b k, IsReal (A.n_t b k))
    (hrpos : 0 < sumsq A.n_r) (htpos : 0 < sumsq A.n_t) : hNext projR A = hNext projK A := by
  have e1 : h1 projR A = h1 projK A := by
    unfold h1
    rw [projR_eq_projK A.n_r (h0 A) hr (fun b j => isReal_cell ..) hrpos]
  unfold hNext
  rw [e1, projR_eq_projK A.n_t (h1 projK A) ht (fun b j => isReal_cell ..) htpos]

/-- … and so is the second result. -/
theorem bOut_eq (hr : ∀ b k, IsReal (A.n_r b k)) (ht : ∀ b k, IsReal (A.n_t b k))
    (hrpos : 0 < sumsq A.n_r) (htpos : 0 < sumsq A.n_t) : bOut projR A = bOut projK A := by
  unfold bOut
  rw [hNext_eq A hr ht hrpos htpos]

end Spec
-- ==== Proof.RefBridge.lean ====
/-
  The reference's two results are the kernel's specification, when the two memories agree on the arguments and the
  precondition holds of them.

  The reference's results are the specification with the reference's projection, of the reference's arguments; those are
  the kernel's arguments by the agreement; the precondition makes the two projected-out matrices real with positive
  squared norms, and there the specification is the same under either projection.
-/
import proofs.«152349_j35390530519886_2_alg».proof.Defs
import proofs.«152349_j35390530519886_2_alg».proof.Proof.Gen.KernelIdeal
import proofs.«152349_j35390530519886_2_alg».proof.Proof.Gen.ReferenceIdeal.Run
import proofs.«152349_j35390530519886_2_alg».proof.Proof.Gen.ReferenceIdeal.Read
import proofs.«152349_j35390530519886_2_alg».proof.Proof.Gen.Pre_finite_inputs
import proofs.«152349_j35390530519886_2_alg».proof.Proof.RefSide
import proofs.«152349_j35390530519886_2_alg».proof.Proof.PreDecode
import proofs.«152349_j35390530519886_2_alg».proof.Proof.SpecLaw

noncomputable section

namespace Cert.Proof.Parts

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's fourteen arguments at the launch, as the specification's record. -/
abbrev kargs : Spec.Args 65536 256 256 128 :=
  Spec.argsOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))

/-- The two memories agree on the fourteen arguments. -/
abbrev Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- The precondition, of the kernel's arguments on one device. -/
abbrev PreAt : Prop :=
  Cert.Pre_finite_inputs.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) = fun _ => 1#1

/-- Under the precondition the specification is the same under either projection: the next state. -/
theorem hNext_projR_eq_projK (hpre : PreAt m c) : Spec.hNext Spec.projR (kargs m c) = Spec.hNext Spec.projK (kargs m c) := by
  obtain ⟨hr, ht, hrpos, htpos⟩ := Cert.Pre_finite_inputs.Decode.of_pre _ _ _ _ _ _ _ _ _ _ _ _ _ _ hpre
  exact Spec.hNext_eq (kargs m c) hr ht hrpos htpos

/-- Under the precondition the specification is the same under either projection: the second result. -/
theorem bOut_projR_eq_projK (hpre : PreAt m c) : Spec.bOut Spec.projR (kargs m c) = Spec.bOut Spec.projK (kargs m c) := by
  obtain ⟨hr, ht, hrpos, htpos⟩ := Cert.Pre_finite_inputs.Decode.of_pre _ _ _ _ _ _ _ _ _ _ _ _ _ _ hpre
  exact Spec.bOut_eq (kargs m c) hr ht hrpos htpos

/-- The reference's first result is the next state with the kernel's projection, of the kernel's arguments. -/
theorem ref_hNext (hpre : PreAt m c) (hagree : Agree m m' c) :
    Cert.ReferenceIdeal.Value.res_main_v52 (F := Ideal) m' c
      = fun i : Cert.ReferenceIdeal.S65536x256.Idx => Spec.hNext Spec.projK (kargs m c) (i 0) (i 1) := by
  obtain ⟨a0, a1, a2, a3, a4, a5, a6, a7, a8, a9, a10, a11, a12, a13⟩ := hagree
  rw [Cert.ReferenceIdeal.Read.val_main_v52_eq, a0, a1, a2, a3, a4, a5, a6, a7, a8, a9, a12, a13]
  funext i
  obtain ⟨b, j, rfl⟩ : ∃ (b : Fin 65536) (j : Fin 256), i = ix2 b j := ⟨i 0, i 1, eq_ix2 i⟩
  refine (Cert.ReferenceIdeal.RefSide.hNext_ref _ _ _ _ _ _ _ _ _ _ (m ((c.tc : Thread Cert.KernelIdeal.nD Cert.KernelIdeal.τ).loc Cert.KernelIdeal.main_arg10)) (m ((c.tc : Thread Cert.KernelIdeal.nD Cert.KernelIdeal.τ).loc Cert.KernelIdeal.main_arg11)) _ _ b j).trans ?_
  exact congrFun (congrFun (hNext_projR_eq_projK m c hpre) b) j

/-- The reference's second result is the kernel's specification's, of the kernel's arguments. -/
theorem ref_bOut (hpre : PreAt m c) (hagree : Agree m m' c) :
    Cert.ReferenceIdeal.Value.res_main_v58 (F := Ideal) m' c
      = fun i : Cert.ReferenceIdeal.S65536x128.Idx => Spec.bOut Spec.projK (kargs m c) (i 0) (i 1) := by
  obtain ⟨a0, a1, a2, a3, a4, a5, a6, a7, a8, a9, a10, a11, a12, a13⟩ := hagree
  rw [Cert.ReferenceIdeal.Read.val_main_v58_eq, a0, a1, a2, a3, a4, a5, a6, a7, a8, a9, a10, a11, a12, a13]
  funext i
  obtain ⟨b, o, rfl⟩ : ∃ (b : Fin 65536) (o : Fin 128), i = ix2 b o := ⟨i 0, i 1, eq_ix2 i⟩
  refine (Cert.ReferenceIdeal.RefSide.bOut_ref _ _ _ _ _ _ _ _ _ _ _ _ _ _ b o).trans ?_
  exact congrFun (congrFun (bOut_projR_eq_projK m c hpre) b) o

end Cert.Proof.Parts
-- ==== Proof.Assemble.lean ====
/-
  The five parts of the claim.

  The two kernels' frames are the ones the generated frame modules imported here prove. The reference has no kernel:
  its frame is its run with the results dropped. The idealized kernel is the kernel's own text read over the extended
  reals, so nothing was rewritten and there is nothing to preserve. And the two idealized programs end with equal
  results: the kernel's are the specification with the kernel's projection, of its arguments; the reference's are the
  same function of the same arguments, by the agreement of the memories and the precondition.
-/
import proofs.«152349_j35390530519886_2_alg».proof.Defs
import proofs.«152349_j35390530519886_2_alg».proof.Proof.Gen.Kernel.Frame
import proofs.«152349_j35390530519886_2_alg».proof.Proof.Gen.KernelIdeal.Frame
import proofs.«152349_j35390530519886_2_alg».proof.Proof.Gen.ReferenceIdeal.Run
import proofs.«152349_j35390530519886_2_alg».proof.Proof.Gen.Pre_finite_inputs
import proofs.«152349_j35390530519886_2_alg».proof.Proof.KValue
import proofs.«152349_j35390530519886_2_alg».proof.Proof.RefBridge

noncomputable section

namespace Cert.Proof.Parts

open Idealize.ShloMosaic Idealize.ShloMosaic.TcCoe Idealize.SL.Sem

/-- The kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_ki :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the two results dropped. -/
theorem frame_ri :
    Cert.frame_ReferenceIdeal (hReferenceIdeal := Cert.ReferenceIdeal.Gen.facts)
      (hPre_finite_inputs := Cert.Pre_finite_inputs.Gen.facts) :=
  fun m ρ _ =>
    (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- From memories that agree on the arguments, under the precondition, the two idealized programs end with equal
    results and unchanged arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.KValue.resH m c, fun c => Cert.KernelIdeal.KValue.resB m c,
    Cert.KernelIdeal.KValue.run m ρ, ?_⟩
  refine (θ_run Cert.ReferenceIdeal.defs _ _).mono
    (fun _ h c => ⟨(h c).1.trans ?_, (h c).2.1.trans ?_, (h c).2.2⟩) (Cert.ReferenceIdeal.Value.run (F := Ideal) m' ρ')
  · exact ref_hNext m m' c (hpre c) (hagree c)
  · exact ref_bOut m m' c (hpre c) (hagree c)

end Cert.Proof.Parts
-- ==== Proof.lean ====
/-
  The kernel computes, in three passes over 32 row blocks of 2048 rows, what the reference computes in one piece:

      h₀    = tanh (n_h · W_nhᵀ + b_nh) + tanh (h_prev · W_hᵀ + b_h)
      h₁    = tanh (n_r · W_nrᵀ + b_nr) + tanh (P_{n_r} h₀ · W_hᵀ + b_h)
      hNext = tanh (n_t · W_ntᵀ + b_nt) + tanh (P_{n_t} h₁ · W_hᵀ + b_h)
      b     = tanh (hNext · W_btᵀ + b_bt)

  where `P_a h` removes from `h` its component along the whole matrix `a`. The reference writes
  `P_a h = h − (a / ‖a‖) · ((a / ‖a‖)ᵀ h)`; the kernel accumulates the Gram matrix `aᵀ h` and the squared norm `‖a‖²`
  block by block and core by core, sums the two cores' partial results, and writes `P_a h = h − (a · (aᵀ h)) · (1 / ‖a‖²)`.
  Over the extended reals a change of float format is the identity and a finite sum may be regrouped freely, so the
  blocked accumulation is the whole contraction; and since a cell's entries are always real numbers, the two forms of
  the projection agree once `a` has real entries and a positive squared norm — which is what the precondition says of
  `n_r` and `n_t` (where the squared norm is zero the reference divides zero by zero).

  The three frames are the generated frame certificates and the reference's generated run; the kernel's idealization
  rewrote nothing; the value claim is assembled in `Assemble` from the kernel's run with its results named (`KValue`),
  the reference's run read entry by entry (`RefSide`), the precondition decoded (`PreDecode`) and the law (`SpecLaw`).
-/
import proofs.«152349_j35390530519886_2_alg».proof.Defs
import proofs.«152349_j35390530519886_2_alg».proof.Proof.Gen.Kernel
import proofs.«152349_j35390530519886_2_alg».proof.Proof.Gen.Kernel.Skeleton
import proofs.«152349_j35390530519886_2_alg».proof.Proof.Gen.Kernel.Launch
import proofs.«152349_j35390530519886_2_alg».proof.Proof.Gen.Kernel.Points
import proofs.«152349_j35390530519886_2_alg».proof.Proof.Gen.Kernel.Frame
import proofs.«152349_j35390530519886_2_alg».proof.Proof.Gen.KernelIdeal
import proofs.«152349_j35390530519886_2_alg».proof.Proof.Gen.KernelIdeal.Skeleton
import proofs.«152349_j35390530519886_2_alg».proof.Proof.Gen.KernelIdeal.Launch
import proofs.«152349_j35390530519886_2_alg».proof.Proof.Gen.KernelIdeal.Points
import proofs.«152349_j35390530519886_2_alg».proof.Proof.Gen.KernelIdeal.Frame
import proofs.«152349_j35390530519886_2_alg».proof.Proof.Gen.ReferenceIdeal
import proofs.«152349_j35390530519886_2_alg».proof.Proof.Gen.ReferenceIdeal.Run
import proofs.«152349_j35390530519886_2_alg».proof.Proof.Gen.ReferenceIdeal.Read
import proofs.«152349_j35390530519886_2_alg».proof.Proof.Gen.Pre_finite_inputs
import proofs.«152349_j35390530519886_2_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, Cert.Proof.Parts.preserves, Cert.Proof.Parts.algebraic⟩

end Cert.Proof

end
